-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S2x800000 : Shape := ⟨2, ![2, 800000]⟩
abbrev S8192x128 : Shape := ⟨2, ![8192, 128]⟩
abbrev S8192 : Shape := ⟨1, ![8192]⟩
abbrev S640x128 : Shape := ⟨2, ![640, 128]⟩
abbrev S640 : Shape := ⟨1, ![640]⟩
abbrev S2x640 : Shape := ⟨2, ![2, 640]⟩
abbrev S2 : Shape := ⟨1, ![2]⟩
abbrev S128x128 : Shape := ⟨2, ![128, 128]⟩
abbrev S128 : Shape := ⟨1, ![128]⟩
abbrev S128x384 : Shape := ⟨2, ![128, 384]⟩
abbrev S128x1 : Shape := ⟨2, ![128, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S8192x128 : S_.BroadcastsInDim S8192x128 (![] : Fin 0 → Fin S8192x128.rank)
  reducesTo_S8192x128_S_d0_1 : S8192x128.ReducesTo [0, 1] S_
  bcast_S_S640x128 : S_.BroadcastsInDim S640x128 (![] : Fin 0 → Fin S640x128.rank)
  reducesTo_S640x128_S_d0_1 : S640x128.ReducesTo [0, 1] S_
  bcast_S_S640 : S_.BroadcastsInDim S640 (![] : Fin 0 → Fin S640.rank)
  reducesTo_S640_S_d0 : S640.ReducesTo [0] S_
  bcast_S_S2x640 : S_.BroadcastsInDim S2x640 (![] : Fin 0 → Fin S2x640.rank)
  reducesTo_S2x640_S_d0_1 : S2x640.ReducesTo [0, 1] S_
  bcast_S_S2 : S_.BroadcastsInDim S2 (![] : Fin 0 → Fin S2.rank)
  reducesTo_S2_S_d0 : S2.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S128x1 : S_.BroadcastsInDim S128x1 (![] : Fin 0 → Fin S128x1.rank)
  reducesTo_S128x1_S_d0_1 : S128x1.ReducesTo [0, 1] S_

variable [Facts]

def fn_part8 {F : FTy → Type} [FloatOps F] (main_arg31 : FVec F S128x1 .f32) (main_v133 : IVec S_ 1) (main_v136 : IVec S128x1 1) : IVec S_ 1 :=
  let main_c_53 : IVec S_ 1 := constantI S_ 1 1#1
  let main_v137 : IVec S_ 1 := (fun x v => Host.reduce IntOp.andi x v reducesTo_S128x1_S_d0_1 h_S_) main_v136 main_c_53
  let main_v138 : IVec S_ 1 := andi main_v133 main_v137
  let main_v139 : FVec F S128x1 .f32 := Host.absf main_arg31
  let main_cst_54 : FVec F S_ .f32 := constant S_ .f32 0x7F800000#32
  let main_v140 : FVec F S128x1 .f32 := broadcastInDim S128x1 ![] bcast_S_S128x1 main_cst_54
  let main_v141 : IVec S128x1 1 := cmpf .olt main_v139 main_v140
  let main_c_55 : IVec S_ 1 := constantI S_ 1 1#1
  let main_v142 : IVec S_ 1 := (fun x v => Host.reduce IntOp.andi x v reducesTo_S128x1_S_d0_1 h_S_) main_v141 main_c_55
  let main_v143 : IVec S_ 1 := andi main_v138 main_v142
  main_v143

def fn_part7 {F : FTy → Type} [FloatOps F] (main_arg28 : FVec F S128x384 .f32) (main_arg29 : FVec F S128 .f32) (main_arg30 : FVec F S128x1 .f32) (main_arg31 : FVec F S128x1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x384 .f32 := Host.absf main_arg28
  let main_cst_48 : FVec F S_ .f32 := constant S_ .f32 0x7F800000#32
  let main_v125 : FVec F S128x384 .f32 := broadcastInDim S128x384 ![] bcast_S_S128x384 main_cst_48
  let main_v126 : IVec S128x384 1 := cmpf .olt main_v124 main_v125
  let main_c_49 : IVec S_ 1 := constantI S_ 1 1#1
  let main_v127 : IVec S_ 1 := (fun x v => Host.reduce IntOp.andi x v reducesTo_S128x384_S_d0_1 h_S_) main_v126 main_c_49
  let main_v128 : IVec S_ 1 := andi main_v123 main_v127
  let main_v129 : FVec F S128 .f32 := Host.absf main_arg29
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x1 .f32 := Host.absf main_arg30
  let main_cst_52 : FVec F S_ .f32 := constant S_ .f32 0x7F800000#32
  let main_v135 : FVec F S128x1 .f32 := broadcastInDim S128x1 ![] bcast_S_S128x1 main_cst_52
  let main_v136 : IVec S128x1 1 := cmpf .olt main_v134 main_v135
  fn_part8 (F := F) main_arg31 main_v133 main_v136

def fn_part6 {F : FTy → Type} [FloatOps F] (main_arg24 : FVec F S128x128 .f32) (main_arg25 : FVec F S128 .f32) (main_arg26 : FVec F S128x128 .f32) (main_arg27 : FVec F S128 .f32) (main_arg28 : FVec F S128x384 .f32) (main_arg29 : FVec F S128 .f32) (main_arg30 : FVec F S128x1 .f32) (main_arg31 : FVec F S128x1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg24
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg26
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg27
  fn_part7 (F := F) main_arg28 main_arg29 main_arg30 main_arg31 main_v118 main_v119

def fn_part5 {F : FTy → Type} [FloatOps F] (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x384 .f32) (main_arg29 : FVec F S128 .f32) (main_arg30 : FVec F S128x1 .f32) (main_arg31 : FVec F S128x1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg22
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg24 main_arg25 main_arg26 main_arg27 main_arg28 main_arg29 main_arg30 main_arg31 main_v98 main_v101 main_c_39

def fn_part4 {F : FTy → Type} [FloatOps F] (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x384 .f32) (main_arg29 : FVec F S128 .f32) (main_arg30 : FVec F S128x1 .f32) (main_arg31 : FVec F S128x1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_arg31 main_v83 main_v84 main_cst_32

def fn_part3 {F : FTy → Type} [FloatOps F] (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x384 .f32) (main_arg29 : FVec F S128 .f32) (main_arg30 : FVec F S128x1 .f32) (main_arg31 : FVec F S128x1 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg10 : FVec F S640x128 .f32) (main_arg11 : FVec F S640 .f32) (main_arg12 : FVec F S2x640 .f32) (main_arg13 : FVec F S2 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x384 .f32) (main_arg29 : FVec F S128 .f32) (main_arg30 : FVec F S128x1 .f32) (main_arg31 : FVec F S128x1 .f32) (main_v33 : IVec S_ 1) : IVec S_ 1 :=
  let main_v34 : FVec F S640x128 .f32 := Host.absf main_arg10
  let main_cst_12 : FVec F S_ .f32 := constant S_ .f32 0x7F800000#32
  let main_v35 : FVec F S640x128 .f32 := broadcastInDim S640x128 ![] bcast_S_S640x128 main_cst_12
  let main_v36 : IVec S640x128 1 := cmpf .olt main_v34 main_v35
  let main_c_13 : IVec S_ 1 := constantI S_ 1 1#1
  let main_v37 : IVec S_ 1 := (fun x v => Host.reduce IntOp.andi x v reducesTo_S640x128_S_d0_1 h_S_) main_v36 main_c_13
  let main_v38 : IVec S_ 1 := andi main_v33 main_v37
  let main_v39 : FVec F S640 .f32 := Host.absf main_arg11
  let main_cst_14 : FVec F S_ .f32 := constant S_ .f32 0x7F800000#32
  let main_v40 : FVec F S640 .f32 := broadcastInDim S640 ![] bcast_S_S640 main_cst_14
  let main_v41 : IVec S640 1 := cmpf .olt main_v39 main_v40
  let main_c_15 : IVec S_ 1 := constantI S_ 1 1#1
  let main_v42 : IVec S_ 1 := (fun x v => Host.reduce IntOp.andi x v reducesTo_S640_S_d0 h_S_) main_v41 main_c_15
  let main_v43 : IVec S_ 1 := andi main_v38 main_v42
  let main_v44 : FVec F S2x640 .f32 := Host.absf main_arg12
  let main_cst_16 : FVec F S_ .f32 := constant S_ .f32 0x7F800000#32
  let main_v45 : FVec F S2x640 .f32 := broadcastInDim S2x640 ![] bcast_S_S2x640 main_cst_16
  let main_v46 : IVec S2x640 1 := cmpf .olt main_v44 main_v45
  let main_c_17 : IVec S_ 1 := constantI S_ 1 1#1
  let main_v47 : IVec S_ 1 := (fun x v => Host.reduce IntOp.andi x v reducesTo_S2x640_S_d0_1 h_S_) main_v46 main_c_17
  let main_v48 : IVec S_ 1 := andi main_v43 main_v47
  let main_v49 : FVec F S2 .f32 := Host.absf main_arg13
  let main_cst_18 : FVec F S_ .f32 := constant S_ .f32 0x7F800000#32
  let main_v50 : FVec F S2 .f32 := broadcastInDim S2 ![] bcast_S_S2 main_cst_18
  fn_part3 (F := F) main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg6 : FVec F S8192x128 .f32) (main_arg7 : FVec F S8192x128 .f32) (main_arg9 : FVec F S8192x128 .f32) (main_arg10 : FVec F S640x128 .f32) (main_arg11 : FVec F S640 .f32) (main_arg12 : FVec F S2x640 .f32) (main_arg13 : FVec F S2 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x384 .f32) (main_arg29 : FVec F S128 .f32) (main_arg30 : FVec F S128x1 .f32) (main_arg31 : FVec F S128x1 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S8192x128 .f32 := Host.absf main_arg6
  let main_cst_6 : FVec F S_ .f32 := constant S_ .f32 0x7F800000#32
  let main_v20 : FVec F S8192x128 .f32 := broadcastInDim S8192x128 ![] bcast_S_S8192x128 main_cst_6
  let main_v21 : IVec S8192x128 1 := cmpf .olt main_v19 main_v20
  let main_c_7 : IVec S_ 1 := constantI S_ 1 1#1
  let main_v22 : IVec S_ 1 := (fun x v => Host.reduce IntOp.andi x v reducesTo_S8192x128_S_d0_1 h_S_) main_v21 main_c_7
  let main_v23 : IVec S_ 1 := andi main_v18 main_v22
  let main_v24 : FVec F S8192x128 .f32 := Host.absf main_arg7
  let main_cst_8 : FVec F S_ .f32 := constant S_ .f32 0x7F800000#32
  let main_v25 : FVec F S8192x128 .f32 := broadcastInDim S8192x128 ![] bcast_S_S8192x128 main_cst_8
  let main_v26 : IVec S8192x128 1 := cmpf .olt main_v24 main_v25
  let main_c_9 : IVec S_ 1 := constantI S_ 1 1#1
  let main_v27 : IVec S_ 1 := (fun x v => Host.reduce IntOp.andi x v reducesTo_S8192x128_S_d0_1 h_S_) main_v26 main_c_9
  let main_v28 : IVec S_ 1 := andi main_v23 main_v27
  let main_v29 : FVec F S8192x128 .f32 := Host.absf main_arg9
  let main_cst_10 : FVec F S_ .f32 := constant S_ .f32 0x7F800000#32
  let main_v30 : FVec F S8192x128 .f32 := broadcastInDim S8192x128 ![] bcast_S_S8192x128 main_cst_10
  let main_v31 : IVec S8192x128 1 := cmpf .olt main_v29 main_v30
  let main_c_11 : IVec S_ 1 := constantI S_ 1 1#1
  let main_v32 : IVec S_ 1 := (fun x v => Host.reduce IntOp.andi x v reducesTo_S8192x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S100000x128 .f32) (main_arg1 : FVec F S800000 .f32) (main_arg2 : IVec S2x800000 32) (main_arg3 : FVec F S100000x128 .f32) (main_arg4 : FVec F S800000 .f32) (main_arg5 : IVec S2x800000 32) (main_arg6 : FVec F S8192x128 .f32) (main_arg7 : FVec F S8192x128 .f32) (main_arg8 : IVec S8192 32) (main_arg9 : FVec F S8192x128 .f32) (main_arg10 : FVec F S640x128 .f32) (main_arg11 : FVec F S640 .f32) (main_arg12 : FVec F S2x640 .f32) (main_arg13 : FVec F S2 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x384 .f32) (main_arg29 : FVec F S128 .f32) (main_arg30 : FVec F S128x1 .f32) (main_arg31 : FVec F S128x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S800000 .f32 := Host.absf main_arg4
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg6 main_arg7 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S100000x128 : Shape := ⟨2, ![100000, 128]⟩
abbrev S800000 : Shape := ⟨1, ![800000]⟩
abbrev S2x800000 : Shape := ⟨2, ![2, 800000]⟩
abbrev S8192x128 : Shape := ⟨2, ![8192, 128]⟩
abbrev S8192 : Shape := ⟨1, ![8192]⟩
abbrev S640x128 : Shape := ⟨2, ![640, 128]⟩
abbrev S640 : Shape := ⟨1, ![640]⟩
abbrev S2x640 : Shape := ⟨2, ![2, 640]⟩
abbrev S2 : Shape := ⟨1, ![2]⟩
abbrev S128x128 : Shape := ⟨2, ![128, 128]⟩
abbrev S128 : Shape := ⟨1, ![128]⟩
abbrev S128x384 : Shape := ⟨2, ![128, 384]⟩
abbrev S128x1 : Shape := ⟨2, ![128, 1]⟩
abbrev S1x128 : Shape := ⟨2, ![1, 128]⟩
abbrev S10000x128 : Shape := ⟨2, ![10000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S5000x1 : Shape := ⟨2, ![5000, 1]⟩
abbrev S5000 : Shape := ⟨1, ![5000]⟩
abbrev S50000x128 : Shape := ⟨2, ![50000, 128]⟩
abbrev S8192x1 : Shape := ⟨2, ![8192, 1]⟩
abbrev S1024x128 : Shape := ⟨2, ![1024, 128]⟩
abbrev S4096x128 : Shape := ⟨2, ![4096, 128]⟩
abbrev S1x640 : Shape := ⟨2, ![1, 640]⟩
abbrev S1x2 : Shape := ⟨2, ![1, 2]⟩
abbrev S4096x2 : Shape := ⟨2, ![4096, 2]⟩
abbrev S1024x2 : Shape := ⟨2, ![1024, 2]⟩
abbrev S128x640 : Shape := ⟨2, ![128, 640]⟩
abbrev S1024x640 : Shape := ⟨2, ![1024, 640]⟩
abbrev S640x2 : Shape := ⟨2, ![640, 2]⟩

abbrev nBuf : Space → Nat
  | .hbm => 114
  | .vmem => 60
  | .smem => 0
  | _ => 0

abbrev bufTy : (tb : Table) → Fin (tcTables nBuf tb) → BufTy
  | .hbm, ⟨0, _⟩ => ⟨S100000x128, .f32⟩
  | .hbm, ⟨1, _⟩ => ⟨S800000, .f32⟩
  | .hbm, ⟨2, _⟩ => ⟨S2x800000, .i32⟩
  | .hbm, ⟨3, _⟩ => ⟨S100000x128, .f32⟩
  | .hbm, ⟨4, _⟩ => ⟨S800000, .f32⟩
  | .hbm, ⟨5, _⟩ => ⟨S2x800000, .i32⟩
  | .hbm, ⟨6, _⟩ => ⟨S8192x128, .f32⟩
  | .hbm, ⟨7, _⟩ => ⟨S8192x128, .f32⟩
  | .hbm, ⟨8, _⟩ => ⟨S8192, .i32⟩
  | .hbm, ⟨9, _⟩ => ⟨S8192x128, .f32⟩
  | .hbm, ⟨10, _⟩ => ⟨S640x128, .f32⟩
  | .hbm, ⟨11, _⟩ => ⟨S640, .f32⟩
  | .hbm, ⟨12, _⟩ => ⟨S2x640, .f32⟩
  | .hbm, ⟨13, _⟩ => ⟨S2, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S128x384, .f32⟩
  | .hbm, ⟨29, _⟩ => ⟨S128, .f32⟩
  | .hbm, ⟨30, _⟩ => ⟨S128x1, .f32⟩
  | .hbm, ⟨31, _⟩ => ⟨S128x1, .f32⟩
  | .hbm, ⟨32, _⟩ => ⟨S1x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S1x800000, .i32⟩
  | .hbm, ⟨37, _⟩ => ⟨S800000, .i32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S1x128, .f32⟩
  | .hbm, ⟨51, _⟩ => ⟨S800000x128, .f32⟩
  | .hbm, ⟨52, _⟩ => ⟨S_, .f32⟩
  | .hbm, ⟨53, _⟩ => ⟨S100000x128, .f32⟩
  | .hbm, ⟨54, _⟩ => ⟨S800000x1, .i32⟩
  | .hbm, ⟨55, _⟩ => ⟨S100000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S1x800000, .i32⟩
  | .hbm, ⟨61, _⟩ => ⟨S800000, .i32⟩
  | .hbm, ⟨62, _⟩ => ⟨S1x800000, .i32⟩
  | .hbm, ⟨63, _⟩ => ⟨S800000, .i32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S800000x1, .f32⟩
  | .hbm, ⟨74, _⟩ => ⟨S1x128, .f32⟩
  | .hbm, ⟨75, _⟩ => ⟨S800000x128, .f32⟩
  | .hbm, ⟨76, _⟩ => ⟨S_, .f32⟩
  | .hbm, ⟨77, _⟩ => ⟨S100000x128, .f32⟩
  | .hbm, ⟨78, _⟩ => ⟨S800000x1, .i32⟩
  | .hbm, ⟨79, _⟩ => ⟨S100000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S8192, .i32⟩
  | .hbm, ⟨86, _⟩ => ⟨S8192, .i1⟩
  | .hbm, ⟨87, _⟩ => ⟨S_, .i32⟩
  | .hbm, ⟨88, _⟩ => ⟨S8192, .i32⟩
  | .hbm, ⟨89, _⟩ => ⟨S8192, .i32⟩
  | .hbm, ⟨90, _⟩ => ⟨S8192, .i32⟩
  | .hbm, ⟨91, _⟩ => ⟨S8192x1, .i32⟩
  | .hbm, ⟨92, _⟩ => ⟨S8192x128, .f32⟩
  | .hbm, ⟨93, _⟩ => ⟨S_, .i32⟩
  | .hbm, ⟨94, _⟩ => ⟨S8192, .i32⟩
  | .hbm, ⟨95, _⟩ => ⟨S8192, .i1⟩
  | .hbm, ⟨96, _⟩ => ⟨S_, .i32⟩
  | .hbm, ⟨97, _⟩ => ⟨S8192, .i32⟩
  | .hbm, ⟨98, _⟩ => ⟨S8192, .i32⟩
  | .hbm, ⟨99, _⟩ => ⟨S8192, .i32⟩
  | .hbm, ⟨100, _⟩ => ⟨S8192x1, .i32⟩
  | .hbm, ⟨101, _⟩ => ⟨S8192x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S8192x128, .f32⟩
  | .hbm, ⟨109, _⟩ => ⟨S4096x128, .f32⟩
  | .hbm, ⟨110, _⟩ => ⟨S4096x128, .f32⟩
  | .hbm, ⟨111, _⟩ => ⟨S1x640, .f32⟩
  | .hbm, ⟨112, _⟩ => ⟨S1x2, .f32⟩
  | .hbm, ⟨113, _⟩ => ⟨S4096x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S128x384, .f32⟩
  | .local _ .vmem, ⟨47, _⟩ => ⟨S1x128, .f32⟩
  | .local _ .vmem, ⟨48, _⟩ => ⟨S1024x128, .f32⟩
  | .local _ .vmem, ⟨49, _⟩ => ⟨S1024x128, .f32⟩
  | .local _ .vmem, ⟨50, _⟩ => ⟨S1024x128, .f32⟩
  | .local _ .vmem, ⟨51, _⟩ => ⟨S1024x128, .f32⟩
  | .local _ .vmem, ⟨52, _⟩ => ⟨S1024x128, .f32⟩
  | .local _ .vmem, ⟨53, _⟩ => ⟨S1024x128, .f32⟩
  | .local _ .vmem, ⟨54, _⟩ => ⟨S640x128, .f32⟩
  | .local _ .vmem, ⟨55, _⟩ => ⟨S1x640, .f32⟩
  | .local _ .vmem, ⟨56, _⟩ => ⟨S2x640, .f32⟩
  | .local _ .vmem, ⟨57, _⟩ => ⟨S1x2, .f32⟩
  | .local _ .vmem, ⟨58, _⟩ => ⟨S1024x2, .f32⟩
  | .local _ .vmem, ⟨59, _⟩ => ⟨S1024x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_c : Ref sig .tc := ⟨.hbm, 40, rfl⟩
abbrev main_v8 : Ref sig .tc := ⟨.hbm, 41, rfl⟩
abbrev main_v9 : Ref sig .tc := ⟨.hbm, 42, rfl⟩
abbrev main_c_0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call0_cst : Ref sig .tc := ⟨.hbm, 57, rfl⟩
abbrev main_call0_v0 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_1 : Ref sig .tc := ⟨.hbm, 64, rfl⟩
abbrev main_v27 : Ref sig .tc := ⟨.hbm, 65, rfl⟩
abbrev main_v28 : Ref sig .tc := ⟨.hbm, 66, rfl⟩
abbrev main_c_2 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_3 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call1_cst : Ref sig .tc := ⟨.hbm, 81, rfl⟩
abbrev main_call1_v0 : Ref sig .tc := ⟨.hbm, 82, rfl⟩
abbrev main_v41 : Ref sig .tc := ⟨.hbm, 83, rfl⟩
abbrev main_c_4 : Ref sig .tc := ⟨.hbm, 84, rfl⟩
abbrev main_v42 : Ref sig .tc := ⟨.hbm, 85, rfl⟩
abbrev main_v43 : Ref sig .tc := ⟨.hbm, 86, rfl⟩
abbrev main_c_5 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_6 : Ref sig .tc := ⟨.hbm, 93, rfl⟩
abbrev main_v49 : Ref sig .tc := ⟨.hbm, 94, rfl⟩
abbrev main_v50 : Ref sig .tc := ⟨.hbm, 95, rfl⟩
abbrev main_c_7 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg8_0 : Ref sig .tc := ⟨.vmem, 39, rfl⟩
abbrev cc4_stg9_0 : Ref sig .tc := ⟨.vmem, 40, rfl⟩
abbrev cc4_stg10_0 : Ref sig .tc := ⟨.vmem, 41, rfl⟩
abbrev cc4_stg11_0 : Ref sig .tc := ⟨.vmem, 42, rfl⟩
abbrev cc4_stg12_0 : Ref sig .tc := ⟨.vmem, 43, rfl⟩
abbrev cc4_stg13_0 : Ref sig .tc := ⟨.vmem, 44, rfl⟩
abbrev cc4_stg14_0 : Ref sig .tc := ⟨.vmem, 45, rfl⟩
abbrev cc4_stg15_0 : Ref sig .tc := ⟨.vmem, 46, rfl⟩
abbrev cc4_stg16_0 : Ref sig .tc := ⟨.vmem, 47, rfl⟩
abbrev cc4_stg17_0 : Ref sig .tc := ⟨.vmem, 48, rfl⟩
abbrev cc4_stg17_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc4_sem5_0 : DmaSem sig := 36
abbrev cc4_sem6_0 : DmaSem sig := 37
abbrev cc4_sem7_0 : DmaSem sig := 38
abbrev cc4_sem8_0 : DmaSem sig := 39
abbrev cc4_sem9_0 : DmaSem sig := 40
abbrev cc4_sem10_0 : DmaSem sig := 41
abbrev cc4_sem11_0 : DmaSem sig := 42
abbrev cc4_sem12_0 : DmaSem sig := 43
abbrev cc4_sem13_0 : DmaSem sig := 44
abbrev cc4_sem14_0 : DmaSem sig := 45
abbrev cc4_sem15_0 : DmaSem sig := 46
abbrev cc4_sem16_0 : DmaSem sig := 47
abbrev cc4_sem17_0 : DmaSem sig := 48
abbrev cc4_sem17_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S128x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S128x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x128 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S128x384 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S1x128 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 2 → Memref sig .tc .vmem S1024x128 .f32 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S640x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x640 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2x640 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1024x2 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S800000x1 : S800000.ShapeCasts S800000x1
  shapeCasts_S128x1_S1x128 : S128x1.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  slices_S100000x128_S50000x128_20000_0 : S100000x128.Slices ![20000, 0] S50000x128
  bcast_S_S50000x128 : S_.BroadcastsInDim S50000x128 (![] : Fin 0 → Fin S50000x128.rank)
  bcast_S_S8192 : S_.BroadcastsInDim S8192 (![] : Fin 0 → Fin S8192.rank)
  bcast_S8192_S8192x1_0 : S8192.BroadcastsInDim S8192x1 (![0] : Fin 1 → Fin S8192x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  inb_S128x384_S128x384_0_0 : ∀ a, (![0, 0] : Fin 2 → Nat) a + S128x384.size a ≤ S128x384.size a
  h_S128x384 : 0 < S128x384.numel
  slices_S128x384_o0_0_S128x128 : S128x384.Slices ![0, 0] S128x128
  slices_S128x384_o0_128_S128x128 : S128x384.Slices ![0, 128] S128x128
  slices_S128x384_o0_256_S128x128 : S128x384.Slices ![0, 256] S128x128
  slices_S8192x128_S4096x128_0_0 : S8192x128.Slices ![0, 0] S4096x128
  slices_S8192x128_S4096x128_4096_0 : S8192x128.Slices ![4096, 0] S4096x128
  shapeCasts_S640_S1x640 : S640.ShapeCasts S1x640
  shapeCasts_S2_S1x2 : S2.ShapeCasts S1x2
  inb_S640x128_S640x128_0_0 : ∀ a, (![0, 0] : Fin 2 → Nat) a + S640x128.size a ≤ S640x128.size a
  h_S640x128 : 0 < S640x128.numel
  transposes_S640x128_p1_0_S128x640 : S640x128.Transposes [1, 0] S128x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S1024x640 : S1x640.Broadcasts S1024x640
  inb_S2x640_S2x640_0_0 : ∀ a, (![0, 0] : Fin 2 → Nat) a + S2x640.size a ≤ S2x640.size a
  h_S2x640 : 0 < S2x640.numel
  transposes_S2x640_p1_0_S640x2 : S2x640.Transposes [1, 0] S640x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S10000x128_S128x128_S10000x128_1_0_0_1_n_n_wf : DotDims.WF S10000x128 S128x128 S10000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  gather_S50000x128_S8192x1_S8192x128_1_0_n_n_0_1_1128_wf : GatherDims.WF S50000x128 S8192x1 S8192x128 [1] [0] [] [0] [] 1 ![1, 128]
  dot_S1024x128_S128x128_S1024x128_1_0_0_1_n_n_wf : DotDims.WF S1024x128 S128x128 S1024x128 [1] [0] [0] [1] [] []
  dot_S1024x128_S128x640_S1024x640_1_0_0_1_n_n_wf : DotDims.WF S1024x128 S128x640 S1024x640 [1] [0] [0] [1] [] []
  dot_S1024x640_S640x2_S1024x2_1_0_0_1_n_n_wf : DotDims.WF S1024x640 S640x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S800000x128.size a
  hwx2_0 : ∀ i : grid2.Coords, EltTy.bits .f32 = 32 ∨ (Rect.block (s := S800000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S800000x1.size a
  hwx2_1 : ∀ i : grid2.Coords, EltTy.bits .f32 = 32 ∨ (Rect.block (s := S800000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S800000x128.size a
  hwx2_3 : ∀ i : grid2.Coords, EltTy.bits .f32 = 32 ∨ (Rect.block (s := S800000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S800000x128.size a
  hwx3_0 : ∀ i : grid3.Coords, EltTy.bits .f32 = 32 ∨ (Rect.block (s := S800000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S800000x1.size a
  hwx3_1 : ∀ i : grid3.Coords, EltTy.bits .f32 = 32 ∨ (Rect.block (s := S800000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S800000x128.size a
  hwx3_3 : ∀ i : grid3.Coords, EltTy.bits .f32 = 32 ∨ (Rect.block (s := S800000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .f32 = 32 ∨ (Rect.block (s := S8192x128) S1024x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S8192x128.size a
  hwx4_1 : ∀ i : grid4.Coords, EltTy.bits .f32 = 32 ∨ (Rect.block (s := S8192x128) S1024x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S8192x128.size a
  hwx4_3 : ∀ i : grid4.Coords, EltTy.bits .f32 = 32 ∨ (Rect.block (s := S8192x128) S1024x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x128.size a ≤ S8192x128.size a
  hwx4_4 : ∀ i : grid4.Coords, EltTy.bits .f32 = 32 ∨ (Rect.block (s := S8192x128) S1024x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x128.size a ≤ S128x128.size a
  hwx4_9 : ∀ i : grid4.Coords, EltTy.bits .f32 = 32 ∨ (Rect.block (s := S128x128) S128x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S128x128.size a ≤ S128x128.size a
  hwx4_11 : ∀ i : grid4.Coords, EltTy.bits .f32 = 32 ∨ (Rect.block (s := S128x128) S128x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S128x128.size a ≤ S128x128.size a
  hwx4_13 : ∀ i : grid4.Coords, EltTy.bits .f32 = 32 ∨ (Rect.block (s := S128x128) S128x128.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x128.size a ≤ S1x128.size a
  hwx4_14 : ∀ i : grid4.Coords, EltTy.bits .f32 = 32 ∨ (Rect.block (s := S1x128) S1x128.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S128x384.size a ≤ S128x384.size a
  hwx4_15 : ∀ i : grid4.Coords, EltTy.bits .f32 = 32 ∨ (Rect.block (s := S128x384) S128x384.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S1x128.size a ≤ S1x128.size a
  hwx4_16 : ∀ i : grid4.Coords, EltTy.bits .f32 = 32 ∨ (Rect.block (s := S1x128) S1x128.size (cc4_transform_16 i) (hinb4_16 i)).WholeWords (EltTy.packing .f32)
  hstage4_17 : ∀ j, (stage4_17 j).IsWhole
  nbuf4_17 : grid4.bufCount reads4_17 false = 2
  hreads4_17 : ∀ i i' : grid4.Coords, (∀ a, reads4_17 a = true → i a = i' a) → cc4_transform_17 i = cc4_transform_17 i'
  hinb4_17 : ∀ (i : grid4.Coords) a, (cc4_transform_17 i a + 1) * S1024x128.size a ≤ S8192x128.size a
  hwx4_17 : ∀ i : grid4.Coords, EltTy.bits .f32 = 32 ∨ (Rect.block (s := S8192x128) S1024x128.size (cc4_transform_17 i) (hinb4_17 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S4096x128.size a
  hwx5_0 : ∀ i : grid5.Coords, EltTy.bits .f32 = 32 ∨ (Rect.block (s := S4096x128) S1024x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S4096x128.size a
  hwx5_1 : ∀ i : grid5.Coords, EltTy.bits .f32 = 32 ∨ (Rect.block (s := S4096x128) S1024x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S640x128.size a ≤ S640x128.size a
  hwx5_2 : ∀ i : grid5.Coords, EltTy.bits .f32 = 32 ∨ (Rect.block (s := S640x128) S640x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x640.size a ≤ S1x640.size a
  hwx5_3 : ∀ i : grid5.Coords, EltTy.bits .f32 = 32 ∨ (Rect.block (s := S1x640) S1x640.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2x640.size a ≤ S2x640.size a
  hwx5_4 : ∀ i : grid5.Coords, EltTy.bits .f32 = 32 ∨ (Rect.block (s := S2x640) S2x640.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x2.size a ≤ S1x2.size a
  hwx5_5 : ∀ i : grid5.Coords, EltTy.bits .f32 = 32 ∨ (Rect.block (s := S1x2) S1x2.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1024x2.size a ≤ S4096x2.size a
  hwx5_6 : ∀ i : grid5.Coords, EltTy.bits .f32 = 32 ∨ (Rect.block (s := S4096x2) S1024x2.size (cc5_transform_6 i) (hinb5_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x640_S1024x640_1_0_0_1_n_n : DotDims S1024x128 S128x640 S1024x640 where
  lhsContracting := [1]
  rhsContracting := [0]
  lhsNonContracting := [0]
  rhsNonContracting := [1]
  lhsBatch := []
  rhsBatch := []
  wf := dot_S1024x128_S128x640_S1024x640_1_0_0_1_n_n_wf
def dot_S1024x640_S640x2_S1024x2_1_0_0_1_n_n : DotDims S1024x640 S640x2 S1024x2 where
  lhsContracting := [1]
  rhsContracting := [0]
  lhsNonContracting := [0]
  rhsNonContracting := [1]
  lhsBatch := []
  rhsBatch := []
  wf := dot_S1024x640_S640x2_S1024x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg16) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v33) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v48) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S1024x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S1024x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v56) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg20) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v57) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg22) S128x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v58) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg24) S128x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v59) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg26) S128x128.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v60) S1x128.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_arg28) S128x384.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v61) S1x128.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_v62) S1024x128.size cc4_transform_17 reads4_17 true false 2 stage4_17 sem4_17
    hrank4 hreads4_17 hinb4_17 nbuf4_17 (Memref.isWhole_whole _) hwx4_17 hstage4_17

abbrev win4 : Fin 18 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | ⟨_ + 18, h⟩ => absurd h (Nat.not_lt.2 (Nat.le_add_left _ _))
abbrev spec4 : Fin 18 → Pipeline.WinSpec sig grid4.rank := fun w => (win4 w).toWinSpec

abbrev win5_0 : Pipeline.Window sig grid5 :=
  Pipeline.Window.ofSpec (Memref.whole main_v63) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S640x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S1x640.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S2x640.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S1x2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v67) S1024x2.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S800000 : Shape := ⟨1, ![800000]⟩
abbrev S2x800000 : Shape := ⟨2, ![2, 800000]⟩
abbrev S8192x128 : Shape := ⟨2, ![8192, 128]⟩
abbrev S8192 : Shape := ⟨1, ![8192]⟩
abbrev S640x128 : Shape := ⟨2, ![640, 128]⟩
abbrev S640 : Shape := ⟨1, ![640]⟩
abbrev S2x640 : Shape := ⟨2, ![2, 640]⟩
abbrev S2 : Shape := ⟨1, ![2]⟩
abbrev S128x128 : Shape := ⟨2, ![128, 128]⟩
abbrev S128 : Shape := ⟨1, ![128]⟩
abbrev S128x384 : Shape := ⟨2, ![128, 384]⟩
abbrev S128x1 : Shape := ⟨2, ![128, 1]⟩
abbrev S1x128 : Shape := ⟨2, ![1, 128]⟩
abbrev S1x800000 : Shape := ⟨2, ![1, 800000]⟩
abbrev S100000x1 : Shape := ⟨2, ![100000, 1]⟩
abbrev S_ : Shape := ⟨0, ![]⟩
abbrev S800000x1 : Shape := ⟨2, ![800000, 1]⟩
abbrev S800000x128 : Shape := ⟨2, ![800000, 128]⟩
abbrev S50000x128 : Shape := ⟨2, ![50000, 128]⟩
abbrev S8192x1 : Shape := ⟨2, ![8192, 1]⟩
abbrev S8192x384 : Shape := ⟨2, ![8192, 384]⟩
abbrev S384x128 : Shape := ⟨2, ![384, 128]⟩
abbrev S4096x128 : Shape := ⟨2, ![4096, 128]⟩
abbrev S128x640 : Shape := ⟨2, ![128, 640]⟩
abbrev S4096x640 : Shape := ⟨2, ![4096, 640]⟩
abbrev S1x640 : Shape := ⟨2, ![1, 640]⟩
abbrev S640x2 : Shape := ⟨2, ![640, 2]⟩
abbrev S4096x2 : Shape := ⟨2, ![4096, 2]⟩
abbrev S1x2 : Shape := ⟨2, ![1, 2]⟩

abbrev nBuf : Space → Nat
  | .hbm => 185
  | .vmem => 0
  | .smem => 0
  | _ => 0

abbrev hbmTy0_0 (i : Nat) : BufTy := match i % 128 with
  | 0 => ⟨S100000x128, .f32⟩
  | 1 => ⟨S800000, .f32⟩
  | 2 => ⟨S2x800000, .i32⟩
  | 3 => ⟨S100000x128, .f32⟩
  | 4 => ⟨S800000, .f32⟩
  | 5 => ⟨S2x800000, .i32⟩
  | 6 => ⟨S8192x128, .f32⟩
  | 7 => ⟨S8192x128, .f32⟩
  | 8 => ⟨S8192, .i32⟩
  | 9 => ⟨S8192x128, .f32⟩
  | 10 => ⟨S640x128, .f32⟩
  | 11 => ⟨S640, .f32⟩
  | 12 => ⟨S2x640, .f32⟩
  | 13 => ⟨S2, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x384, .f32⟩
  | 29 => ⟨S128, .f32⟩
  | 30 => ⟨S128x1, .f32⟩
  | 31 => ⟨S128x1, .f32⟩
  | 32 => ⟨S128x128, .f32⟩
  | 33 => ⟨S100000x128, .f32⟩
  | 34 => ⟨S1x128, .f32⟩
  | 35 => ⟨S100000x128, .f32⟩
  | 36 => ⟨S100000x128, .f32⟩
  | 37 => ⟨S128x128, .f32⟩
  | 38 => ⟨S100000x128, .f32⟩
  | 39 => ⟨S1x128, .f32⟩
  | 40 => ⟨S100000x128, .f32⟩
  | 41 => ⟨S100000x128, .f32⟩
  | 42 => ⟨S1x800000, .i32⟩
  | 43 => ⟨S800000, .i32⟩
  | 44 => ⟨S1x800000, .i32⟩
  | 45 => ⟨S800000, .i32⟩
  | 46 => ⟨S100000x1, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x1, .f32⟩
  | 56 => ⟨S800000x1, .f32⟩
  | 57 => ⟨S800000x1, .f32⟩
  | 58 => ⟨S800000x1, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x128, .f32⟩
  | 69 => ⟨S800000x128, .f32⟩
  | 70 => ⟨S_, .f32⟩
  | 71 => ⟨S100000x128, .f32⟩
  | 72 => ⟨S800000x1, .i32⟩
  | 73 => ⟨S100000x128, .f32⟩
  | 74 => ⟨S50000x128, .f32⟩
  | 75 => ⟨S_, .f32⟩
  | 76 => ⟨S50000x128, .f32⟩
  | 77 => ⟨S50000x128, .f32⟩
  | 78 => ⟨S1x800000, .i32⟩
  | 79 => ⟨S800000, .i32⟩
  | 80 => ⟨S1x800000, .i32⟩
  | 81 => ⟨S800000, .i32⟩
  | 82 => ⟨S100000x1, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x1, .f32⟩
  | 92 => ⟨S800000x1, .f32⟩
  | 93 => ⟨S800000x1, .f32⟩
  | 94 => ⟨S800000x1, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x128, .f32⟩
  | 105 => ⟨S800000x128, .f32⟩
  | 106 => ⟨S_, .f32⟩
  | 107 => ⟨S100000x128, .f32⟩
  | 108 => ⟨S800000x1, .i32⟩
  | 109 => ⟨S100000x128, .f32⟩
  | 110 => ⟨S50000x128, .f32⟩
  | 111 => ⟨S_, .f32⟩
  | 112 => ⟨S50000x128, .f32⟩
  | 113 => ⟨S50000x128, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x128, .f32⟩
  | 123 => ⟨S128x128, .f32⟩
  | 124 => ⟨S8192x128, .f32⟩
  | 125 => ⟨S1x128, .f32⟩
  | 126 => ⟨S8192x128, .f32⟩
  | 127 => ⟨S8192x128, .f32⟩
  | _ => ⟨S100000x128, .f32⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x128, .f32⟩
  | 9 => ⟨S128x128, .f32⟩
  | 10 => ⟨S8192x128, .f32⟩
  | 11 => ⟨S1x128, .f32⟩
  | 12 => ⟨S8192x128, .f32⟩
  | 13 => ⟨S8192x128, .f32⟩
  | 14 => ⟨S128x128, .f32⟩
  | 15 => ⟨S8192x128, .f32⟩
  | 16 => ⟨S1x128, .f32⟩
  | 17 => ⟨S8192x128, .f32⟩
  | 18 => ⟨S8192x128, .f32⟩
  | 19 => ⟨S8192x128, .f32⟩
  | 20 => ⟨S128x128, .f32⟩
  | 21 => ⟨S8192x128, .f32⟩
  | 22 => ⟨S1x128, .f32⟩
  | 23 => ⟨S8192x128, .f32⟩
  | 24 => ⟨S8192x128, .f32⟩
  | 25 => ⟨S8192x128, .f32⟩
  | 26 => ⟨S128x128, .f32⟩
  | 27 => ⟨S8192x128, .f32⟩
  | 28 => ⟨S1x128, .f32⟩
  | 29 => ⟨S8192x128, .f32⟩
  | 30 => ⟨S8192x128, .f32⟩
  | 31 => ⟨S8192x384, .f32⟩
  | 32 => ⟨S384x128, .f32⟩
  | 33 => ⟨S8192x128, .f32⟩
  | 34 => ⟨S1x128, .f32⟩
  | 35 => ⟨S8192x128, .f32⟩
  | 36 => ⟨S8192x128, .f32⟩
  | 37 => ⟨S_, .f32⟩
  | 38 => ⟨S8192x128, .f32⟩
  | 39 => ⟨S8192x128, .f32⟩
  | 40 => ⟨S4096x128, .f32⟩
  | 41 => ⟨S4096x128, .f32⟩
  | 42 => ⟨S4096x128, .f32⟩
  | 43 => ⟨S4096x128, .f32⟩
  | 44 => ⟨S128x640, .f32⟩
  | 45 => ⟨S4096x640, .f32⟩
  | 46 => ⟨S1x640, .f32⟩
  | 47 => ⟨S4096x640, .f32⟩
  | 48 => ⟨S4096x640, .f32⟩
  | 49 => ⟨S_, .f32⟩
  | 50 => ⟨S4096x640, .f32⟩
  | 51 => ⟨S4096x640, .f32⟩
  | 52 => ⟨S640x2, .f32⟩
  | 53 => ⟨S4096x2, .f32⟩
  | 54 => ⟨S1x2, .f32⟩
  | 55 => ⟨S4096x2, .f32⟩
  | 56 => ⟨S4096x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_c : Ref sig .tc := ⟨.hbm, 47, rfl⟩
abbrev main_v15 : Ref sig .tc := ⟨.hbm, 48, rfl⟩
abbrev main_v16 : Ref sig .tc := ⟨.hbm, 49, rfl⟩
abbrev main_c_0 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_1 : Ref sig .tc := ⟨.hbm, 59, rfl⟩
abbrev main_v25 : Ref sig .tc := ⟨.hbm, 60, rfl⟩
abbrev main_v26 : Ref sig .tc := ⟨.hbm, 61, rfl⟩
abbrev main_c_2 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call0_cst : Ref sig .tc := ⟨.hbm, 75, rfl⟩
abbrev main_call0_v0 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_3 : Ref sig .tc := ⟨.hbm, 83, rfl⟩
abbrev main_v44 : Ref sig .tc := ⟨.hbm, 84, rfl⟩
abbrev main_v45 : Ref sig .tc := ⟨.hbm, 85, rfl⟩
abbrev main_c_4 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_5 : Ref sig .tc := ⟨.hbm, 95, rfl⟩
abbrev main_v54 : Ref sig .tc := ⟨.hbm, 96, rfl⟩
abbrev main_v55 : Ref sig .tc := ⟨.hbm, 97, rfl⟩
abbrev main_c_6 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_7 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_call1_cst : Ref sig .tc := ⟨.hbm, 111, rfl⟩
abbrev main_call1_v0 : Ref sig .tc := ⟨.hbm, 112, rfl⟩
abbrev main_v67 : Ref sig .tc := ⟨.hbm, 113, rfl⟩
abbrev main_c_8 : Ref sig .tc := ⟨.hbm, 114, rfl⟩
abbrev main_v68 : Ref sig .tc := ⟨.hbm, 115, rfl⟩
abbrev main_v69 : Ref sig .tc := ⟨.hbm, 116, rfl⟩
abbrev main_c_9 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_10 : Ref sig .tc := ⟨.hbm, 128, rfl⟩
abbrev main_v80 : Ref sig .tc := ⟨.hbm, 129, rfl⟩
abbrev main_v81 : Ref sig .tc := ⟨.hbm, 130, rfl⟩
abbrev main_c_11 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_call2_cst : Ref sig .tc := ⟨.hbm, 165, rfl⟩
abbrev main_call2_v0 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_call3_cst : Ref sig .tc := ⟨.hbm, 177, rfl⟩
abbrev main_call3_v0 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  slices_S100000x128_S50000x128_20000_0 : S100000x128.Slices ![20000, 0] S50000x128
  bcast_S_S50000x128 : S_.BroadcastsInDim S50000x128 (![] : Fin 0 → Fin S50000x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S1x128_S8192x128_0_1 : S1x128.BroadcastsInDim S8192x128 (![0, 1] : Fin 2 → Fin S8192x128.rank)
  concatenates_S8192x128_S8192x128_S8192x128_S8192x384_d1 : Shape.Concatenates [S8192x128, S8192x128, S8192x128] S8192x384 1
  transposes_S128x384_S384x128_1_0 : S128x384.Transposes [1, 0] S384x128
  bcast_S_S8192x128 : S_.BroadcastsInDim S8192x128 (![] : Fin 0 → Fin S8192x128.rank)
  slices_S8192x128_S4096x128_0_0 : S8192x128.Slices ![0, 0] S4096x128
  slices_S8192x128_S4096x128_4096_0 : S8192x128.Slices ![4096, 0] S4096x128
  transposes_S640x128_S128x640_1_0 : S640x128.Transposes [1, 0] S128x640
  bcast_S640_S1x640_1 : S640.BroadcastsInDim S1x640 (![1] : Fin 1 → Fin S1x640.rank)
  bcast_S1x640_S4096x640_0_1 : S1x640.BroadcastsInDim S4096x640 (![0, 1] : Fin 2 → Fin S4096x640.rank)
  bcast_S_S4096x640 : S_.BroadcastsInDim S4096x640 (![] : Fin 0 → Fin S4096x640.rank)
  transposes_S2x640_S640x2_1_0 : S2x640.Transposes [1, 0] S640x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S800000x1_S800000x1_1_0_n_n_0_1_11_wf : GatherDims.WF S100000x1 S800000x1 S800000x1 [1] [0] [] [0] [] 1 ![1, 1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  gather_S50000x128_S8192x1_S8192x128_1_0_n_n_0_1_1128_wf : GatherDims.WF S50000x128 S8192x1 S8192x128 [1] [0] [] [0] [] 1 ![1, 128]
  dot_S8192x128_S128x128_S8192x128_1_0_0_1_n_n_wf : DotDims.WF S8192x128 S128x128 S8192x128 [1] [0] [0] [1] [] []
  dot_S8192x384_S384x128_S8192x128_1_0_0_1_n_n_wf : DotDims.WF S8192x384 S384x128 S8192x128 [1] [0] [0] [1] [] []
  dot_S4096x128_S128x640_S4096x640_1_0_0_1_n_n_wf : DotDims.WF S4096x128 S128x640 S4096x640 [1] [0] [0] [1] [] []
  dot_S4096x640_S640x2_S4096x2_1_0_0_1_n_n_wf : DotDims.WF S4096x640 S640x2 S4096x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S800000x1_S800000x1_1_0_n_n_0_1_11 : GatherDims S100000x1 S800000x1 S800000x1 where
  offsetDims := [1]
  collapsedSliceDims := [0]
  operandBatchingDims := []
  startIndicesBatchingDims := []
  startIndexMap := [0]
  indexVectorDim := 1
  sliceSizes := ![1, 1]
  wf := gather_S100000x1_S800000x1_S800000x1_1_0_n_n_0_1_11_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x384_S384x128_S8192x128_1_0_0_1_n_n : DotDims S8192x384 S384x128 S8192x128 where
  lhsContracting := [1]
  rhsContracting := [0]
  lhsNonContracting := [0]
  rhsNonContracting := [1]
  lhsBatch := []
  rhsBatch := []
  wf := dot_S8192x384_S384x128_S8192x128_1_0_0_1_n_n_wf
def dot_S4096x128_S128x640_S4096x640_1_0_0_1_n_n : DotDims S4096x128 S128x640 S4096x640 where
  lhsContracting := [1]
  rhsContracting := [0]
  lhsNonContracting := [0]
  rhsNonContracting := [1]
  lhsBatch := []
  rhsBatch := []
  wf := dot_S4096x128_S128x640_S4096x640_1_0_0_1_n_n_wf
def dot_S4096x640_S640x2_S4096x2_1_0_0_1_n_n : DotDims S4096x640 S640x2 S4096x2 where
  lhsContracting := [1]
  rhsContracting := [0]
  lhsNonContracting := [0]
  rhsNonContracting := [1]
  lhsBatch := []
  rhsBatch := []
  wf := dot_S4096x640_S640x2_S4096x2_1_0_0_1_n_n_wf

class Facts : Prop extends Facts₀ where

variable [Facts]
-- ==== Proof.KernelRun.lean ====
/-
  The idealized kernel program's run with its RESULT named.  @main is sixteen segments — stretches of host
  operations and six pallas_call regions —, and the contents of the TensorCore's buffers at the boundary after
  the last one are the fold `Gen.W16` (each stretch the host operations' `StableHlo.after`, each region its
  arrays at what the pipeline's write-backs leave).  Every weakly fair execution terminates without a fault
  with every unscoped buffer at those contents; read at the result buffer `main_v67` that is the value the
  program returns, and read at the arguments it is the launch memory.
-/
import proofs.«179541_j7550552506805_2_alg».proof.Proof.Gen.KernelIdeal.Frame

set_option maxRecDepth 16384

noncomputable section

namespace Cert.Bridge.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes
-- unfolding plain definitions in a metavariable's type
set_option backward.isDefEq.respectTransparency.types false in
/-- Every weakly fair execution of the idealized kernel program from `m` terminates, nothing faulting, with the
    result buffer at the last boundary's contents and the thirty-two argument arrays as launched. -/
theorem run_result : θ_run defs (onTc (τ := τ) (main (F := F))) ⟨m, fun _ => 0, ρ⟩ (fun r => ∀ c : Dev nD,
      r.2.mem ((c.tc : Thread nD τ).loc main_v67) = W16 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v67 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c),
       (h c _ (mem_uc main_arg23 (by decide))).trans (W16_main_arg23 m ρ c),
       (h c _ (mem_uc main_arg24 (by decide))).trans (W16_main_arg24 m ρ c),
       (h c _ (mem_uc main_arg25 (by decide))).trans (W16_main_arg25 m ρ c),
       (h c _ (mem_uc main_arg26 (by decide))).trans (W16_main_arg26 m ρ c),
       (h c _ (mem_uc main_arg27 (by decide))).trans (W16_main_arg27 m ρ c),
       (h c _ (mem_uc main_arg28 (by decide))).trans (W16_main_arg28 m ρ c),
       (h c _ (mem_uc main_arg29 (by decide))).trans (W16_main_arg29 m ρ c),
       (h c _ (mem_uc main_arg30 (by decide))).trans (W16_main_arg30 m ρ c),
       (h c _ (mem_uc main_arg31 (by decide))).trans (W16_main_arg31 m ρ c)⟩)

end Cert.Bridge.KernelRun

end
-- ==== Proof.LibBiasRow.lean ====
/-
  A vector laid out as one row, two ways.

  The kernel's host code reshapes a bias vector `[N]` to the row `[1, N]`; the reference puts the vector on axis 1 of
  `[1, N]`. Both rows hold the vector's entry `j` at `(0, j)`, so they are one array (`row_of_vec`).
-/
import Idealize.ShloMosaic.Lib.ValueLayout
import Idealize.ShloMosaic.Lib.Pipeline.Value

noncomputable section

namespace Cert.Lib.BiasRow

open Idealize.ShloMosaic Idealize.ShloMosaic.ValueIdx

/-- A vector reshaped to a row is the vector put on the row's second axis. -/
theorem row_of_vec {α : Type} {N : ℕ} (b : (⟨1, ![N]⟩ : Shape).Idx → α)
    (h1 : (⟨1, ![N]⟩ : Shape).ShapeCasts ⟨2, ![1, N]⟩) (h2 : (⟨1, ![N]⟩ : Shape).BroadcastsInDim ⟨2, ![1, N]⟩ ![1]) :
    shapeCast ⟨2, ![1, N]⟩ b h1 = broadcastInDim ⟨2, ![1, N]⟩ ![1] h2 b := by
  funext i
  obtain ⟨z, j, rfl⟩ : ∃ (z : Fin 1) (j : Fin N), i = ix2 z j := ⟨i 0, i 1, eq_ix2 i⟩
  have hz : z = 0 := Fin.ext (by have := z.isLt; omega)
  subst hz
  rw [shapeCast_a_1a_apply b h1 0 j]
  refine (broadcastInDim_apply _ h2 b (ix2 (0 : Fin 1) j) (ix1 j) fun a => ?_).symm
  match a with
  | ⟨0, _⟩ =>
    show j.val = if N = 1 then 0 else j.val
    split
    · have := j.isLt; omega
    · rfl

end Cert.Lib.BiasRow

end
-- ==== Proof.KernelFold.lean ====
/-
  What a buffer holds at a boundary of the idealized kernel program's @main, when no segment in between writes it.
  @main is ten stretches of host operations and six pallas_call regions; each stretch writes a known list of
  buffers (its operations' results) and each region the arrays of its windows.  A buffer outside a stretch's
  list holds after the stretch what it held before it; a buffer that is no window of a region holds after the
  region what it held before it.  So an argument array read at any boundary is the launch memory, and a value
  computed in one segment is still there when a later segment reads it.
-/
import proofs.«179541_j7550552506805_2_alg».proof.Proof.Gen.KernelIdeal.Frame

set_option maxRecDepth 16384

noncomputable section

namespace Cert.Bridge.KernelFold

open Cert.KernelIdeal Cert.KernelIdeal.Gen
open Idealize.ShloMosaic Idealize.ShloMosaic.TcCoe Idealize.SL.Sem

variable {F : FTy → Type} [FloatOps F]

/-! ## The buffers each stretch of host operations writes: its operations' results, in order -/

/-- The bias of the first node layer as a row. -/
def written0 : List (Ref sig .tc) := [main_v0]
/-- The bias of the second node layer as a row. -/
def written1 : List (Ref sig .tc) := [main_v2]
/-- The first graph's edge endpoints, the wrapped source column, the gathered rows, the intervals as a column, the
    decay parameters as a row. -/
def written2 : List (Ref sig .tc) :=
  [main_v4, main_v5, main_v6, main_v7, main_c, main_v8, main_v9, main_c_0, main_v10, main_v11, main_v12, main_v13,
   main_v14, main_v15, main_v16]
/-- The first graph's segment sum and its author rows. -/
def written3 : List (Ref sig .tc) := [main_cst, main_v18, main_v19, main_v20, main_v21]
/-- Their positive parts. -/
def written3_1 : List (Ref sig .tc) := [main_call0_cst, main_call0_v0, main_v22]
/-- The second graph's edge endpoints, wrapped source column, gathered rows, intervals and decay parameters. -/
def written3_2 : List (Ref sig .tc) :=
  [main_v23, main_v24, main_v25, main_v26, main_c_1, main_v27, main_v28, main_c_2, main_v29, main_v30, main_v31, main_v32,
   main_v33, main_v34, main_v35]
/-- The second graph's segment sum and its author rows. -/
def written4 : List (Ref sig .tc) := [main_cst_3, main_v37, main_v38, main_v39, main_v40]
/-- Their positive parts. -/
def written4_1 : List (Ref sig .tc) := [main_call1_cst, main_call1_v0, main_v41]
/-- The batch's wrapped author indices, the two gathered batches, the six biases as rows. -/
def written4_2 : List (Ref sig .tc) :=
  [main_c_4, main_v42, main_v43, main_c_5, main_v44, main_v45, main_v46, main_v47, main_v48, main_c_6, main_v49, main_v50,
   main_c_7, main_v51, main_v52, main_v53, main_v54, main_v55, main_v56, main_v57, main_v58, main_v59, main_v60, main_v61]
/-- The two halves of the batch, the head's two biases as rows. -/
def written5 : List (Ref sig .tc) := [main_v63, main_v64, main_v65, main_v66]

/-! ## A stretch keeps every buffer outside its list

Each operation writes the one buffer that is its result, so the claim is one inequality of references per
operation: the buffer is outside the list and the result is in it. -/

/-- `after ops W r = W r` for a literal stretch `ops` and a reference `r`, from `h : r ∉ ` the stretch's list. -/
macro "outside_written " ops:ident h:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => $h:ident (by rw [e]; decide))))

variable (W : Valuation τ sig (Elt F)) (r : Ref sig .tc)

theorem keep0 (hr : r ∉ written0) : StableHlo.after (hostOps0 (F := F)) W (Proc.devRef .tc r) = W (Proc.devRef .tc r) := by
  outside_written hostOps0 hr
theorem keep1 (hr : r ∉ written1) : StableHlo.after (hostOps1 (F := F)) W (Proc.devRef .tc r) = W (Proc.devRef .tc r) := by
  outside_written hostOps1 hr
theorem keep2 (hr : r ∉ written2) : StableHlo.after (hostOps2 (F := F)) W (Proc.devRef .tc r) = W (Proc.devRef .tc r) := by
  outside_written hostOps2 hr
theorem keep3 (hr : r ∉ written3) : StableHlo.after (hostOps3 (F := F)) W (Proc.devRef .tc r) = W (Proc.devRef .tc r) := by
  outside_written hostOps3 hr
theorem keep3_1 (hr : r ∉ written3_1) : StableHlo.after (hostOps3_1 (F := F)) W (Proc.devRef .tc r) = W (Proc.devRef .tc r) := by
  outside_written hostOps3_1 hr
theorem keep3_2 (hr : r ∉ written3_2) : StableHlo.after (hostOps3_2 (F := F)) W (Proc.devRef .tc r) = W (Proc.devRef .tc r) := by
  outside_written hostOps3_2 hr
theorem keep4 (hr : r ∉ written4) : StableHlo.after (hostOps4 (F := F)) W (Proc.devRef .tc r) = W (Proc.devRef .tc r) := by
  outside_written hostOps4 hr
theorem keep4_1 (hr : r ∉ written4_1) : StableHlo.after (hostOps4_1 (F := F)) W (Proc.devRef .tc r) = W (Proc.devRef .tc r) := by
  outside_written hostOps4_1 hr
theorem keep4_2 (hr : r ∉ written4_2) : StableHlo.after (hostOps4_2 (F := F)) W (Proc.devRef .tc r) = W (Proc.devRef .tc r) := by
  outside_written hostOps4_2 hr
theorem keep5 (hr : r ∉ written5) : StableHlo.after (hostOps5 (F := F)) W (Proc.devRef .tc r) = W (Proc.devRef .tc r) := by
  outside_written hostOps5 hr

end Cert.Bridge.KernelFold

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«179541_j7550552506805_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«179541_j7550552506805_2_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.LibRowLayers.lean ====
/-
  The two kernel bodies of a row-tiled graph-convolution layer at ONE entry, against the host's operations on the whole
  array, on the extended reals.

  A dense body multiplies its `B×K` block of rows by the whole `K×N` weight on the vector unit, from the zero accumulator
  and with both operands passed through a change of float format (the identity on the extended reals), and adds a bias
  row `[1, N]` broadcast over the block's rows. At entry `(p, q)`, with row `p` of the block being row `P` of the array,
  that is `∑ k, A (P, k) * W (k, q) + r (0, q)`: entry `(P, q)` of the host's product plus the same row put on both axes of
  `[M, N]` (`dense_bias_point`), and, when the row is zero, entry `(P, q)` of the product alone, because `y + 0 = y` for every
  extended real `y`, the infinities included (`dense_zero_point`). A bias-and-rectifier body computes `max (g + r, 0)` on
  its block, entry for entry what the host computes on the whole array (`bias_relu_point`). No finiteness is asked anywhere:
  the two sides are the same sums and the same maxima, term by term.
-/
import proofs.«179541_j7550552506805_2_alg».proof.Proof.LibAffineRows

noncomputable section

open scoped BigOperators

namespace Cert.Lib.RowLayers

open Idealize.ShloMosaic Idealize.ShloMosaic.ValueIdx

variable {M K N B : ℕ}

/-- One row `[1, N]`, cast to its own shape and broadcast over `B` rows, reads at `(p, q)` its entry `(0, q)`. -/
theorem rowOver_apply {α : Type} (r : (⟨2, ![1, N]⟩ : Shape).Idx → α) (h1 : (⟨2, ![1, N]⟩ : Shape).ShapeCasts ⟨2, ![1, N]⟩)
    (h2 : (⟨2, ![1, N]⟩ : Shape).Broadcasts ⟨2, ![B, N]⟩) (p : Fin B) (q : Fin N) :
    broadcastTo ⟨2, ![B, N]⟩ (shapeCast ⟨2, ![1, N]⟩ r h1) h2 (ix2 p q) = r (ix2 (0 : Fin 1) q) := by
  rw [shapeCast_self]
  exact broadcastTo_1b_ab_apply r h2 p q

/-- One row `[1, N]` put on both axes of `[M, N]` reads at `(P, q)` its entry `(0, q)`. -/
theorem rowInDim_apply {α : Type} (r : (⟨2, ![1, N]⟩ : Shape).Idx → α)
    (h : (⟨2, ![1, N]⟩ : Shape).BroadcastsInDim ⟨2, ![M, N]⟩ ![0, 1]) (P : Fin M) (q : Fin N) :
    broadcastInDim ⟨2, ![M, N]⟩ ![0, 1] h r (ix2 P q) = r (ix2 (0 : Fin 1) q) := by
  refine broadcastInDim_apply _ h r (ix2 P q) (ix2 (0 : Fin 1) q) fun a => ?_
  match a with
  | ⟨0, _⟩ => rfl
  | ⟨1, _⟩ =>
    show q.val = if N = 1 then 0 else q.val
    split
    · have := q.isLt; omega
    · rfl

/-- A dense body with a bias row, at one entry: the host's product plus the row put on both axes. -/
theorem dense_bias_point (prec prec' : Option ContractPrecision)
    (A : FVec Ideal ⟨2, ![M, K]⟩ .f32) (W : FVec Ideal ⟨2, ![K, N]⟩ .f32) (R : FVec Ideal ⟨2, ![1, N]⟩ .f32)
    (x : FVec Ideal ⟨2, ![B, K]⟩ .f32) (w : FVec Ideal ⟨2, ![K, N]⟩ .f32) (r : FVec Ideal ⟨2, ![1, N]⟩ .f32)
    (hlt : FTy.bf16.bits < FTy.f32.bits)
    (h1 : (⟨2, ![1, N]⟩ : Shape).ShapeCasts ⟨2, ![1, N]⟩) (h2 : (⟨2, ![1, N]⟩ : Shape).Broadcasts ⟨2, ![B, N]⟩)
    (h3 : (⟨2, ![1, N]⟩ : Shape).BroadcastsInDim ⟨2, ![M, N]⟩ ![0, 1])
    (P : Fin M) (p : Fin B) (q : Fin N)
    (hx : ∀ k : Fin K, (x (ix2 p k) : EReal) = A (ix2 P k)) (hw : ∀ k : Fin K, (w (ix2 k q) : EReal) = W (ix2 k q))
    (hr : (r (ix2 (0 : Fin 1) q) : EReal) = R (ix2 (0 : Fin 1) q)) :
    addf (matmul (DotDims.plain B K N) prec (truncf .bf16 x hlt) (truncf .bf16 w hlt) (constant ⟨2, ![B, N]⟩ .f32 0x00000000#32))
        (broadcastTo ⟨2, ![B, N]⟩ (shapeCast ⟨2, ![1, N]⟩ r h1) h2) (ix2 p q)
      = addf (Host.dotGeneral (DotDims.plain M K N) prec' A W) (broadcastInDim ⟨2, ![M, N]⟩ ![0, 1] h3 R) (ix2 P q) :=
  Cert.Lib.AffineRows.layer_row prec prec' A W (truncf .bf16 x hlt) (truncf .bf16 w hlt) _ _ P p q hx hw
    ((rowOver_apply r h1 h2 p q).trans (hr.trans (rowInDim_apply R h3 P q).symm))

/-- A dense body whose bias row is zero, at one entry: the host's product alone (`y + 0 = y` on the extended reals). -/
theorem dense_zero_point (prec prec' : Option ContractPrecision)
    (A : FVec Ideal ⟨2, ![M, K]⟩ .f32) (W : FVec Ideal ⟨2, ![K, N]⟩ .f32)
    (x : FVec Ideal ⟨2, ![B, K]⟩ .f32) (w : FVec Ideal ⟨2, ![K, N]⟩ .f32) (r : FVec Ideal ⟨2, ![1, N]⟩ .f32)
    (hlt : FTy.bf16.bits < FTy.f32.bits)
    (h1 : (⟨2, ![1, N]⟩ : Shape).ShapeCasts ⟨2, ![1, N]⟩) (h2 : (⟨2, ![1, N]⟩ : Shape).Broadcasts ⟨2, ![B, N]⟩)
    (P : Fin M) (p : Fin B) (q : Fin N)
    (hx : ∀ k : Fin K, (x (ix2 p k) : EReal) = A (ix2 P k)) (hw : ∀ k : Fin K, (w (ix2 k q) : EReal) = W (ix2 k q))
    (hr : (r (ix2 (0 : Fin 1) q) : EReal) = 0) :
    addf (matmul (DotDims.plain B K N) prec (truncf .bf16 x hlt) (truncf .bf16 w hlt) (constant ⟨2, ![B, N]⟩ .f32 0x00000000#32))
        (broadcastTo ⟨2, ![B, N]⟩ (shapeCast ⟨2, ![1, N]⟩ r h1) h2) (ix2 p q)
      = Host.dotGeneral (DotDims.plain M K N) prec' A W (ix2 P q) := by
  show FloatOps.addf (matmul (DotDims.plain B K N) prec (truncf .bf16 x hlt) (truncf .bf16 w hlt)
      (constant ⟨2, ![B, N]⟩ .f32 0x00000000#32) (ix2 p q)) (broadcastTo ⟨2, ![B, N]⟩ (shapeCast ⟨2, ![1, N]⟩ r h1) h2 (ix2 p q)) = _
  rw [rowOver_apply, hr, Ideal.addf_def, add_zero]
  exact Cert.Lib.RowBlock.matmul_eq_dotGeneral prec prec' .single A W (truncf .bf16 x hlt) (truncf .bf16 w hlt) P p q hx hw

/-- A bias-and-rectifier body at one entry: `max (g + r, 0)` on the block is `max (G + R, 0)` on the array. -/
theorem bias_relu_point (G : FVec Ideal ⟨2, ![M, N]⟩ .f32) (R : FVec Ideal ⟨2, ![1, N]⟩ .f32)
    (g : FVec Ideal ⟨2, ![B, N]⟩ .f32) (r : FVec Ideal ⟨2, ![1, N]⟩ .f32)
    (h0 : (⟨2, ![B, N]⟩ : Shape).ShapeCasts ⟨2, ![B, N]⟩)
    (h1 : (⟨2, ![1, N]⟩ : Shape).ShapeCasts ⟨2, ![1, N]⟩) (h2 : (⟨2, ![1, N]⟩ : Shape).Broadcasts ⟨2, ![B, N]⟩)
    (h3 : (⟨2, ![1, N]⟩ : Shape).BroadcastsInDim ⟨2, ![M, N]⟩ ![0, 1])
    (hbc : (⟨0, ![]⟩ : Shape).BroadcastsInDim ⟨2, ![M, N]⟩ ![])
    (P : Fin M) (p : Fin B) (q : Fin N)
    (hg : (g (ix2 p q) : EReal) = G (ix2 P q)) (hr : (r (ix2 (0 : Fin 1) q) : EReal) = R (ix2 (0 : Fin 1) q)) :
    maximumf (addf (shapeCast ⟨2, ![B, N]⟩ g h0) (broadcastTo ⟨2, ![B, N]⟩ (shapeCast ⟨2, ![1, N]⟩ r h1) h2))
        (broadcast ⟨2, ![B, N]⟩ (Scalar.ofBits .f32 0x00000000#32)) (ix2 p q)
      = maximumf (addf G (broadcastInDim ⟨2, ![M, N]⟩ ![0, 1] h3 R))
        (broadcastInDim ⟨2, ![M, N]⟩ ![] hbc (constant ⟨0, ![]⟩ .f32 0x00000000#32)) (ix2 P q) :=
  Cert.Lib.AffineRows.relu_row _ _ (ix2 p q) (ix2 P q) hbc (by
    show FloatOps.addf (shapeCast ⟨2, ![B, N]⟩ g h0 (ix2 p q)) (broadcastTo ⟨2, ![B, N]⟩ (shapeCast ⟨2, ![1, N]⟩ r h1) h2 (ix2 p q))
      = FloatOps.addf (G (ix2 P q)) (broadcastInDim ⟨2, ![M, N]⟩ ![0, 1] h3 R (ix2 P q))
    rw [shapeCast_self, rowOver_apply, rowInDim_apply, hg, hr])

end Cert.Lib.RowLayers

end
-- ==== Proof.LinearRows.lean ====
/-
  The two dense node layers `e = x · Wᵀ + b` over the 100000 × 128 node features, computed in ten blocks of 10000 rows.

  At each grid point the body takes its block `x` of 10000 rows, the whole 128 × 128 weight `W` and the bias as one row
  `[1, 128]`; it passes both operands through a change of float format (the identity on the extended reals), transposes
  the weight, multiplies on the vector unit from the zero accumulator and adds the bias row to every row of the block.
  Entry `(p, q)` of the block at point `t` is therefore `∑ k, A (10000·t + p, k) * W (q, k) + b (0, q)`, which is entry
  `(10000·t + p, q)` of the host's product of the whole array `A` with the transposed weight plus the bias row put on
  every row: the same sum term by term, so nothing is asked of the entries' finiteness. The ten blocks tile the rows
  (row `r` lies in the block of point `r / 10000`), so each region's output array ends as that one function of the three
  arrays the region finds on entry, whatever these are.
-/
import proofs.«179541_j7550552506805_2_alg».proof.Proof.Gen.KernelIdeal.Frame
import proofs.«179541_j7550552506805_2_alg».proof.Proof.Gen.ReferenceIdeal.Read
import proofs.«179541_j7550552506805_2_alg».proof.Proof.LibRowLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Bridge.LinearRows

open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl

/-- A square array transposed reads at `(k, q)` the array at `(q, k)`. -/
theorem transpose_sq_apply {α : Type} {n : ℕ} (x : (⟨2, ![n, n]⟩ : Shape).Idx → α)
    (h : (⟨2, ![n, n]⟩ : Shape).Transposes [1, 0] ⟨2, ![n, n]⟩) (k q : Fin n) :
    transpose ⟨2, ![n, n]⟩ [1, 0] x h (ix2 k q) = x (ix2 q k) :=
  transpose_apply [1, 0] x h (ix2 k q) (ix2 q k) (fun b => match b with
    | ⟨0, _⟩ => rfl
    | ⟨1, _⟩ => rfl)

/-! ## The first layer (region 0): features `main_arg0`, weight `main_arg14`, bias row `main_v0`, output `main_v1` -/
/-- The layer of the whole array: the host's product of `A` with the transposed weight, plus the bias row on every row. -/
abbrev layer0 (A : FVec Ideal S100000x128 .f32) (W : FVec Ideal S128x128 .f32) (R : FVec Ideal S1x128 .f32) :
    FVec Ideal S100000x128 .f32 :=
  addf (Cert.ReferenceIdeal.Read.val_main_v1 (F := Ideal) A W)
    (broadcastInDim S100000x128 ![0, 1] Cert.ReferenceIdeal.Gen.bcast_S1x128_S100000x128_0_1 R)

/-- The body's value at entry `(p, q)` of a block whose row `p` is row `P` of `A`, whose weight is `W` on row `q`
    and whose bias row is `R` at `q`: the layer of the whole array at `(P, q)`. -/
theorem body_entry0 (A : FVec Ideal S100000x128 .f32) (W : FVec Ideal S128x128 .f32) (R : FVec Ideal S1x128 .f32)
    (x : FVec Ideal S10000x128 .f32) (w : FVec Ideal S128x128 .f32) (r : FVec Ideal S1x128 .f32)
    (P : Fin 100000) (p : Fin 10000) (q : Fin 128)
    (hx : ∀ k : Fin 128, x (ix2 p k) = A (ix2 P k)) (hw : ∀ k : Fin 128, w (ix2 q k) = W (ix2 q k))
    (hr : r (ix2 (0 : Fin 1) q) = R (ix2 (0 : Fin 1) q)) :
    k0_pay1 (F := Ideal) x w r (ix2 p q) = layer0 A W R (ix2 P q) := by
  unfold k0_pay1 layer0 Cert.ReferenceIdeal.Read.val_main_v1 Cert.ReferenceIdeal.Read.val_main_v0
  exact Cert.Lib.AffineRows.layer_row none none A
    (transpose Cert.ReferenceIdeal.S128x128 [1, 0] W Cert.ReferenceIdeal.Gen.transposes_S128x128_S128x128_1_0)
    (truncf .bf16 x bitsLt_bf16_f32)
    (transpose S128x128 [1, 0] (truncf .bf16 w bitsLt_bf16_f32) transposes_S128x128_p1_0_S128x128)
    _ _ P p q hx
    (fun k => (transpose_sq_apply _ _ k q).trans ((hw k).trans (transpose_sq_apply W _ k q).symm))
    ((Cert.Lib.RowLayers.rowOver_apply r _ _ p q).trans (hr.trans (Cert.Lib.RowLayers.rowInDim_apply R _ P q).symm))

/-- The body's value on a block standing on rows `10000·T …` of `A`, with the whole weight and the whole bias row: at
    the block's index `j` it is the layer of the whole array at the index `i` with `i 0 = 10000·T + j 0`, `i 1 = j 1`. -/
theorem body_block0 (A : FVec Ideal S100000x128 .f32) (W : FVec Ideal S128x128 .f32) (R : FVec Ideal S1x128 .f32)
    (x : FVec Ideal S10000x128 .f32) (w : FVec Ideal S128x128 .f32) (r : FVec Ideal S1x128 .f32) (T : ℕ)
    (hx : ∀ (y : S10000x128.Idx) (i : S100000x128.Idx), (i 0).val = 10000 * T + (y 0).val → (i 1).val = (y 1).val → x y = A i)
    (hw : ∀ y, w y = W y) (hr : ∀ y, r y = R y)
    (j : S10000x128.Idx) (i : S100000x128.Idx) (h0 : (i 0).val = 10000 * T + (j 0).val) (h1 : (i 1).val = (j 1).val) :
    k0_pay1 (F := Ideal) x w r j = layer0 A W R i := by
  obtain ⟨p, q, rfl⟩ : ∃ (p : Fin 10000) (q : Fin 128), j = ix2 p q := ⟨j 0, j 1, eq_ix2 j⟩
  obtain ⟨P, q', rfl⟩ : ∃ (P : Fin 100000) (q' : Fin 128), i = ix2 P q' := ⟨i 0, i 1, eq_ix2 i⟩
  obtain rfl : q' = q := Fin.ext h1
  exact body_entry0 A W R x w r P p q' (fun k => hx (ix2 p k) (ix2 P k) h0 rfl) (fun k => hw _) (hr _)

/-! ### The blocks and the array -/

/-- The windows' index maps over the grid: the row windows (input 0, output 3) are at block `(t, 0)`, the weight and
    the bias row at block `(0, 0)`. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input block at point `t` is row `10000·t + p` of the array. -/
theorem rows0_apply (c : Dev nD) (t : Fin cfg0.N) (y : S10000x128.Idx) (i : S100000x128.Idx)
    (h0 : (i 0).val = 10000 * t.val + (y 0).val) (h1 : (i 1).val = (y 1).val) :
    (iblk0 V c 0 t : FVec Ideal S10000x128 .f32) y = (V c main_arg0 : FVec Ideal S100000x128 .f32) i := by
  obtain ⟨e0, e1, -⟩ := blocks0 t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight's block at every point is the whole weight. -/
theorem weight0_apply (c : Dev nD) (t : Fin cfg0.N) (y : S128x128.Idx) :
    (iblk0 V c 1 t : FVec Ideal S128x128 .f32) y = (V c main_arg14 : FVec Ideal S128x128 .f32) y := by
  obtain ⟨-, -, e0, e1, -⟩ := blocks0 t
  unfold iblk0
  rw [View.read_apply]
  show V c main_arg14 _ = V c main_arg14 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias row's block at every point is the whole row. -/
theorem bias0_apply (c : Dev nD) (t : Fin cfg0.N) (y : S1x128.Idx) :
    (iblk0 V c 2 t : FVec Ideal S1x128 .f32) y = (V c main_v0 : FVec Ideal S1x128 .f32) y := by
  obtain ⟨-, -, -, -, e0, e1, -⟩ := blocks0 t
  unfold iblk0
  rw [View.read_apply]
  show V c main_v0 _ = V c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point `t` writes back is block `t` of the layer of the arrays as the region finds them. -/
theorem flushed0 (c : Dev nD) (t : Fin cfg0.N) :
    (dat0 (F := Ideal) V c).flushed 3 t
      = ((cfg0.win 3).blk t).view.read (Elt Ideal) (layer0 (V c main_arg0) (V c main_arg14) (V c main_v0)) := by
  show (cfg0.win 3).cut (grid0.coords t) ((dat0 V c).after 3 t) = _
  rw [after0_3]
  unfold out0_3
  rw [View.canon_unit_zero zeros2]
  simp only [View.ld_unit_zero (S := S10000x128) zeros2, View.ld_unit_zero (S := S128x128) zeros2,
    View.ld_unit_zero (S := S1x128) zeros2]
  obtain ⟨-, -, -, -, -, -, e0, e1⟩ := blocks0 t
  funext j
  show k0_pay1 (iblk0 V c 0 t) (iblk0 V c 1 t) (iblk0 V c 2 t) ((cfg0.win 3).xinj (grid0.coords t) j)
    = layer0 (V c main_arg0) (V c main_arg14) (V c main_v0) (((cfg0.win 3).blk t).view.emb j)
  refine body_block0 (V c main_arg0) (V c main_arg14) (V c main_v0) (iblk0 V c 0 t) (iblk0 V c 1 t) (iblk0 V c 2 t) t.val
    (fun y i h0 h1 => rows0_apply V c t y i h0 h1) (fun y => weight0_apply V c t y) (fun y => bias0_apply V c t y)
    ((cfg0.win 3).xinj (grid0.coords t) j) (((cfg0.win 3).blk t).view.emb j) ?_ ?_
  · show win0_3.index t (0 : Fin 2) * 10000 + 1 * (j 0).val = 10000 * t.val + (j 0).val
    rw [e0]; omega
  · show win0_3.index t (1 : Fin 2) * 128 + 1 * (j 1).val = (j 1).val
    rw [e1]; omega

/-- An index of the array is in point `t`'s block iff each coordinate is in the block's range on its axis. -/
theorem mem_blk0 (t : Fin cfg0.N) (i : S100000x128.Idx) :
    i ∈ ((cfg0.win 3).blk t).view.set
      ↔ ∀ a : Fin 2, win0_3.index t a * S10000x128.size a ≤ (i a).val
          ∧ (i a).val < win0_3.index t a * S10000x128.size a + S10000x128.size a := by
  show i ∈ ((View.whole main_v1).slice (win0_3.rect t)).set ↔ _
  rw [View.set_slice_whole, Rect.mem_set_unit]
  exact Iff.rfl

/-- Row `r` of the array is in the block of point `r / 10000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_3 _, ?_⟩
  rw [mem_blk0]
  obtain ⟨-, -, -, -, -, -, e0, e1⟩ := blocks0 ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e0]
    show (i 0).val / 10000 * 10000 ≤ (i 0).val ∧ (i 0).val < (i 0).val / 10000 * 10000 + 10000
    omega
  | ⟨1, _⟩ =>
    show win0_3.index _ (1 : Fin 2) * 128 ≤ (i 1).val ∧ (i 1).val < win0_3.index _ (1 : Fin 2) * 128 + 128
    rw [e1]
    omega

/-- REGION 0: the output array ends holding the layer of the whole input arrays. -/
theorem region0 (c : Dev nD) : (dat0 (F := Ideal) V c).arrAt 3 cfg0.N
      = (addf (Cert.ReferenceIdeal.Read.val_main_v1 (F := Ideal) (V c main_arg0) (V c main_arg14))
          (broadcastInDim S100000x128 ![0, 1] Cert.ReferenceIdeal.Gen.bcast_S1x128_S100000x128_0_1 (V c main_v0))
        : FVec Ideal S100000x128 .f32) :=
  (dat0 (F := Ideal) V c).arrAt_eq_of_cover 3 (layer0 (V c main_arg0) (V c main_arg14) (V c main_v0))
    (fun t _ => flushed0 V c t) cover0

/-! ## The second layer (region 1): features `main_arg3`, weight `main_arg16`, bias row `main_v2`, output `main_v3` -/
/-- The layer of the whole array: the host's product of `A` with the transposed weight, plus the bias row on every row. -/
abbrev layer1 (A : FVec Ideal S100000x128 .f32) (W : FVec Ideal S128x128 .f32) (R : FVec Ideal S1x128 .f32) :
    FVec Ideal S100000x128 .f32 :=
  addf (Cert.ReferenceIdeal.Read.val_main_v6 (F := Ideal) A W)
    (broadcastInDim S100000x128 ![0, 1] Cert.ReferenceIdeal.Gen.bcast_S1x128_S100000x128_0_1 R)

/-- The body's value at entry `(p, q)` of a block whose row `p` is row `P` of `A`, whose weight is `W` on row `q`
    and whose bias row is `R` at `q`: the layer of the whole array at `(P, q)`. -/
theorem body_entry1 (A : FVec Ideal S100000x128 .f32) (W : FVec Ideal S128x128 .f32) (R : FVec Ideal S1x128 .f32)
    (x : FVec Ideal S10000x128 .f32) (w : FVec Ideal S128x128 .f32) (r : FVec Ideal S1x128 .f32)
    (P : Fin 100000) (p : Fin 10000) (q : Fin 128)
    (hx : ∀ k : Fin 128, x (ix2 p k) = A (ix2 P k)) (hw : ∀ k : Fin 128, w (ix2 q k) = W (ix2 q k))
    (hr : r (ix2 (0 : Fin 1) q) = R (ix2 (0 : Fin 1) q)) :
    k1_pay1 (F := Ideal) x w r (ix2 p q) = layer1 A W R (ix2 P q) := by
  unfold k1_pay1 layer1 Cert.ReferenceIdeal.Read.val_main_v6 Cert.ReferenceIdeal.Read.val_main_v5
  exact Cert.Lib.AffineRows.layer_row none none A
    (transpose Cert.ReferenceIdeal.S128x128 [1, 0] W Cert.ReferenceIdeal.Gen.transposes_S128x128_S128x128_1_0)
    (truncf .bf16 x bitsLt_bf16_f32)
    (transpose S128x128 [1, 0] (truncf .bf16 w bitsLt_bf16_f32) transposes_S128x128_p1_0_S128x128)
    _ _ P p q hx
    (fun k => (transpose_sq_apply _ _ k q).trans ((hw k).trans (transpose_sq_apply W _ k q).symm))
    ((Cert.Lib.RowLayers.rowOver_apply r _ _ p q).trans (hr.trans (Cert.Lib.RowLayers.rowInDim_apply R _ P q).symm))

/-- The body's value on a block standing on rows `10000·T …` of `A`, with the whole weight and the whole bias row: at
    the block's index `j` it is the layer of the whole array at the index `i` with `i 0 = 10000·T + j 0`, `i 1 = j 1`. -/
theorem body_block1 (A : FVec Ideal S100000x128 .f32) (W : FVec Ideal S128x128 .f32) (R : FVec Ideal S1x128 .f32)
    (x : FVec Ideal S10000x128 .f32) (w : FVec Ideal S128x128 .f32) (r : FVec Ideal S1x128 .f32) (T : ℕ)
    (hx : ∀ (y : S10000x128.Idx) (i : S100000x128.Idx), (i 0).val = 10000 * T + (y 0).val → (i 1).val = (y 1).val → x y = A i)
    (hw : ∀ y, w y = W y) (hr : ∀ y, r y = R y)
    (j : S10000x128.Idx) (i : S100000x128.Idx) (h0 : (i 0).val = 10000 * T + (j 0).val) (h1 : (i 1).val = (j 1).val) :
    k1_pay1 (F := Ideal) x w r j = layer1 A W R i := by
  obtain ⟨p, q, rfl⟩ : ∃ (p : Fin 10000) (q : Fin 128), j = ix2 p q := ⟨j 0, j 1, eq_ix2 j⟩
  obtain ⟨P, q', rfl⟩ : ∃ (P : Fin 100000) (q' : Fin 128), i = ix2 P q' := ⟨i 0, i 1, eq_ix2 i⟩
  obtain rfl : q' = q := Fin.ext h1
  exact body_entry1 A W R x w r P p q' (fun k => hx (ix2 p k) (ix2 P k) h0 rfl) (fun k => hw _) (hr _)

/-! ### The blocks and the array -/

/-- The windows' index maps over the grid: the row windows (input 0, output 3) are at block `(t, 0)`, the weight and
    the bias row at block `(0, 0)`. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the input block at point `t` is row `10000·t + p` of the array. -/
theorem rows1_apply (c : Dev nD) (t : Fin cfg1.N) (y : S10000x128.Idx) (i : S100000x128.Idx)
    (h0 : (i 0).val = 10000 * t.val + (y 0).val) (h1 : (i 1).val = (y 1).val) :
    (iblk1 V c 0 t : FVec Ideal S10000x128 .f32) y = (V c main_arg3 : FVec Ideal S100000x128 .f32) i := by
  obtain ⟨e0, e1, -⟩ := blocks1 t
  unfold iblk1
  rw [View.read_apply]
  show V c main_arg3 _ = V c main_arg3 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The weight's block at every point is the whole weight. -/
theorem weight1_apply (c : Dev nD) (t : Fin cfg1.N) (y : S128x128.Idx) :
    (iblk1 V c 1 t : FVec Ideal S128x128 .f32) y = (V c main_arg16 : FVec Ideal S128x128 .f32) y := by
  obtain ⟨-, -, e0, e1, -⟩ := blocks1 t
  unfold iblk1
  rw [View.read_apply]
  show V c main_arg16 _ = V c main_arg16 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The bias row's block at every point is the whole row. -/
theorem bias1_apply (c : Dev nD) (t : Fin cfg1.N) (y : S1x128.Idx) :
    (iblk1 V c 2 t : FVec Ideal S1x128 .f32) y = (V c main_v2 : FVec Ideal S1x128 .f32) y := by
  obtain ⟨-, -, -, -, e0, e1, -⟩ := blocks1 t
  unfold iblk1
  rw [View.read_apply]
  show V c main_v2 _ = V c main_v2 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- What point `t` writes back is block `t` of the layer of the arrays as the region finds them. -/
theorem flushed1 (c : Dev nD) (t : Fin cfg1.N) :
    (dat1 (F := Ideal) V c).flushed 3 t
      = ((cfg1.win 3).blk t).view.read (Elt Ideal) (layer1 (V c main_arg3) (V c main_arg16) (V c main_v2)) := by
  show (cfg1.win 3).cut (grid1.coords t) ((dat1 V c).after 3 t) = _
  rw [after1_3]
  unfold out1_3
  rw [View.canon_unit_zero zeros2]
  simp only [View.ld_unit_zero (S := S10000x128) zeros2, View.ld_unit_zero (S := S128x128) zeros2,
    View.ld_unit_zero (S := S1x128) zeros2]
  obtain ⟨-, -, -, -, -, -, e0, e1⟩ := blocks1 t
  funext j
  show k1_pay1 (iblk1 V c 0 t) (iblk1 V c 1 t) (iblk1 V c 2 t) ((cfg1.win 3).xinj (grid1.coords t) j)
    = layer1 (V c main_arg3) (V c main_arg16) (V c main_v2) (((cfg1.win 3).blk t).view.emb j)
  refine body_block1 (V c main_arg3) (V c main_arg16) (V c main_v2) (iblk1 V c 0 t) (iblk1 V c 1 t) (iblk1 V c 2 t) t.val
    (fun y i h0 h1 => rows1_apply V c t y i h0 h1) (fun y => weight1_apply V c t y) (fun y => bias1_apply V c t y)
    ((cfg1.win 3).xinj (grid1.coords t) j) (((cfg1.win 3).blk t).view.emb j) ?_ ?_
  · show win1_3.index t (0 : Fin 2) * 10000 + 1 * (j 0).val = 10000 * t.val + (j 0).val
    rw [e0]; omega
  · show win1_3.index t (1 : Fin 2) * 128 + 1 * (j 1).val = (j 1).val
    rw [e1]; omega

/-- An index of the array is in point `t`'s block iff each coordinate is in the block's range on its axis. -/
theorem mem_blk1 (t : Fin cfg1.N) (i : S100000x128.Idx) :
    i ∈ ((cfg1.win 3).blk t).view.set
      ↔ ∀ a : Fin 2, win1_3.index t a * S10000x128.size a ≤ (i a).val
          ∧ (i a).val < win1_3.index t a * S10000x128.size a + S10000x128.size a := by
  show i ∈ ((View.whole main_v3).slice (win1_3.rect t)).set ↔ _
  rw [View.set_slice_whole, Rect.mem_set_unit]
  exact Iff.rfl

/-- Row `r` of the array is in the block of point `r / 10000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_3 _, ?_⟩
  rw [mem_blk1]
  obtain ⟨-, -, -, -, -, -, e0, e1⟩ := blocks1 ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e0]
    show (i 0).val / 10000 * 10000 ≤ (i 0).val ∧ (i 0).val < (i 0).val / 10000 * 10000 + 10000
    omega
  | ⟨1, _⟩ =>
    show win1_3.index _ (1 : Fin 2) * 128 ≤ (i 1).val ∧ (i 1).val < win1_3.index _ (1 : Fin 2) * 128 + 128
    rw [e1]
    omega

/-- REGION 1: the output array ends holding the layer of the whole input arrays. -/
theorem region1 (c : Dev nD) : (dat1 (F := Ideal) V c).arrAt 3 cfg1.N
      = (addf (Cert.ReferenceIdeal.Read.val_main_v6 (F := Ideal) (V c main_arg3) (V c main_arg16))
          (broadcastInDim S100000x128 ![0, 1] Cert.ReferenceIdeal.Gen.bcast_S1x128_S100000x128_0_1 (V c main_v2))
        : FVec Ideal S100000x128 .f32) :=
  (dat1 (F := Ideal) V c).arrAt_eq_of_cover 3 (layer1 (V c main_arg3) (V c main_arg16) (V c main_v2))
    (fun t _ => flushed1 V c t) cover1

end Cert.Bridge.LinearRows

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.DecayEdges.lean ====
/-
  The exponential-decay stage on gathered edges, on the extended reals.

  For edge rows G : [800000, 128], edge intervals I : [800000, 1] and a parameter row H : [1, 128] the stage is

      decay G I H (e, f) = exp (I (e, 0) * ∑ k, G (e, k) * H (0, k)) * G (e, f).

  Kernel side. The rows are tiled in 160 blocks of 5000; the grid point t holds rows 5000·t … 5000·t + 4999 of the edge
  rows and of the intervals, and the whole parameter row. On its block the body forms, row by row, the lane sum of the
  row times the parameter row (from the zero word, so the plain sum), keeps it as a column, multiplies it by the
  interval, takes the exponential, spreads the column over the lanes and multiplies the row by it (pay2_point). Entry
  (p, q) of the block written at point t is therefore decay at (5000·t + p, q) of the whole arrays (block_point,
  flushed2_eq); every row lies in the block of the point its number divided by 5000 names (cover2); so the output array
  is decay of the three arrays as the region finds them (region2, and region3 for the second call of the same body).

  Reference side. The reference multiplies the node table L : [100000, 128] by the parameter column h : [128, 1] first
  and takes that product at the edges' rows afterwards; the rows it scales are the rows of L taken at the same index
  column. Taking rows commutes with the product against a column: (L·h)[r] = ∑ k, L[r, k] * h[k] with r the clamped
  row an edge names, and L[r, k] is entry (e, k) of the rows taken. So the reference's stage is decay of the rows
  taken (stage_point, decay_ref0, decay_ref1). No finiteness is used anywhere: the two sides are the same sums and
  products term by term.
-/
import proofs.«179541_j7550552506805_2_alg».proof.Proof.Gen.KernelIdeal.Frame
import proofs.«179541_j7550552506805_2_alg».proof.Proof.Gen.ReferenceIdeal.Read
import proofs.«179541_j7550552506805_2_alg».proof.Proof.LibKeepdims
import proofs.«179541_j7550552506805_2_alg».proof.Proof.LibRowLayers
import proofs.«179541_j7550552506805_2_alg».proof.Proof.LibRowGather
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Bridge.DecayEdges

/-! ## The stage as one function of the three arrays -/

/-- The decay stage entry by entry: the row scaled by the exponential of its interval times the row's sum against the
    parameter row. -/
def decay (G : (⟨2, ![800000, 128]⟩ : Shape).Idx → EReal) (I : (⟨2, ![800000, 1]⟩ : Shape).Idx → EReal)
    (H : (⟨2, ![1, 128]⟩ : Shape).Idx → EReal) : (⟨2, ![800000, 128]⟩ : Shape).Idx → EReal :=
  fun j => Ideal.exp (I (ix2 (j 0) (0 : Fin 1)) * ∑ k : Fin 128, G (ix2 (j 0) k) * H (ix2 (0 : Fin 1) k)) * G j

/-- The stage at entry (e, f). -/
theorem decay_apply (G : (⟨2, ![800000, 128]⟩ : Shape).Idx → EReal) (I : (⟨2, ![800000, 1]⟩ : Shape).Idx → EReal)
    (H : (⟨2, ![1, 128]⟩ : Shape).Idx → EReal) (e : Fin 800000) (f : Fin 128) :
    decay G I H (ix2 e f)
      = Ideal.exp (I (ix2 e (0 : Fin 1)) * ∑ k : Fin 128, G (ix2 e k) * H (ix2 (0 : Fin 1) k)) * G (ix2 e f) := rfl

/-! ## Kernel side: the body on one block of 5000 rows -/

section Kernel
open Cert.KernelIdeal Cert.KernelIdeal.Gen

/-- The exponential of a vector at an index is the exponential of the entry. -/
theorem exp_at {s : Shape} {φ : FTy} (x : FVec Ideal s φ) (i : s.Idx) : exp x i = Ideal.exp (x i) := rfl

/-- The body's stored value at entry (p, q) of its block: the block's row p scaled by the exponential of the block's
    interval p times the lane sum of the row against the parameter row. -/
theorem pay2_point (v0 : Vec Ideal S5000x128 .f32) (v2 : Vec Ideal S1x128 .f32) (v8 : Vec Ideal S5000x1 .f32)
    (p : Fin 5000) (q : Fin 128) :
    k2_pay1 (F := Ideal) v0 v2 v8 (ix2 p q)
      = Ideal.exp (v8 (ix2 p (0 : Fin 1)) * ∑ k : Fin 128, v0 (ix2 p k) * v2 (ix2 (0 : Fin 1) k)) * v0 (ix2 p q) := by
  unfold k2_pay1
  dsimp only
  simp only [shapeCast_self]
  rw [mulf_apply, ValueKeepdims.broadcastTo_a1_ab_apply, exp_at, mulf_apply, ValueKeepdims.shapeCast_a_a1_apply]
  refine congrArg (fun z => Ideal.exp (v8 (ix2 p (0 : Fin 1)) * z) * v0 (ix2 p q)) ?_
  refine (ValueKeepdims.multiReduction_add_row _ _ _ _ _ p).trans ?_
  refine Finset.sum_congr rfl fun k _ => ?_
  rw [mulf_apply, broadcastTo_1b_ab_apply]

/-- The second call's body is the same operations. -/
theorem pay3_point (v0 : Vec Ideal S5000x128 .f32) (v2 : Vec Ideal S1x128 .f32) (v8 : Vec Ideal S5000x1 .f32)
    (p : Fin 5000) (q : Fin 128) :
    k3_pay1 (F := Ideal) v0 v2 v8 (ix2 p q)
      = Ideal.exp (v8 (ix2 p (0 : Fin 1)) * ∑ k : Fin 128, v0 (ix2 p k) * v2 (ix2 (0 : Fin 1) k)) * v0 (ix2 p q) :=
  pay2_point v0 v2 v8 p q

/-- A block against the whole arrays: when block row y is array row 5000·T + y of the edge rows and of the intervals and
    the block's parameter row is the array's, the body's value at a block entry is decay at the array entry it sits at. -/
theorem block_point (G : (⟨2, ![800000, 128]⟩ : Shape).Idx → EReal) (I : (⟨2, ![800000, 1]⟩ : Shape).Idx → EReal)
    (H : (⟨2, ![1, 128]⟩ : Shape).Idx → EReal)
    (v0 : Vec Ideal S5000x128 .f32) (v2 : Vec Ideal S1x128 .f32) (v8 : Vec Ideal S5000x1 .f32) (T : Nat)
    (h0 : ∀ (y : S5000x128.Idx) (i : S800000x128.Idx), (i 0).val = 5000 * T + (y 0).val → (i 1).val = (y 1).val → v0 y = G i)
    (h8 : ∀ (y : S5000x1.Idx) (i : S800000x1.Idx), (i 0).val = 5000 * T + (y 0).val → (i 1).val = (y 1).val → v8 y = I i)
    (h2 : ∀ y : S1x128.Idx, v2 y = H y)
    (y : S5000x128.Idx) (i : S800000x128.Idx) (hy0 : (i 0).val = 5000 * T + (y 0).val) (hy1 : (i 1).val = (y 1).val) :
    k2_pay1 (F := Ideal) v0 v2 v8 y = decay G I H i := by
  obtain ⟨p, q, rfl⟩ : ∃ (p : Fin 5000) (q : Fin 128), y = ix2 p q := ⟨y 0, y 1, eq_ix2 y⟩
  obtain ⟨e, f, rfl⟩ : ∃ (e : Fin 800000) (f : Fin 128), i = ix2 e f := ⟨i 0, i 1, eq_ix2 i⟩
  have hf : f = q := Fin.ext hy1
  subst hf
  rw [pay2_point, decay_apply, h8 (ix2 p 0) (ix2 e 0) hy0 rfl, h0 (ix2 p f) (ix2 e f) hy0 rfl]
  refine congrArg (fun z => Ideal.exp (I (ix2 e (0 : Fin 1)) * z) * G (ix2 e f)) ?_
  exact Finset.sum_congr rfl fun k _ => by rw [h0 (ix2 p k) (ix2 e k) hy0 rfl, h2]

variable (V : (c : Dev nD) → (b : Ref sig .tc) → Buf (Elt Ideal) ((c : Thread nD τ).loc b))

/-- The zero offsets, as a function. -/
theorem hz : (![0, 0] : Fin 2 → Nat) = fun _ => 0 := funext fun a => by fin_cases a <;> rfl

/-! ## Kernel side: from the blocks to the array, first call -/

/-- The index maps over the grid: the row windows move with the point along axis 0, the parameter row stays. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block of edge rows at point t is rows 5000·t … of the array. -/
theorem iblk2_0_apply (c : Dev nD) (t : Fin cfg2.N) (y : S5000x128.Idx) (i : S800000x128.Idx)
    (h0 : (i 0).val = 5000 * t.val + (y 0).val) (h1 : (i 1).val = (y 1).val) :
    (iblk2 V c 0 t : Vec Ideal S5000x128 .f32) y = (V c main_v14 : S800000x128.Idx → EReal) i := by
  obtain ⟨e0, e1, -⟩ := idx_facts2 t
  unfold iblk2
  rw [View.read_apply]
  show V c main_v14 _ = V c main_v14 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The block of intervals at point t is rows 5000·t … of the interval column. -/
theorem iblk2_1_apply (c : Dev nD) (t : Fin cfg2.N) (y : S5000x1.Idx) (i : S800000x1.Idx)
    (h0 : (i 0).val = 5000 * t.val + (y 0).val) (h1 : (i 1).val = (y 1).val) :
    (iblk2 V c 1 t : Vec Ideal S5000x1 .f32) y = (V c main_v15 : S800000x1.Idx → EReal) i := by
  obtain ⟨-, -, e0, e1, -⟩ := idx_facts2 t
  unfold iblk2
  rw [View.read_apply]
  show V c main_v15 _ = V c main_v15 _
  congr 1
  funext a
  apply Fin.ext
  match a with
  | ⟨0, _⟩ => show win2_1.index t 0 * 5000 + 1 * (y 0).val = (i 0).val; rw [e0, h0]; omega
  | ⟨1, _⟩ => show win2_1.index t 1 * 1 + 1 * (y 1).val = (i 1).val; rw [e1, h1]; omega

/-- The parameter row's block is the whole row at every point. -/
theorem iblk2_2_apply (c : Dev nD) (t : Fin cfg2.N) (y : S1x128.Idx) :
    (iblk2 V c 2 t : Vec Ideal S1x128 .f32) y = (V c main_v16 : S1x128.Idx → EReal) y := by
  obtain ⟨-, -, -, -, e0, e1, -⟩ := idx_facts2 t
  unfold iblk2
  rw [View.read_apply]
  show V c main_v16 _ = V c main_v16 _
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- What point t writes back is block t of the decay of the whole arrays. -/
theorem flushed2_eq (c : Dev nD) (t : Fin cfg2.N) :
    (dat2 (F := Ideal) V c).flushed 3 t
      = ((cfg2.win 3).blk t).view.read (Elt Ideal) (decay (V c main_v14) (V c main_v15) (V c main_v16)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S5000x1) hz]
  obtain ⟨-, -, -, -, -, -, e6, e7⟩ := idx_facts2 t
  funext j
  refine block_point (V c main_v14) (V c main_v15) (V c main_v16) (iblk2 V c 0 t) (iblk2 V c 2 t) (iblk2 V c 1 t) t.val
    (fun y i a b => iblk2_0_apply V c t y i a b) (fun y i a b => iblk2_1_apply V c t y i a b) (fun y => iblk2_2_apply V c t y)
    j (((cfg2.win 3).blk t).view.emb j) ?_ ?_
  · show win2_3.index t 0 * 5000 + 1 * (j 0).val = 5000 * t.val + (j 0).val
    rw [e6]; omega
  · show win2_3.index t 1 * 128 + 1 * (j 1).val = (j 1).val
    rw [e7]; omega

/-- Every row lies in the block of the point its row number divided by 5000 names. -/
theorem cover2 (i : S800000x128.Idx) :
    ∃ t : Fin cfg2.N, (cfg2.win 3).flush t = true ∧ i ∈ ((cfg2.win 3).blk t).view.set := by
  have hi0 : (i 0).val < 800000 := (i 0).isLt
  have hi1 : (i 1).val < 128 := (i 1).isLt
  have hN : grid2.N = 160 := N_2
  have ht : (i 0).val / 5000 < grid2.N := by rw [hN]; omega
  obtain ⟨-, -, -, -, -, -, e6, e7⟩ := idx_facts2 ⟨(i 0).val / 5000, ht⟩
  refine ⟨⟨(i 0).val / 5000, ht⟩, flush2_3 _, ?_⟩
  show i ∈ ((View.whole main_v17).slice (win2_3.rect ⟨(i 0).val / 5000, ht⟩)).set
  rw [View.set_slice_whole, Rect.mem_set_unit]
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ 1 * 128 ≤ (i 1).val ∧ (i 1).val < win2_3.index ⟨(i 0).val / 5000, ht⟩ 1 * 128 + 128
    rw [e7]; omega

/-- The output array after the region: decay of the three arrays as the region finds them. -/
theorem region2 (c : Dev nD) :
    (dat2 (F := Ideal) V c).arrAt 3 cfg2.N = decay (V c main_v14) (V c main_v15) (V c main_v16) :=
  (dat2 (F := Ideal) V c).arrAt_eq_of_cover 3 (decay (V c main_v14) (V c main_v15) (V c main_v16))
    (fun t _ => flushed2_eq V c t) (fun i => cover2 i)

/-- The same for the second decay body (the same operations under its own name). -/
theorem block_point3 (G : (⟨2, ![800000, 128]⟩ : Shape).Idx → EReal) (I : (⟨2, ![800000, 1]⟩ : Shape).Idx → EReal)
    (H : (⟨2, ![1, 128]⟩ : Shape).Idx → EReal)
    (v0 : Vec Ideal S5000x128 .f32) (v2 : Vec Ideal S1x128 .f32) (v8 : Vec Ideal S5000x1 .f32) (T : Nat)
    (h0 : ∀ (y : S5000x128.Idx) (i : S800000x128.Idx), (i 0).val = 5000 * T + (y 0).val → (i 1).val = (y 1).val → v0 y = G i)
    (h8 : ∀ (y : S5000x1.Idx) (i : S800000x1.Idx), (i 0).val = 5000 * T + (y 0).val → (i 1).val = (y 1).val → v8 y = I i)
    (h2 : ∀ y : S1x128.Idx, v2 y = H y)
    (y : S5000x128.Idx) (i : S800000x128.Idx) (hy0 : (i 0).val = 5000 * T + (y 0).val) (hy1 : (i 1).val = (y 1).val) :
    k3_pay1 (F := Ideal) v0 v2 v8 y = decay G I H i :=
  block_point G I H v0 v2 v8 T h0 h8 h2 y i hy0 hy1

/-! ## Kernel side: from the blocks to the array, second call -/

/-- The index maps over the grid: the row windows move with the point along axis 0, the parameter row stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The block of edge rows at point t is rows 5000·t … of the array. -/
theorem iblk3_0_apply (c : Dev nD) (t : Fin cfg3.N) (y : S5000x128.Idx) (i : S800000x128.Idx)
    (h0 : (i 0).val = 5000 * t.val + (y 0).val) (h1 : (i 1).val = (y 1).val) :
    (iblk3 V c 0 t : Vec Ideal S5000x128 .f32) y = (V c main_v33 : S800000x128.Idx → EReal) i := by
  obtain ⟨e0, e1, -⟩ := idx_facts3 t
  unfold iblk3
  rw [View.read_apply]
  show V c main_v33 _ = V c main_v33 _
  congr 1
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The block of intervals at point t is rows 5000·t … of the interval column. -/
theorem iblk3_1_apply (c : Dev nD) (t : Fin cfg3.N) (y : S5000x1.Idx) (i : S800000x1.Idx)
    (h0 : (i 0).val = 5000 * t.val + (y 0).val) (h1 : (i 1).val = (y 1).val) :
    (iblk3 V c 1 t : Vec Ideal S5000x1 .f32) y = (V c main_v34 : S800000x1.Idx → EReal) i := by
  obtain ⟨-, -, e0, e1, -⟩ := idx_facts3 t
  unfold iblk3
  rw [View.read_apply]
  show V c main_v34 _ = V c main_v34 _
  congr 1
  funext a
  apply Fin.ext
  match a with
  | ⟨0, _⟩ => show win3_1.index t 0 * 5000 + 1 * (y 0).val = (i 0).val; rw [e0, h0]; omega
  | ⟨1, _⟩ => show win3_1.index t 1 * 1 + 1 * (y 1).val = (i 1).val; rw [e1, h1]; omega

/-- The parameter row's block is the whole row at every point. -/
theorem iblk3_2_apply (c : Dev nD) (t : Fin cfg3.N) (y : S1x128.Idx) :
    (iblk3 V c 2 t : Vec Ideal S1x128 .f32) y = (V c main_v35 : S1x128.Idx → EReal) y := by
  obtain ⟨-, -, -, -, e0, e1, -⟩ := idx_facts3 t
  unfold iblk3
  rw [View.read_apply]
  show V c main_v35 _ = V c main_v35 _
  congr 1
  funext a
  apply Fin.ext
  match a with
  | ⟨0, _⟩ => show win3_2.index t 0 * 1 + 1 * (y 0).val = (y 0).val; rw [e0]; omega
  | ⟨1, _⟩ => show win3_2.index t 1 * 128 + 1 * (y 1).val = (y 1).val; rw [e1]; omega

/-- What point t writes back is block t of the decay of the whole arrays. -/
theorem flushed3_eq (c : Dev nD) (t : Fin cfg3.N) :
    (dat3 (F := Ideal) V c).flushed 3 t
      = ((cfg3.win 3).blk t).view.read (Elt Ideal) (decay (V c main_v33) (V c main_v34) (V c main_v35)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz, View.ld_unit_zero (S := S5000x1) hz]
  obtain ⟨-, -, -, -, -, -, e6, e7⟩ := idx_facts3 t
  funext j
  refine block_point3 (V c main_v33) (V c main_v34) (V c main_v35) (iblk3 V c 0 t) (iblk3 V c 2 t) (iblk3 V c 1 t) t.val
    (fun y i a b => iblk3_0_apply V c t y i a b) (fun y i a b => iblk3_1_apply V c t y i a b) (fun y => iblk3_2_apply V c t y)
    j (((cfg3.win 3).blk t).view.emb j) ?_ ?_
  · show win3_3.index t 0 * 5000 + 1 * (j 0).val = 5000 * t.val + (j 0).val
    rw [e6]; omega
  · show win3_3.index t 1 * 128 + 1 * (j 1).val = (j 1).val
    rw [e7]; omega

/-- Every row lies in the block of the point its row number divided by 5000 names. -/
theorem cover3 (i : S800000x128.Idx) :
    ∃ t : Fin cfg3.N, (cfg3.win 3).flush t = true ∧ i ∈ ((cfg3.win 3).blk t).view.set := by
  have hi0 : (i 0).val < 800000 := (i 0).isLt
  have hi1 : (i 1).val < 128 := (i 1).isLt
  have hN : grid3.N = 160 := N_3
  have ht : (i 0).val / 5000 < grid3.N := by rw [hN]; omega
  obtain ⟨-, -, -, -, -, -, e6, e7⟩ := idx_facts3 ⟨(i 0).val / 5000, ht⟩
  refine ⟨⟨(i 0).val / 5000, ht⟩, flush3_3 _, ?_⟩
  show i ∈ ((View.whole main_v36).slice (win3_3.rect ⟨(i 0).val / 5000, ht⟩)).set
  rw [View.set_slice_whole, Rect.mem_set_unit]
  intro a
  match a with
  | ⟨0, _⟩ =>
    show win3_3.index ⟨(i 0).val / 5000, ht⟩ 0 * 5000 ≤ (i 0).val ∧ (i 0).val < win3_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ 1 * 128 ≤ (i 1).val ∧ (i 1).val < win3_3.index ⟨(i 0).val / 5000, ht⟩ 1 * 128 + 128
    rw [e7]; omega

/-- The output array after the region: decay of the three arrays as the region finds them. -/
theorem region3 (c : Dev nD) :
    (dat3 (F := Ideal) V c).arrAt 3 cfg3.N = decay (V c main_v33) (V c main_v34) (V c main_v35) :=
  (dat3 (F := Ideal) V c).arrAt_eq_of_cover 3 (decay (V c main_v33) (V c main_v34) (V c main_v35))
    (fun t _ => flushed3_eq V c t) (fun i => cover3 i)

end Kernel

/-! ## Reference side: rows taken after the product against the parameter column -/

section Reference
open Cert.ReferenceIdeal Cert.ReferenceIdeal.Gen Cert.ReferenceIdeal.Read

/-- A column [a, 1] put on both axes of [a, b] reads, at (i, j), its entry (i, 0). -/
theorem colInDim_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A vector [a] put on axis 0 of [a, 1] reads, at (i, u), its entry i. -/
theorem vecInDim_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's exponential of a vector at an index is the exponential of the entry. -/
theorem hostExp_at {s : Shape} {φ : FTy} (x : FVec Ideal s φ) (i : s.Idx) : Host.exp x i = Ideal.exp (x i) := rfl

/-- Entries of a column taken at an index column: the column at the clamped row. -/
theorem gatherCol_apply (x : FVec Ideal S100000x1 .f32) (idx : IVec S800000x1 32)
    (e : Fin 800000) :
    Host.gather gather_S100000x1_S800000x1_S800000x1_1_0_n_n_0_1_11 x idx (ix2 e (0 : Fin 1))
      = x (ix2 (Cert.Lib.Rows.clampRow 100000 (by decide) (idx (ix2 e (0 : Fin 1)))) (0 : Fin 1)) :=
  Cert.Lib.Rows.rowGather_apply (N := 100000) (R := 800000) (C := 1) (by decide)
    gather_S100000x1_S800000x1_S800000x1_1_0_n_n_0_1_11.wf x idx e 0

/-- Rows of a matrix taken at an index column: the matrix at the clamped row. -/
theorem gatherRows_apply (x : FVec Ideal S100000x128 .f32) (idx : IVec S800000x1 32)
    (e : Fin 800000) (f : Fin 128) :
    Host.gather gather_S100000x128_S800000x1_S800000x128_1_0_n_n_0_1_1128 x idx (ix2 e f)
      = x (ix2 (Cert.Lib.Rows.clampRow 100000 (by decide) (idx (ix2 e (0 : Fin 1)))) f) :=
  Cert.Lib.Rows.rowGather_apply (N := 100000) (R := 800000) (C := 128) (by decide)
    gather_S100000x128_S800000x1_S800000x128_1_0_n_n_0_1_1128.wf x idx e f

/-- Taking rows commutes with the product against a column: the entry of L·h at the row an edge names is the sum over k
    of that row of L times h, and that row of L is the edge's row of the rows taken. So the reference's stage, which takes
    the products L·h at the edges' rows, is the decay of the rows taken. -/
theorem stage_point (L : FVec Ideal S100000x128 .f32) (h : FVec Ideal S128x1 .f32)
    (t : FVec Ideal S800000 .f32) (idx : IVec S800000x1 32)
    (I : (⟨2, ![800000, 1]⟩ : Shape).Idx → EReal) (H : (⟨2, ![1, 128]⟩ : Shape).Idx → EReal)
    (hI : ∀ e : Fin 800000, I (ix2 e (0 : Fin 1)) = t (ix1 e)) (hH : ∀ k : Fin 128, H (ix2 (0 : Fin 1) k) = h (ix2 k (0 : Fin 1))) :
    mulf (F := Ideal) (broadcastInDim S800000x128 ![0, 1] bcast_S800000x1_S800000x128_0_1
          (Host.exp (F := Ideal) (mulf (F := Ideal) (broadcastInDim S800000x1 ![0] bcast_S800000_S800000x1_0 t)
            (Host.gather gather_S100000x1_S800000x1_S800000x1_1_0_n_n_0_1_11
              (Host.dotGeneral (F := Ideal) dot_S100000x128_S128x1_S100000x1_1_0_0_1_n_n none L h) idx))))
        (Host.gather gather_S100000x128_S800000x1_S800000x128_1_0_n_n_0_1_1128 L idx)
      = decay (Host.gather gather_S100000x128_S800000x1_S800000x128_1_0_n_n_0_1_1128 L idx) I H := by
  funext j
  obtain ⟨e, f, rfl⟩ : ∃ (e : Fin 800000) (f : Fin 128), j = ix2 e f := ⟨j 0, j 1, eq_ix2 j⟩
  rw [decay_apply, mulf_apply, colInDim_apply, hostExp_at, mulf_apply, vecInDim_apply, gatherCol_apply, hI e]
  refine congrArg (fun z => Ideal.exp (t (ix1 e) * z)
    * Host.gather gather_S100000x128_S800000x1_S800000x128_1_0_n_n_0_1_1128 L idx (ix2 e f)) ?_
  refine (Cert.Lib.PlainDot.dotGeneral_apply (M := 100000) (K := 128) (N := 1) none _ L h _ 0).trans ?_
  refine Finset.sum_congr rfl fun k _ => ?_
  rw [gatherRows_apply, hH k]

/-- The two index columns of the first stage are the same operations on the edge list. -/
theorem idx_cols0 (x2 : (⟨S2x800000, .i32⟩ : BufTy).Contents (Elt Ideal)) :
    val_main_v20 (F := Ideal) x2 = val_main_v30 (F := Ideal) x2 := rfl

/-- The two index columns of the second stage likewise. -/
theorem idx_cols1 (x5 : (⟨S2x800000, .i32⟩ : BufTy).Contents (Elt Ideal)) :
    val_main_v49 (F := Ideal) x5 = val_main_v59 (F := Ideal) x5 := rfl

/-- The reference's first decay stage is decay of the rows it takes. -/
theorem decay_ref0 (x0 : (⟨S100000x128, .f32⟩ : BufTy).Contents (Elt Ideal)) (x1 : (⟨S800000, .f32⟩ : BufTy).Contents (Elt Ideal))
    (x2 : (⟨S2x800000, .i32⟩ : BufTy).Contents (Elt Ideal)) (x14 : (⟨S128x128, .f32⟩ : BufTy).Contents (Elt Ideal))
    (x15 : (⟨S128, .f32⟩ : BufTy).Contents (Elt Ideal)) (x30 : (⟨S128x1, .f32⟩ : BufTy).Contents (Elt Ideal))
    (I : (⟨2, ![800000, 1]⟩ : Shape).Idx → EReal) (H : (⟨2, ![1, 128]⟩ : Shape).Idx → EReal)
    (hI : ∀ e : Fin 800000, I (ix2 e (0 : Fin 1)) = x1 (ix1 e)) (hH : ∀ k : Fin 128, H (ix2 (0 : Fin 1) k) = x30 (ix2 k (0 : Fin 1))) :
    Cert.ReferenceIdeal.Read.val_main_v33 (F := Ideal) x0 x1 x2 x14 x15 x30
      = decay (Cert.ReferenceIdeal.Read.val_main_v31 (F := Ideal) x0 x2 x14 x15) I H := by
  unfold val_main_v33 val_main_v32 val_main_v24 val_main_v23 val_main_v22 val_main_v21 val_main_v14 val_main_v31
  rw [idx_cols0 x2]
  exact stage_point (val_main_v4 (F := Ideal) x0 x14 x15) x30 x1 (val_main_v30 (F := Ideal) x2) I H hI hH

/-- The reference's second decay stage likewise. -/
theorem decay_ref1 (x3 : (⟨S100000x128, .f32⟩ : BufTy).Contents (Elt Ideal)) (x4 : (⟨S800000, .f32⟩ : BufTy).Contents (Elt Ideal))
    (x5 : (⟨S2x800000, .i32⟩ : BufTy).Contents (Elt Ideal)) (x16 : (⟨S128x128, .f32⟩ : BufTy).Contents (Elt Ideal))
    (x17 : (⟨S128, .f32⟩ : BufTy).Contents (Elt Ideal)) (x31 : (⟨S128x1, .f32⟩ : BufTy).Contents (Elt Ideal))
    (I : (⟨2, ![800000, 1]⟩ : Shape).Idx → EReal) (H : (⟨2, ![1, 128]⟩ : Shape).Idx → EReal)
    (hI : ∀ e : Fin 800000, I (ix2 e (0 : Fin 1)) = x4 (ix1 e)) (hH : ∀ k : Fin 128, H (ix2 (0 : Fin 1) k) = x31 (ix2 k (0 : Fin 1))) :
    Cert.ReferenceIdeal.Read.val_main_v62 (F := Ideal) x3 x4 x5 x16 x17 x31
      = decay (Cert.ReferenceIdeal.Read.val_main_v60 (F := Ideal) x3 x5 x16 x17) I H := by
  unfold val_main_v62 val_main_v61 val_main_v53 val_main_v52 val_main_v51 val_main_v50 val_main_v43 val_main_v60
  rw [idx_cols1 x5]
  exact stage_point (val_main_v9 (F := Ideal) x3 x16 x17) x31 x4 (val_main_v59 (F := Ideal) x5) I H hI hH

end Reference

end Cert.Bridge.DecayEdges

end
-- ==== Proof.PairHead.lean ====
/-
  The last region of the kernel program — the pairwise head over the 4096 node pairs, tiled in four blocks of 1024 rows —
  against the reference's own last operations, on the extended reals.

  From the two halves `Pre`, `Suf` (`4096×128`), weights `W1` (`640×128`), `W2` (`2×640`) and bias rows `R1` (`1×640`),
  `R2` (`1×2`), the head is `max (|Pre − Suf| · W1ᵀ + R1, 0) · W2ᵀ + R2`, each bias row repeated down the rows
  (`hidden`, `pairSpec`: the reference's operations, by unfolding its stages — `pairSpec_ref`). The region's body
  computes the same expression on a block of 1024 rows of the two halves and the whole weights and rows, each product
  accumulated from the zero array with its operands passed through a change of float format, which is the identity on the
  extended reals. Row `p` of the block at point `t` is row `1024 t + p` of the array, so entry `(p, q)` of what the
  body stores is entry `(1024 t + p, q)` of the head: the two products are the same sums, term by term, and the bias
  entries and the zero of the maximum are the same (`hidden_point`, `pay_point`); no finiteness is asked. Every point
  writes its block back and the four blocks tile the output, so the output array after the region is the head of the
  arrays as the region finds them (`region5`).
-/
import proofs.«179541_j7550552506805_2_alg».proof.Proof.Gen.KernelIdeal.Frame
import proofs.«179541_j7550552506805_2_alg».proof.Proof.Gen.ReferenceIdeal.Read
import proofs.«179541_j7550552506805_2_alg».proof.Proof.LibRowLayers
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.PairHead

open Idealize.ShloMosaic Idealize.ShloMosaic.TcCoe Idealize.ShloMosaic.ValueIdx Idealize.SL.Sem

section Spec

open Cert.ReferenceIdeal Cert.ReferenceIdeal.Gen Cert.ReferenceIdeal.Read Idealize.ShloMosaic.StableHlo

variable {F : FTy → Type} [FloatOps F]

/-- The hidden layer of the pairwise head on the whole arrays: `max (|Pre − Suf| · W1ᵀ + R1, 0)`, the bias row `R1`
    repeated down the 4096 rows. -/
def hidden (Pre Suf : (⟨S4096x128, .f32⟩ : BufTy).Contents (Elt F)) (W1 : (⟨S640x128, .f32⟩ : BufTy).Contents (Elt F))
    (R1 : (⟨S1x640, .f32⟩ : BufTy).Contents (Elt F)) : (⟨S4096x640, .f32⟩ : BufTy).Contents (Elt F) :=
  maximumf (addf (Host.dotGeneral dot_S4096x128_S128x640_S4096x640_1_0_0_1_n_n none (Host.absf (subf Pre Suf))
      (transpose S128x640 [1, 0] W1 transposes_S640x128_S128x640_1_0))
    (broadcastInDim S4096x640 ![0, 1] bcast_S1x640_S4096x640_0_1 R1)) (val_main_call3_v0 (F := F))

/-- The pairwise head on the whole arrays: `hidden · W2ᵀ + R2`, the bias row `R2` repeated down the rows. -/
def pairSpec (Pre Suf : (⟨S4096x128, .f32⟩ : BufTy).Contents (Elt F)) (W1 : (⟨S640x128, .f32⟩ : BufTy).Contents (Elt F))
    (R1 : (⟨S1x640, .f32⟩ : BufTy).Contents (Elt F)) (W2 : (⟨S2x640, .f32⟩ : BufTy).Contents (Elt F))
    (R2 : (⟨S1x2, .f32⟩ : BufTy).Contents (Elt F)) : (⟨S4096x2, .f32⟩ : BufTy).Contents (Elt F) :=
  addf (Host.dotGeneral dot_S4096x640_S640x2_S4096x2_1_0_0_1_n_n none (hidden Pre Suf W1 R1)
      (transpose S640x2 [1, 0] W2 transposes_S2x640_S640x2_1_0))
    (broadcastInDim S4096x2 ![0, 1] bcast_S1x2_S4096x2_0_1 R2)

/-- The reference's last stage is the pairwise head of its two halves, its weights and its two bias rows: the
    stages' definitions unfolded, nothing computed. -/
theorem pairSpec_ref (x0 : (⟨S100000x128, .f32⟩ : BufTy).Contents (Elt F)) (x1 : (⟨S800000, .f32⟩ : BufTy).Contents (Elt F)) (x2 : (⟨S2x800000, .i32⟩ : BufTy).Contents (Elt F)) (x3 : (⟨S100000x128, .f32⟩ : BufTy).Contents (Elt F)) (x4 : (⟨S800000, .f32⟩ : BufTy).Contents (Elt F)) (x5 : (⟨S2x800000, .i32⟩ : BufTy).Contents (Elt F)) (x6 x7 : (⟨S8192x128, .f32⟩ : BufTy).Contents (Elt F)) (x8 : (⟨S8192, .i32⟩ : BufTy).Contents (Elt F)) (x9 : (⟨S8192x128, .f32⟩ : BufTy).Contents (Elt F)) (x10 : (⟨S640x128, .f32⟩ : BufTy).Contents (Elt F)) (x11 : (⟨S640, .f32⟩ : BufTy).Contents (Elt F)) (x12 : (⟨S2x640, .f32⟩ : BufTy).Contents (Elt F)) (x13 : (⟨S2, .f32⟩ : BufTy).Contents (Elt F)) (x14 : (⟨S128x128, .f32⟩ : BufTy).Contents (Elt F)) (x15 : (⟨S128, .f32⟩ : BufTy).Contents (Elt F)) (x16 : (⟨S128x128, .f32⟩ : BufTy).Contents (Elt F)) (x17 : (⟨S128, .f32⟩ : BufTy).Contents (Elt F)) (x18 : (⟨S128x128, .f32⟩ : BufTy).Contents (Elt F)) (x19 : (⟨S128, .f32⟩ : BufTy).Contents (Elt F)) (x20 : (⟨S128x128, .f32⟩ : BufTy).Contents (Elt F)) (x21 : (⟨S128, .f32⟩ : BufTy).Contents (Elt F)) (x22 : (⟨S128x128, .f32⟩ : BufTy).Contents (Elt F)) (x23 : (⟨S128, .f32⟩ : BufTy).Contents (Elt F)) (x24 : (⟨S128x128, .f32⟩ : BufTy).Contents (Elt F)) (x25 : (⟨S128, .f32⟩ : BufTy).Contents (Elt F)) (x26 : (⟨S128x128, .f32⟩ : BufTy).Contents (Elt F)) (x27 : (⟨S128, .f32⟩ : BufTy).Contents (Elt F)) (x28 : (⟨S128x384, .f32⟩ : BufTy).Contents (Elt F)) (x29 : (⟨S128, .f32⟩ : BufTy).Contents (Elt F)) (x30 x31 : (⟨S128x1, .f32⟩ : BufTy).Contents (Elt F)) :
    val_main_v130 (F := F) x0 x1 x2 x3 x4 x5 x6 x7 x8 x9 x10 x11 x12 x13 x14 x15 x16 x17 x18 x19 x20 x21 x22 x23 x24 x25 x26 x27 x28 x29 x30 x31
      = pairSpec (val_main_v116 (F := F) x0 x1 x2 x3 x4 x5 x6 x7 x8 x9 x14 x15 x16 x17 x18 x19 x20 x21 x22 x23 x24 x25 x26 x27 x28 x29 x30 x31) (val_main_v117 (F := F) x0 x1 x2 x3 x4 x5 x6 x7 x8 x9 x14 x15 x16 x17 x18 x19 x20 x21 x22 x23 x24 x25 x26 x27 x28 x29 x30 x31)
          x10 (val_main_v122 (F := F) x11) x12 (val_main_v128 (F := F) x13) := by
  unfold val_main_v130 val_main_v129 val_main_v127 val_main_v126 val_main_v125 val_main_v124 val_main_v123 val_main_v121
    val_main_v120 val_main_v119 val_main_v118 pairSpec hidden
  rfl

end Spec

section Point

open Cert.KernelIdeal Cert.KernelIdeal.Gen

/-- A transposed matrix at `(k, j)` is the matrix at `(j, k)`. -/
theorem transpose_swap_apply {α : Type} {A B : ℕ} (x : (⟨2, ![A, B]⟩ : Shape).Idx → α)
    (h : (⟨2, ![A, B]⟩ : Shape).Transposes [1, 0] ⟨2, ![B, A]⟩) (k : Fin B) (j : Fin A) :
    transpose ⟨2, ![B, A]⟩ [1, 0] x h (ix2 k j) = x (ix2 j k) :=
  transpose_apply [1, 0] x h (ix2 k j) (ix2 j k) fun b => match b with
    | ⟨0, _⟩ => rfl
    | ⟨1, _⟩ => rfl

/-- The hidden layer the body computes from a block of rows of the two halves, the first weight and the first bias
    row: `max (|x0 − x1| · w1ᵀ + r1, 0)`, the product accumulated from the zero array, both operands passed through a
    change of float format (the identity on the extended reals), the row repeated down the block's 1024 rows. -/
def blockHidden (x0 x1 : FVec Ideal S1024x128 .f32) (w1 : FVec Ideal S640x128 .f32) (r1 : FVec Ideal S1x640 .f32) :
    FVec Ideal S1024x640 .f32 :=
  maximumf (addf (matmul dot_S1024x128_S128x640_S1024x640_1_0_0_1_n_n none
        (truncf .bf16 (absf (subf (shapeCast S1024x128 x0 shapeCasts_S1024x128_S1024x128)
          (shapeCast S1024x128 x1 shapeCasts_S1024x128_S1024x128))) bitsLt_bf16_f32)
        (transpose S128x640 [1, 0] (truncf .bf16 w1 bitsLt_bf16_f32) transposes_S640x128_p1_0_S128x640)
        (constant (F := Ideal) S1024x640 .f32 0x00000000#32))
      (broadcastTo S1024x640 (shapeCast S1x640 r1 shapeCasts_S1x640_S1x640) broadcasts_S1x640_S1024x640))
    (broadcast S1024x640 (Scalar.ofBits (F := Ideal) .f32 0x00000000#32))

/-- The body's stored value is the second layer of its hidden layer: `blockHidden · w2ᵀ + r2`. -/
theorem pay_eq (x0 x1 : FVec Ideal S1024x128 .f32) (w1 : FVec Ideal S640x128 .f32) (r1 : FVec Ideal S1x640 .f32)
    (w2 : FVec Ideal S2x640 .f32) (r2 : FVec Ideal S1x2 .f32) :
    k5_pay1 (F := Ideal) x0 x1 w1 r1 w2 r2
      = addf (matmul dot_S1024x640_S640x2_S1024x2_1_0_0_1_n_n none (truncf .bf16 (blockHidden x0 x1 w1 r1) bitsLt_bf16_f32)
          (transpose S640x2 [1, 0] (truncf .bf16 w2 bitsLt_bf16_f32) transposes_S2x640_p1_0_S640x2)
          (constant (F := Ideal) S1024x2 .f32 0x00000000#32))
        (broadcastTo S1024x2 (shapeCast S1x2 r2 shapeCasts_S1x2_S1x2) broadcasts_S1x2_S1024x2) := rfl

/-- The hidden layer at one entry. If row `p` of the two blocks is row `P` of the two halves, entry `(p, j)` of the
    block's hidden layer is entry `(P, j)` of the whole arrays': the same sum over the 128 features, term by
    term, plus the same bias entry, against the same zero. -/
theorem hidden_point (Pre Suf : FVec Ideal S4096x128 .f32) (W1 : FVec Ideal S640x128 .f32) (R1 : FVec Ideal S1x640 .f32)
    (x0 x1 : FVec Ideal S1024x128 .f32) (P : Fin 4096) (p : Fin 1024) (j : Fin 640)
    (h0 : ∀ k : Fin 128, (x0 (ix2 p k) : EReal) = Pre (ix2 P k))
    (h1 : ∀ k : Fin 128, (x1 (ix2 p k) : EReal) = Suf (ix2 P k)) :
    (blockHidden x0 x1 W1 R1 (ix2 p j) : EReal) = hidden (F := Ideal) Pre Suf W1 R1 (ix2 P j) := by
  unfold blockHidden hidden
  refine Cert.Lib.AffineRows.relu_row _ _ (ix2 p j) (ix2 P j) Cert.ReferenceIdeal.Gen.bcast_S_S4096x640 ?_
  refine Cert.Lib.AffineRows.layer_row none none (Host.absf (subf Pre Suf))
    (transpose Cert.ReferenceIdeal.S128x640 [1, 0] W1 Cert.ReferenceIdeal.Gen.transposes_S640x128_S128x640_1_0)
    _ _ _ _ P p j (fun k => ?_) (fun k => ?_) ?_
  · show FloatOps.absf (FloatOps.subf (shapeCast S1024x128 x0 shapeCasts_S1024x128_S1024x128 (ix2 p k))
        (shapeCast S1024x128 x1 shapeCasts_S1024x128_S1024x128 (ix2 p k)))
      = FloatOps.absf (FloatOps.subf (Pre (ix2 P k)) (Suf (ix2 P k)))
    rw [shapeCast_self, shapeCast_self, h0 k, h1 k]
  · rw [transpose_swap_apply, transpose_swap_apply]; rfl
  · exact (Cert.Lib.RowLayers.rowOver_apply R1 _ _ p j).trans (Cert.Lib.RowLayers.rowInDim_apply R1 _ P j).symm

/-- The body's stored value at one entry. If row `p` of the two blocks is row `P` of the two halves, entry `(p, q)`
    of what the body stores is entry `(P, q)` of the pairwise head of the whole arrays: the hidden rows agree entry
    for entry (`hidden_point`), so the second product is the same sum over the 640 hidden lanes, plus the same
    bias entry. -/
theorem pay_point (Pre Suf : FVec Ideal S4096x128 .f32) (W1 : FVec Ideal S640x128 .f32) (R1 : FVec Ideal S1x640 .f32)
    (W2 : FVec Ideal S2x640 .f32) (R2 : FVec Ideal S1x2 .f32)
    (x0 x1 : FVec Ideal S1024x128 .f32) (x2 : FVec Ideal S640x128 .f32) (x3 : FVec Ideal S1x640 .f32)
    (x4 : FVec Ideal S2x640 .f32) (x5 : FVec Ideal S1x2 .f32) (P : Fin 4096) (p : Fin 1024) (q : Fin 2)
    (h0 : ∀ k : Fin 128, (x0 (ix2 p k) : EReal) = Pre (ix2 P k))
    (h1 : ∀ k : Fin 128, (x1 (ix2 p k) : EReal) = Suf (ix2 P k))
    (h2 : x2 = W1) (h3 : x3 = R1) (h4 : x4 = W2) (h5 : x5 = R2) :
    (k5_pay1 (F := Ideal) x0 x1 x2 x3 x4 x5 (ix2 p q) : EReal) = pairSpec (F := Ideal) Pre Suf W1 R1 W2 R2 (ix2 P q) := by
  subst h2 h3 h4 h5
  rw [pay_eq]
  unfold pairSpec
  refine Cert.Lib.AffineRows.layer_row none none (hidden (F := Ideal) Pre Suf x2 x3)
    (transpose Cert.ReferenceIdeal.S640x2 [1, 0] x4 Cert.ReferenceIdeal.Gen.transposes_S2x640_S640x2_1_0)
    _ _ _ _ P p q (fun k => ?_) (fun k => ?_) ?_
  · exact hidden_point Pre Suf x2 x3 x0 x1 P p k h0 h1
  · rw [transpose_swap_apply, transpose_swap_apply]; rfl
  · exact (Cert.Lib.RowLayers.rowOver_apply x5 _ _ p q).trans (Cert.Lib.RowLayers.rowInDim_apply x5 _ P q).symm

end Point

section Region

open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at the grid's four points, decided once: the two halves and the output move down the rows with the
    point, block `t` at point `t`; the two weights and the two bias rows stay at block `(0, 0)`, their whole array. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row `p` of the first half's block at point `t` is row `1024 t + p` of the first half. -/
theorem pre_block (c : Dev nD) (t : Fin cfg5.N) (p : Fin 1024) (k : Fin 128) (P : Fin 4096) (hP : P.val = t.val * 1024 + p.val) :
    ((iblk5 V c 0 t : FVec Ideal S1024x128 .f32) (ix2 p k) : EReal) = (V c main_v63 : FVec Ideal S4096x128 .f32) (ix2 P k) := by
  obtain ⟨e0, e1, -⟩ := idx_facts t
  unfold iblk5
  rw [View.read_apply]
  show V c main_v63 _ = V c main_v63 _
  congr 1
  funext a
  apply Fin.ext
  match a with
  | ⟨0, _⟩ => show win5_0.index t (0 : Fin 2) * 1024 + 1 * p.val = P.val; rw [e0, hP]; omega
  | ⟨1, _⟩ => show win5_0.index t (1 : Fin 2) * 128 + 1 * k.val = k.val; rw [e1]; omega

/-- Row `p` of the second half's block at point `t` is row `1024 t + p` of the second half. -/
theorem suf_block (c : Dev nD) (t : Fin cfg5.N) (p : Fin 1024) (k : Fin 128) (P : Fin 4096) (hP : P.val = t.val * 1024 + p.val) :
    ((iblk5 V c 1 t : FVec Ideal S1024x128 .f32) (ix2 p k) : EReal) = (V c main_v64 : FVec Ideal S4096x128 .f32) (ix2 P k) := by
  obtain ⟨-, -, e0, e1, -⟩ := idx_facts t
  unfold iblk5
  rw [View.read_apply]
  show V c main_v64 _ = V c main_v64 _
  congr 1
  funext a
  apply Fin.ext
  match a with
  | ⟨0, _⟩ => show win5_1.index t (0 : Fin 2) * 1024 + 1 * p.val = P.val; rw [e0, hP]; omega
  | ⟨1, _⟩ => show win5_1.index t (1 : Fin 2) * 128 + 1 * k.val = k.val; rw [e1]; omega

/-- The first weight's block at every point is the whole weight. -/
theorem w1_block (c : Dev nD) (t : Fin cfg5.N) : (iblk5 V c 2 t : FVec Ideal S640x128 .f32) = V c main_arg10 := by
  obtain ⟨-, -, -, -, e0, e1, -⟩ := idx_facts t
  funext y
  unfold iblk5
  rw [View.read_apply]
  show V c main_arg10 _ = V c main_arg10 y
  congr 1
  funext a
  apply Fin.ext
  match a with
  | ⟨0, _⟩ => show win5_2.index t (0 : Fin 2) * 640 + 1 * (y 0).val = (y 0).val; rw [e0]; omega
  | ⟨1, _⟩ => show win5_2.index t (1 : Fin 2) * 128 + 1 * (y 1).val = (y 1).val; rw [e1]; omega

/-- The first bias row's block at every point is the whole row. -/
theorem r1_block (c : Dev nD) (t : Fin cfg5.N) : (iblk5 V c 3 t : FVec Ideal S1x640 .f32) = V c main_v65 := by
  obtain ⟨-, -, -, -, -, -, e0, e1, -⟩ := idx_facts t
  funext y
  unfold iblk5
  rw [View.read_apply]
  show V c main_v65 _ = V c main_v65 y
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 640 + 1 * (y 1).val = (y 1).val; rw [e1]; omega

/-- The second weight's block at every point is the whole weight. -/
theorem w2_block (c : Dev nD) (t : Fin cfg5.N) : (iblk5 V c 4 t : FVec Ideal S2x640 .f32) = V c main_arg12 := by
  obtain ⟨-, -, -, -, -, -, -, -, e0, e1, -⟩ := idx_facts t
  funext y
  unfold iblk5
  rw [View.read_apply]
  show V c main_arg12 _ = V c main_arg12 y
  congr 1
  funext a
  apply Fin.ext
  match a with
  | ⟨0, _⟩ => show win5_4.index t (0 : Fin 2) * 2 + 1 * (y 0).val = (y 0).val; rw [e0]; omega
  | ⟨1, _⟩ => show win5_4.index t (1 : Fin 2) * 640 + 1 * (y 1).val = (y 1).val; rw [e1]; omega

/-- The second bias row's block at every point is the whole row. -/
theorem r2_block (c : Dev nD) (t : Fin cfg5.N) : (iblk5 V c 5 t : FVec Ideal S1x2 .f32) = V c main_v66 := by
  obtain ⟨-, -, -, -, -, -, -, -, -, -, e0, e1, -⟩ := idx_facts t
  funext y
  unfold iblk5
  rw [View.read_apply]
  show V c main_v66 _ = V c main_v66 y
  congr 1
  funext a
  apply Fin.ext
  match a with
  | ⟨0, _⟩ => show win5_5.index t (0 : Fin 2) * 1 + 1 * (y 0).val = (y 0).val; rw [e0]; omega
  | ⟨1, _⟩ => show win5_5.index t (1 : Fin 2) * 2 + 1 * (y 1).val = (y 1).val; rw [e1]; omega

/-- What point `t` writes back is block `t` — rows `1024 t … 1024 t + 1023` — of the pairwise head of the arrays as the
    region finds them: the body's one store covers its buffer, and its value at `(p, q)` is the head's at
    `(1024 t + p, q)` (`pay_point`). -/
theorem flushed_eq (c : Dev nD) (t : Fin cfg5.N) :
    (dat5 (F := Ideal) V c).flushed 6 t
      = ((cfg5.win 6).blk t).view.read (Elt Ideal) (pairSpec (F := Ideal) (V c main_v63) (V c main_v64) (V c main_arg10)
          (V c main_v65) (V c main_arg12) (V c main_v66)) := by
  show (cfg5.win 6).cut (grid5.coords t) ((dat5 V c).after 6 t) = _
  rw [after5_6]
  unfold out5_6
  rw [View.canon_unit_zero hz]
  simp only [View.ld_unit_zero (S := S1024x128) hz, View.ld_unit_zero (S := S640x128) hz, View.ld_unit_zero (S := S1x640) hz,
    View.ld_unit_zero (S := S2x640) hz, View.ld_unit_zero (S := S1x2) hz]
  funext y
  obtain ⟨p, q, rfl⟩ : ∃ (p : Fin 1024) (q : Fin 2), y = ix2 p q := ⟨y 0, y 1, eq_ix2 y⟩
  have ht : t.val < 4 := Nat.lt_of_lt_of_eq t.isLt (show cfg5.N = 4 from N_5)
  obtain ⟨-, -, -, -, -, -, -, -, -, -, -, -, e0, e1⟩ := idx_facts t
  have hp : p.val < 1024 := p.isLt
  have hemb : ((cfg5.win 6).blk t).view.emb (ix2 p q) = ix2 (⟨t.val * 1024 + p.val, by omega⟩ : Fin 4096) q := by
    funext a
    apply Fin.ext
    match a with
    | ⟨0, _⟩ => show win5_6.index t (0 : Fin 2) * 1024 + 1 * p.val = t.val * 1024 + p.val; rw [e0]; omega
    | ⟨1, _⟩ => show win5_6.index t (1 : Fin 2) * 2 + 1 * q.val = q.val; rw [e1]; omega
  rw [View.read_apply, hemb]
  exact pay_point (V c main_v63) (V c main_v64) (V c main_arg10) (V c main_v65) (V c main_arg12) (V c main_v66)
    (iblk5 V c 0 t) (iblk5 V c 1 t) (iblk5 V c 2 t) (iblk5 V c 3 t) (iblk5 V c 4 t) (iblk5 V c 5 t)
    ⟨t.val * 1024 + p.val, by omega⟩ p q (fun k => pre_block V c t p k _ rfl) (fun k => suf_block V c t p k _ rfl)
    (w1_block V c t) (r1_block V c t) (w2_block V c t) (r2_block V c t)

/-- An index of the output array is in point `t`'s block iff each coordinate is in the block's range on its axis. -/
theorem mem_blk (t : Fin cfg5.N) (i : S4096x2.Idx) :
    i ∈ ((cfg5.win 6).blk t).view.set ↔ ∀ a : Fin 2, win5_6.index t a * S1024x2.size a ≤ (i a).val
      ∧ (i a).val < win5_6.index t a * S1024x2.size a + S1024x2.size a := by
  show i ∈ ((View.whole main_v67).slice (win5_6.rect t)).set ↔ _
  rw [View.set_slice_whole, Rect.mem_set_unit]
  exact Iff.rfl

/-- The four blocks tile the output array: row `r` is in the block of point `r / 1024`, and every point writes back. -/
theorem cover (i : S4096x2.Idx) :
    ∃ t : Fin cfg5.N, (cfg5.win 6).flush t = true ∧ i ∈ ((cfg5.win 6).blk t).view.set := by
  have hi0 : (i 0).val < 4096 := (i 0).isLt
  have hi1 : (i 1).val < 2 := (i 1).isLt
  have hN : cfg5.N = 4 := N_5
  obtain ⟨t, ht⟩ : ∃ t : Fin cfg5.N, t.val = (i 0).val / 1024 := ⟨⟨(i 0).val / 1024, by rw [hN]; omega⟩, rfl⟩
  obtain ⟨-, -, -, -, -, -, -, -, -, -, -, -, e0, e1⟩ := idx_facts t
  refine ⟨t, flush5_6 t, ?_⟩
  rw [mem_blk]
  intro a
  match a with
  | ⟨0, _⟩ =>
    show win5_6.index t (0 : Fin 2) * 1024 ≤ (i 0).val ∧ (i 0).val < win5_6.index t (0 : Fin 2) * 1024 + 1024
    rw [e0, ht]; omega
  | ⟨1, _⟩ =>
    show win5_6.index t (1 : Fin 2) * 2 ≤ (i 1).val ∧ (i 1).val < win5_6.index t (1 : Fin 2) * 2 + 2
    rw [e1]; omega

/-- The output array after the region is the pairwise head of the arrays as the region finds them: every point writes
    back its block of the head (`flushed_eq`) and the blocks cover the array (`cover`). -/
theorem region5 (c : Dev nD) :
    (dat5 (F := Ideal) V c).arrAt 6 cfg5.N
      = pairSpec (F := Ideal) (V c main_v63) (V c main_v64) (V c main_arg10) (V c main_v65) (V c main_arg12) (V c main_v66) :=
  (dat5 (F := Ideal) V c).arrAt_eq_of_cover 6 _ (fun t _ => flushed_eq V c t) (fun i => cover i)

end Region

end Cert.Bridge.PairHead

end
-- ==== Proof.ConcatLayer.lean ====
/-
  The batch layer that joins three dense rows and multiplies once, against the same layer computed block by block.

  For arrays `A0, A1, C0, C1, S` of 8192 rows by 128 and weights `W6, W7, W9, W10, W12` (128 by 128), `Wc` (128 by 384)
  with bias rows `R6 … Rc`, put
    `u0 = (C0·W9ᵀ + R9) + (A0·W6ᵀ + R6)`, `u1 = (C1·W10ᵀ + R10) + (A1·W7ᵀ + R7)`, `u3 = S·W12ᵀ + R12`.
  The host joins `[u0 | u1 | u3]` along the columns and takes ONE product with `Wcᵀ` over 384 terms, adds `Rc` and
  takes the maximum with zero (`catSpec`). The kernel, on a block of 1024 rows, multiplies each `u` by its own 128
  columns of `Wc` and adds the three products. The two agree entry by entry because a sum over `Fin 384` is the sum
  of three sums over `Fin 128` (`sum_three`) — commutativity and associativity of `+` on the extended reals, no
  finiteness — and each 128-term product of a row block is the whole array's product at that row.
-/
import proofs.«179541_j7550552506805_2_alg».proof.Proof.Gen.KernelIdeal.Frame
import proofs.«179541_j7550552506805_2_alg».proof.Proof.Gen.ReferenceIdeal.Read
import proofs.«179541_j7550552506805_2_alg».proof.Proof.LibRowLayers
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.ConcatLayer

open Idealize.ShloMosaic Idealize.ShloMosaic.ValueIdx

/-! ## The host's layer as one function of its operands -/

section Spec

open Cert.ReferenceIdeal Cert.ReferenceIdeal.Gen Idealize.ShloMosaic.TcCoe Idealize.SL.Sem Idealize.ShloMosaic.StableHlo

variable {F : FTy → Type} [FloatOps F]

/-- One dense row of the host: the array times the transposed weight, plus the bias row put on both axes. -/
def denseH (A : (⟨S8192x128, .f32⟩ : BufTy).Contents (Elt F)) (W : (⟨S128x128, .f32⟩ : BufTy).Contents (Elt F))
    (R : (⟨S1x128, .f32⟩ : BufTy).Contents (Elt F)) : (⟨S8192x128, .f32⟩ : BufTy).Contents (Elt F) :=
  addf (Host.dotGeneral dot_S8192x128_S128x128_S8192x128_1_0_0_1_n_n none A
      (transpose S128x128 [1, 0] W transposes_S128x128_S128x128_1_0))
    (broadcastInDim S8192x128 ![0, 1] bcast_S1x128_S8192x128_0_1 R)

/-- Three arrays of 128 columns joined into one of 384 columns. -/
def joinH (U0 U1 U3 : (⟨S8192x128, .f32⟩ : BufTy).Contents (Elt F)) : (⟨S8192x384, .f32⟩ : BufTy).Contents (Elt F) :=
  concatenate S8192x384 1 [⟨S8192x128, U0⟩, ⟨S8192x128, U1⟩, ⟨S8192x128, U3⟩]
    concatenates_S8192x128_S8192x128_S8192x128_S8192x384_d1

/-- The last layer of the host: one product over 384 terms with the transposed weight, the bias row, the maximum with zero. -/
def headH (U : (⟨S8192x384, .f32⟩ : BufTy).Contents (Elt F)) (Wc : (⟨S128x384, .f32⟩ : BufTy).Contents (Elt F))
    (Rc : (⟨S1x128, .f32⟩ : BufTy).Contents (Elt F)) : (⟨S8192x128, .f32⟩ : BufTy).Contents (Elt F) :=
  maximumf
    (addf (Host.dotGeneral dot_S8192x384_S384x128_S8192x128_1_0_0_1_n_n none U
        (transpose S384x128 [1, 0] Wc transposes_S128x384_S384x128_1_0))
      (broadcastInDim S8192x128 ![0, 1] bcast_S1x128_S8192x128_0_1 Rc))
    (broadcastInDim S8192x128 ![] bcast_S_S8192x128 (constant S_ .f32 0x00000000#32))

/-- The host's operations on the two gathered arrays, the three given arrays, the six weights and the six bias rows:
    five dense rows, two sums, the join along the columns, one product over 384 terms, the last bias and the maximum
    with zero. -/
def catSpec (A0 A1 C0 C1 S : (⟨S8192x128, .f32⟩ : BufTy).Contents (Elt F))
    (W6 : (⟨S128x128, .f32⟩ : BufTy).Contents (Elt F)) (R6 : (⟨S1x128, .f32⟩ : BufTy).Contents (Elt F))
    (W7 : (⟨S128x128, .f32⟩ : BufTy).Contents (Elt F)) (R7 : (⟨S1x128, .f32⟩ : BufTy).Contents (Elt F))
    (W9 : (⟨S128x128, .f32⟩ : BufTy).Contents (Elt F)) (R9 : (⟨S1x128, .f32⟩ : BufTy).Contents (Elt F))
    (W10 : (⟨S128x128, .f32⟩ : BufTy).Contents (Elt F)) (R10 : (⟨S1x128, .f32⟩ : BufTy).Contents (Elt F))
    (W12 : (⟨S128x128, .f32⟩ : BufTy).Contents (Elt F)) (R12 : (⟨S1x128, .f32⟩ : BufTy).Contents (Elt F))
    (Wc : (⟨S128x384, .f32⟩ : BufTy).Contents (Elt F)) (Rc : (⟨S1x128, .f32⟩ : BufTy).Contents (Elt F)) :
    (⟨S8192x128, .f32⟩ : BufTy).Contents (Elt F) :=
  headH (joinH (addf (denseH C0 W9 R9) (denseH A0 W6 R6)) (addf (denseH C1 W10 R10) (denseH A1 W7 R7)) (denseH S W12 R12)) Wc Rc

open Cert.ReferenceIdeal.Read in
/-- The reference's stage %115 is `catSpec` of its two gathered arrays, its arguments and its six bias rows: the
    stages' names unfolded, nothing evaluated. -/
theorem catSpec_ref (x0 : (⟨S100000x128, .f32⟩ : BufTy).Contents (Elt F)) (x1 : (⟨S800000, .f32⟩ : BufTy).Contents (Elt F)) (x2 : (⟨S2x800000, .i32⟩ : BufTy).Contents (Elt F)) (x3 : (⟨S100000x128, .f32⟩ : BufTy).Contents (Elt F)) (x4 : (⟨S800000, .f32⟩ : BufTy).Contents (Elt F)) (x5 : (⟨S2x800000, .i32⟩ : BufTy).Contents (Elt F)) (x6 x7 : (⟨S8192x128, .f32⟩ : BufTy).Contents (Elt F)) (x8 : (⟨S8192, .i32⟩ : BufTy).Contents (Elt F)) (x9 : (⟨S8192x128, .f32⟩ : BufTy).Contents (Elt F)) (x14 : (⟨S128x128, .f32⟩ : BufTy).Contents (Elt F)) (x15 : (⟨S128, .f32⟩ : BufTy).Contents (Elt F)) (x16 : (⟨S128x128, .f32⟩ : BufTy).Contents (Elt F)) (x17 : (⟨S128, .f32⟩ : BufTy).Contents (Elt F)) (x18 : (⟨S128x128, .f32⟩ : BufTy).Contents (Elt F)) (x19 : (⟨S128, .f32⟩ : BufTy).Contents (Elt F)) (x20 : (⟨S128x128, .f32⟩ : BufTy).Contents (Elt F)) (x21 : (⟨S128, .f32⟩ : BufTy).Contents (Elt F)) (x22 : (⟨S128x128, .f32⟩ : BufTy).Contents (Elt F)) (x23 : (⟨S128, .f32⟩ : BufTy).Contents (Elt F)) (x24 : (⟨S128x128, .f32⟩ : BufTy).Contents (Elt F)) (x25 : (⟨S128, .f32⟩ : BufTy).Contents (Elt F)) (x26 : (⟨S128x128, .f32⟩ : BufTy).Contents (Elt F)) (x27 : (⟨S128, .f32⟩ : BufTy).Contents (Elt F)) (x28 : (⟨S128x384, .f32⟩ : BufTy).Contents (Elt F)) (x29 : (⟨S128, .f32⟩ : BufTy).Contents (Elt F)) (x30 x31 : (⟨S128x1, .f32⟩ : BufTy).Contents (Elt F)) :
    val_main_v115 (F := F) x0 x1 x2 x3 x4 x5 x6 x7 x8 x9 x14 x15 x16 x17 x18 x19 x20 x21 x22 x23 x24 x25 x26 x27 x28 x29 x30 x31
      = catSpec (val_main_v74 (F := F) x0 x1 x2 x8 x14 x15 x30) (val_main_v86 (F := F) x3 x4 x5 x8 x16 x17 x31) x6 x7 x9
          x18 (val_main_v77 (F := F) x19) x20 (val_main_v89 (F := F) x21) x22 (val_main_v94 (F := F) x23)
          x24 (val_main_v100 (F := F) x25) x26 (val_main_v106 (F := F) x27) x28 (val_main_v112 (F := F) x29) := by
  unfold val_main_v115 val_main_v114 val_main_v113 val_main_v111 val_main_v110 val_main_v109 val_main_v108 val_main_v107
    val_main_v105 val_main_v104 val_main_v103 val_main_v102 val_main_v101 val_main_v99 val_main_v98 val_main_v97 val_main_v96
    val_main_v95 val_main_v93 val_main_v92 val_main_v91 val_main_v90 val_main_v88 val_main_v87 val_main_v79 val_main_v78
    val_main_v76 val_main_v75 val_main_call2_v0 val_main_call2_cst catSpec headH joinH denseH
  rfl

end Spec

/-! ## A sum over 384 terms as three sums over 128 -/

/-- Column `k` of the band of 128 columns that starts at column `o` of 384. -/
def band (o : ℕ) (ho : o + 128 ≤ 384) (k : Fin 128) : Fin 384 := ⟨o + k.val, by have := k.isLt; omega⟩

theorem band_val (o : ℕ) (ho : o + 128 ≤ 384) (k : Fin 128) : (band o ho k).val = o + k.val := rfl

/-- A sum over `Fin 384` is the sum over its three bands of 128. -/
theorem sum_three {M : Type*} [AddCommMonoid M] (f : Fin 384 → M) :
    ∑ K : Fin 384, f K
      = (∑ k : Fin 128, f (band 0 (by omega) k) + ∑ k : Fin 128, f (band 128 (by omega) k))
        + ∑ k : Fin 128, f (band 256 (by omega) k) := by
  have h1 : ∑ K : Fin 384, f K = ∑ K : Fin 256, f (Fin.castAdd 128 K) + ∑ k : Fin 128, f (Fin.natAdd 256 k) :=
    Fin.sum_univ_add (a := 256) (b := 128) f
  have h2 : ∑ K : Fin 256, f (Fin.castAdd 128 K)
      = ∑ k : Fin 128, f (Fin.castAdd 128 (Fin.castAdd 128 k)) + ∑ k : Fin 128, f (Fin.castAdd 128 (Fin.natAdd 128 k)) :=
    Fin.sum_univ_add (a := 128) (b := 128) fun K => f (Fin.castAdd 128 K)
  have e0 : ∀ k : Fin 128, (Fin.castAdd 128 (Fin.castAdd 128 k) : Fin 384) = band 0 (by omega) k :=
    fun k => Fin.ext (by first | exact (Nat.zero_add k.val).symm | (simp [band]))
  have e1 : ∀ k : Fin 128, (Fin.castAdd 128 (Fin.natAdd 128 k) : Fin 384) = band 128 (by omega) k :=
    fun k => Fin.ext (by first | rfl | (simp [band]; omega))
  have e2 : ∀ k : Fin 128, (Fin.natAdd 256 k : Fin 384) = band 256 (by omega) k :=
    fun k => Fin.ext (by first | rfl | (simp [band]; omega))
  rw [h1, h2]
  simp only [e0, e1, e2]

/-! ## The kernel's layer on a block of 1024 rows -/

section Block

/-- Two sums agree at two entries when their summands do. -/
theorem addf_congr {s t : Shape} (X Y : FVec Ideal s .f32) (X' Y' : FVec Ideal t .f32) (i : s.Idx) (j : t.Idx)
    (h1 : (X i : EReal) = X' j) (h2 : (Y i : EReal) = Y' j) : addf X Y i = addf X' Y' j := by
  show FloatOps.addf (X i) (Y i) = FloatOps.addf (X' j) (Y' j)
  rw [h1, h2]

/-- The host's plain product at an entry. -/
theorem hostDot_apply {M K N : ℕ} {φ₁ φ₂ : FTy} (prec : Option ContractPrecision) (l : FVec Ideal ⟨2, ![M, K]⟩ φ₁)
    (r : FVec Ideal ⟨2, ![K, N]⟩ φ₂) (p : Fin M) (j : Fin N) :
    Host.dotGeneral (DotDims.plain M K N) prec l r (ix2 p j) = ∑ k : Fin K, l (ix2 p k) * r (ix2 k j) :=
  Cert.Lib.PlainDot.dotGeneral_apply prec .single l r p j

/-- A dense row on a block: the block times the transposed weight on the vector unit, from the zero accumulator,
    plus the bias row cast to itself and broadcast down the rows. -/
def denseK (x : FVec Ideal ⟨2, ![1024, 128]⟩ .bf16) (w : FVec Ideal ⟨2, ![128, 128]⟩ .bf16)
    (r : FVec Ideal ⟨2, ![1, 128]⟩ .f32) : FVec Ideal ⟨2, ![1024, 128]⟩ .f32 :=
  addf (matmul (DotDims.plain 1024 128 128) none x (transpose ⟨2, ![128, 128]⟩ [1, 0] w (by decide))
      (constant ⟨2, ![1024, 128]⟩ .f32 0x00000000#32))
    (broadcastTo ⟨2, ![1024, 128]⟩ (shapeCast ⟨2, ![1, 128]⟩ r (by decide)) (by decide))

/-- The product of a block, truncated, with the transposed band of the truncated joined weight's columns from `o`. -/
def bandK (u : FVec Ideal ⟨2, ![1024, 128]⟩ .f32) (o : ℕ)
    (hs : (⟨2, ![128, 384]⟩ : Shape).Slices ![0, o] ⟨2, ![128, 128]⟩)
    (wc : FVec Ideal ⟨2, ![128, 384]⟩ .f32) : FVec Ideal ⟨2, ![1024, 128]⟩ .f32 :=
  matmul (DotDims.plain 1024 128 128) none (truncf .bf16 u (by decide))
    (transpose ⟨2, ![128, 128]⟩ [1, 0]
      (extractStridedSlice ⟨2, ![128, 128]⟩ ![0, o] (truncf .bf16 wc (by decide)) hs) (by decide))
    (constant ⟨2, ![1024, 128]⟩ .f32 0x00000000#32)

/-- The last layer on a block: the three band products added, the bias row, the maximum with zero. -/
def headK (u0 u1 u3 : FVec Ideal ⟨2, ![1024, 128]⟩ .f32) (wc : FVec Ideal ⟨2, ![128, 384]⟩ .f32)
    (rc : FVec Ideal ⟨2, ![1, 128]⟩ .f32) : FVec Ideal ⟨2, ![1024, 128]⟩ .f32 :=
  maximumf
    (addf (addf (addf (bandK u0 0 (by decide) wc) (bandK u1 128 (by decide) wc)) (bandK u3 256 (by decide) wc))
      (broadcastTo ⟨2, ![1024, 128]⟩ (shapeCast ⟨2, ![1, 128]⟩ rc (by decide)) (by decide)))
    (broadcast ⟨2, ![1024, 128]⟩ (Scalar.ofBits .f32 0x00000000#32))

/-- A dense row on a block is, at row `p` of the block and row `P` of the array, the host's dense row: the same sum
    of products term by term, and the same bias entry. -/
theorem denseK_point (A : FVec Ideal ⟨2, ![8192, 128]⟩ .f32) (W : FVec Ideal ⟨2, ![128, 128]⟩ .f32)
    (R : FVec Ideal ⟨2, ![1, 128]⟩ .f32)
    (x : FVec Ideal ⟨2, ![1024, 128]⟩ .bf16) (w : FVec Ideal ⟨2, ![128, 128]⟩ .bf16) (r : FVec Ideal ⟨2, ![1, 128]⟩ .f32)
    (P : Fin 8192) (p : Fin 1024) (k : Fin 128)
    (hx : ∀ j : Fin 128, (x (ix2 p j) : EReal) = A (ix2 P j))
    (hw : ∀ j : Fin 128, (w (ix2 k j) : EReal) = W (ix2 k j))
    (hr : (r (ix2 (0 : Fin 1) k) : EReal) = R (ix2 (0 : Fin 1) k)) :
    denseK x w r (ix2 p k) = denseH (F := Ideal) A W R (ix2 P k) :=
  Cert.Lib.AffineRows.layer_row none none A (transpose ⟨2, ![128, 128]⟩ [1, 0] W (by decide)) x
    (transpose ⟨2, ![128, 128]⟩ [1, 0] w (by decide)) _ _ P p k hx
    (fun j => (transpose_ix2_apply w _ j k).trans ((hw j).trans (transpose_ix2_apply W _ j k).symm))
    ((Cert.Lib.RowLayers.rowOver_apply r _ _ p k).trans
      (hr.trans (Cert.Lib.RowLayers.rowInDim_apply (M := 8192) R (by decide) P k).symm))

/-- A band product at an entry: the sum over the band's 128 columns. -/
theorem bandK_apply (u : FVec Ideal ⟨2, ![1024, 128]⟩ .f32) (o : ℕ) (ho : o + 128 ≤ 384)
    (hs : (⟨2, ![128, 384]⟩ : Shape).Slices ![0, o] ⟨2, ![128, 128]⟩)
    (wc : FVec Ideal ⟨2, ![128, 384]⟩ .f32) (p : Fin 1024) (q : Fin 128) :
    bandK u o hs wc (ix2 p q) = ∑ k : Fin 128, (u (ix2 p k) : EReal) * wc (ix2 q (band o ho k)) := by
  refine (Cert.Lib.PlainDot.matmul_zero_apply none _ _ p q).trans (Finset.sum_congr rfl fun k _ => ?_)
  exact congrArg (fun y : EReal => (u (ix2 p k) : EReal) * y)
    ((transpose_ix2_apply _ _ k q).trans (slice2_axis1_apply o _ hs q k (band o ho k) rfl))

end Block

/-! ## The join, and the last layer at an entry -/

section Head

/-- The joined array at a column of a band is that band's array at the column within the band. -/
theorem joinH_apply (U0 U1 U3 : FVec Ideal ⟨2, ![8192, 128]⟩ .f32) (P : Fin 8192) (k : Fin 128) :
    joinH (F := Ideal) U0 U1 U3 (ix2 P (band 0 (by omega) k)) = U0 (ix2 P k)
      ∧ joinH (F := Ideal) U0 U1 U3 (ix2 P (band 128 (by omega) k)) = U1 (ix2 P k)
      ∧ joinH (F := Ideal) U0 U1 U3 (ix2 P (band 256 (by omega) k)) = U3 (ix2 P k) := by
  have hi : ∀ (K : Fin 384) (b : Fin (⟨2, ![8192, 128]⟩ : Shape).rank),
      b.cast (rfl : (⟨2, ![8192, 128]⟩ : Shape).rank = (⟨2, ![8192, 384]⟩ : Shape).rank) ≠ 1 →
        ((ix2 P k : (⟨2, ![8192, 128]⟩ : Shape).Idx) b).val
          = ((ix2 P K : (⟨2, ![8192, 384]⟩ : Shape).Idx) (b.cast rfl)).val := fun K b hb => by
    match b with
    | ⟨0, _⟩ => rfl
    | ⟨1, _⟩ => exact absurd rfl hb
  refine ⟨?_, ?_, ?_⟩
  · exact concatenate_apply_piece (t := ⟨2, ![8192, 384]⟩) 1 _ _ (ix2 P (band 0 (by omega) k)) 0 (by show (0 : ℕ) < 3; omega)
      ⟨2, ![8192, 128]⟩ U0 rfl rfl 0 (by rfl) (ix2 P k) (hi _) rfl
  · exact concatenate_apply_piece (t := ⟨2, ![8192, 384]⟩) 1 _ _ (ix2 P (band 128 (by omega) k)) 1 (by show (1 : ℕ) < 3; omega)
      ⟨2, ![8192, 128]⟩ U1 rfl rfl 128 (by rfl) (ix2 P k) (hi _) rfl
  · exact concatenate_apply_piece (t := ⟨2, ![8192, 384]⟩) 1 _ _ (ix2 P (band 256 (by omega) k)) 2 (by show (2 : ℕ) < 3; omega)
      ⟨2, ![8192, 128]⟩ U3 rfl rfl 256 (by rfl) (ix2 P k) (hi _) rfl

/-- The last layer on a block is, at row `p` of the block and row `P` of the array, the host's last layer of the joined
    array, when the three block arrays are the host's three at those rows: the product over 384 columns is the sum
    of the three band products. -/
theorem head_point (u0 u1 u3 : FVec Ideal ⟨2, ![1024, 128]⟩ .f32) (U0 U1 U3 : FVec Ideal ⟨2, ![8192, 128]⟩ .f32)
    (wc : FVec Ideal ⟨2, ![128, 384]⟩ .f32) (rc : FVec Ideal ⟨2, ![1, 128]⟩ .f32)
    (P : Fin 8192) (p : Fin 1024) (q : Fin 128)
    (h0 : ∀ k : Fin 128, (u0 (ix2 p k) : EReal) = U0 (ix2 P k))
    (h1 : ∀ k : Fin 128, (u1 (ix2 p k) : EReal) = U1 (ix2 P k))
    (h3 : ∀ k : Fin 128, (u3 (ix2 p k) : EReal) = U3 (ix2 P k)) :
    headK u0 u1 u3 wc rc (ix2 p q) = headH (F := Ideal) (joinH (F := Ideal) U0 U1 U3) wc rc (ix2 P q) := by
  refine Cert.Lib.AffineRows.relu_row _ _ (ix2 p q) (ix2 P q) (by decide) ?_
  refine addf_congr _ _ _ _ _ _ ?_ ((Cert.Lib.RowLayers.rowOver_apply rc _ _ p q).trans
    (Cert.Lib.RowLayers.rowInDim_apply (M := 8192) rc (by decide) P q).symm)
  refine Eq.trans ?_ (hostDot_apply none (joinH (F := Ideal) U0 U1 U3)
    (transpose ⟨2, ![384, 128]⟩ [1, 0] wc (by decide)) P q).symm
  rw [sum_three]
  have hb0 : bandK u0 0 (by decide) wc (ix2 p q)
      = ∑ k : Fin 128, (joinH (F := Ideal) U0 U1 U3 (ix2 P (band 0 (by omega) k)) : EReal)
          * transpose ⟨2, ![384, 128]⟩ [1, 0] wc (by decide) (ix2 (band 0 (by omega) k) q) :=
    (bandK_apply u0 0 (by omega) _ wc p q).trans (Finset.sum_congr rfl fun k _ => by
      rw [(joinH_apply U0 U1 U3 P k).1, transpose_ix2_apply, h0 k])
  have hb1 : bandK u1 128 (by decide) wc (ix2 p q)
      = ∑ k : Fin 128, (joinH (F := Ideal) U0 U1 U3 (ix2 P (band 128 (by omega) k)) : EReal)
          * transpose ⟨2, ![384, 128]⟩ [1, 0] wc (by decide) (ix2 (band 128 (by omega) k) q) :=
    (bandK_apply u1 128 (by omega) _ wc p q).trans (Finset.sum_congr rfl fun k _ => by
      rw [(joinH_apply U0 U1 U3 P k).2.1, transpose_ix2_apply, h1 k])
  have hb2 : bandK u3 256 (by decide) wc (ix2 p q)
      = ∑ k : Fin 128, (joinH (F := Ideal) U0 U1 U3 (ix2 P (band 256 (by omega) k)) : EReal)
          * transpose ⟨2, ![384, 128]⟩ [1, 0] wc (by decide) (ix2 (band 256 (by omega) k) q) :=
    (bandK_apply u3 256 (by omega) _ wc p q).trans (Finset.sum_congr rfl fun k _ => by
      rw [(joinH_apply U0 U1 U3 P k).2.2, transpose_ix2_apply, h3 k])
  refine (addf_apply _ _ _).trans ?_
  exact congrArg₂ (fun a b : EReal => a + b)
    ((addf_apply _ _ _).trans (congrArg₂ (fun a b : EReal => a + b) hb0 hb1)) hb2

end Head

/-! ## The kernel's payload is the layer on its block -/

section Body

open Cert.KernelIdeal Cert.KernelIdeal.Gen

/-- The body's stored value, over its loaded blocks, is the block layer of the five dense rows. -/
theorem pay_eq (x0 x1 x2 x3 x4 : Vec Ideal S1024x128 .f32) (x5 : Vec Ideal S128x128 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x128 .f32) (x12 : Vec Ideal S1x128 .f32) (x13 : Vec Ideal S128x128 .f32) (x14 : Vec Ideal S1x128 .f32)
    (x15 : Vec Ideal S128x384 .f32) (x16 : Vec Ideal S1x128 .f32) :
    k4_pay10 (k4_pay1 x2) (k4_pay2 x3) (k4_pay3 x4) (k4_pay4 x9) (k4_pay5 x11) (k4_pay6 x13) (k4_pay7 x0 x5 x6)
        (k4_pay8 x1 x7) (k4_pay9 x8) x10 x12 x14 x15 x16
      = headK
          (addf (denseK (truncf .bf16 x2 Cert.KernelIdeal.Gen.bitsLt_bf16_f32) (truncf .bf16 x9 Cert.KernelIdeal.Gen.bitsLt_bf16_f32) x10)
            (denseK (truncf .bf16 (shapeCast ⟨2, ![1024, 128]⟩ x0 (by decide)) Cert.KernelIdeal.Gen.bitsLt_bf16_f32) (truncf .bf16 x5 Cert.KernelIdeal.Gen.bitsLt_bf16_f32) x6))
          (addf (denseK (truncf .bf16 x3 Cert.KernelIdeal.Gen.bitsLt_bf16_f32) (truncf .bf16 x11 Cert.KernelIdeal.Gen.bitsLt_bf16_f32) x12)
            (denseK (truncf .bf16 (shapeCast ⟨2, ![1024, 128]⟩ x1 (by decide)) Cert.KernelIdeal.Gen.bitsLt_bf16_f32) (truncf .bf16 x7 Cert.KernelIdeal.Gen.bitsLt_bf16_f32) x8))
          (denseK (truncf .bf16 x4 Cert.KernelIdeal.Gen.bitsLt_bf16_f32) (truncf .bf16 x13 Cert.KernelIdeal.Gen.bitsLt_bf16_f32) x14)
          x15 x16 := rfl

/-- The body's stored value at entry `(p, q)` of its block is the host's layer at `(P, q)`, when row `p` of each of the
    five row blocks is row `P` of its array and the twelve whole blocks are their arrays. -/
theorem body_point (x0 x1 x2 x3 x4 : Vec Ideal S1024x128 .f32) (x5 : Vec Ideal S128x128 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x128 .f32) (x12 : Vec Ideal S1x128 .f32) (x13 : Vec Ideal S128x128 .f32) (x14 : Vec Ideal S1x128 .f32)
    (x15 : Vec Ideal S128x384 .f32) (x16 : Vec Ideal S1x128 .f32)
    (A0 A1 C0 C1 S : Vec Ideal S8192x128 .f32) (W6 : Vec Ideal S128x128 .f32) (R6 : Vec Ideal S1x128 .f32)
    (W7 : Vec Ideal S128x128 .f32) (R7 : Vec Ideal S1x128 .f32) (W9 : Vec Ideal S128x128 .f32) (R9 : Vec Ideal S1x128 .f32)
    (W10 : Vec Ideal S128x128 .f32) (R10 : Vec Ideal S1x128 .f32) (W12 : Vec Ideal S128x128 .f32) (R12 : Vec Ideal S1x128 .f32)
    (Wc : Vec Ideal S128x384 .f32) (Rc : Vec Ideal S1x128 .f32)
    (P : Fin 8192) (p : Fin 1024) (q : Fin 128)
    (h0 : ∀ k : Fin 128, (x0 (ix2 p k) : EReal) = A0 (ix2 P k))
    (h1 : ∀ k : Fin 128, (x1 (ix2 p k) : EReal) = A1 (ix2 P k))
    (h2 : ∀ k : Fin 128, (x2 (ix2 p k) : EReal) = C0 (ix2 P k))
    (h3 : ∀ k : Fin 128, (x3 (ix2 p k) : EReal) = C1 (ix2 P k))
    (h4 : ∀ k : Fin 128, (x4 (ix2 p k) : EReal) = S (ix2 P k))
    (e5 : x5 = W6) (e6 : x6 = R6) (e7 : x7 = W7) (e8 : x8 = R7) (e9 : x9 = W9) (e10 : x10 = R9)
    (e11 : x11 = W10) (e12 : x12 = R10) (e13 : x13 = W12) (e14 : x14 = R12) (e15 : x15 = Wc) (e16 : x16 = Rc) :
    k4_pay10 (k4_pay1 x2) (k4_pay2 x3) (k4_pay3 x4) (k4_pay4 x9) (k4_pay5 x11) (k4_pay6 x13) (k4_pay7 x0 x5 x6)
        (k4_pay8 x1 x7) (k4_pay9 x8) x10 x12 x14 x15 x16 (ix2 p q)
      = catSpec (F := Ideal) A0 A1 C0 C1 S W6 R6 W7 R7 W9 R9 W10 R10 W12 R12 Wc Rc (ix2 P q) := by
  subst e5 e6 e7 e8 e9 e10 e11 e12 e13 e14 e15 e16
  rw [pay_eq]
  unfold catSpec
  refine head_point _ _ _ _ _ _ _ _ P p q (fun k => ?_) (fun k => ?_) (fun k => ?_)
  · exact addf_congr _ _ _ _ _ _
      (denseK_point C0 x9 x10 _ _ _ P p k (fun j => (truncf_apply x2 _ (ix2 p j)).trans (h2 j)) (fun _ => rfl) rfl)
      (denseK_point A0 x5 x6 _ _ _ P p k
        (fun j => (congrFun (shapeCast_self x0 (by decide)) (ix2 p j)).trans (h0 j)) (fun _ => rfl) rfl)
  · exact addf_congr _ _ _ _ _ _
      (denseK_point C1 x11 x12 _ _ _ P p k (fun j => (truncf_apply x3 _ (ix2 p j)).trans (h3 j)) (fun _ => rfl) rfl)
      (denseK_point A1 x7 x8 _ _ _ P p k
        (fun j => (congrFun (shapeCast_self x1 (by decide)) (ix2 p j)).trans (h1 j)) (fun _ => rfl) rfl)
  · exact denseK_point S x13 x14 _ _ _ P p k (fun j => (truncf_apply x4 _ (ix2 p j)).trans (h4 j)) (fun _ => rfl) rfl

end Body

/-! ## The kernel's region: from blocks to the array -/

section Region

open Cert.KernelIdeal Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the five row-block inputs and the output sit at row block `t`. -/
theorem idx_rows : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0)
    ∧ (win4_17.index t (0 : Fin 2) = t.val ∧ win4_17.index t (1 : Fin 2) = 0) :=
  (by decide +kernel : ∀ t : Fin grid4.N, _)

/-- The twelve whole inputs sit at block 0 at every point. -/
theorem idx_whole : ∀ (t : Fin cfg4.N) (a : Fin 2),
    win4_5.index t a = 0
    ∧ win4_6.index t a = 0
    ∧ win4_7.index t a = 0
    ∧ win4_8.index t a = 0
    ∧ win4_9.index t a = 0
    ∧ win4_10.index t a = 0
    ∧ win4_11.index t a = 0
    ∧ win4_12.index t a = 0
    ∧ win4_13.index t a = 0
    ∧ win4_14.index t a = 0
    ∧ win4_15.index t a = 0
    ∧ win4_16.index t a = 0 :=
  (by decide +kernel : ∀ (t : Fin grid4.N) (a : Fin 2), _)

/-- Row `p` of input window 0's block at point `t` is row `1024 t + p` of its array. -/
theorem rows0 (c : Dev nD) (t : Fin cfg4.N) (p : Fin 1024) (k : Fin 128) (P : Fin 8192) (hP : P.val = 1024 * t.val + p.val) :
    (iblk4 V c 0 t : Vec Ideal S1024x128 .f32) (ix2 p k) = (V c main_v48 : S8192x128.Idx → Elt Ideal .f32) (ix2 P k) := by
  obtain ⟨e0, e1⟩ := (idx_rows t).1
  unfold iblk4
  rw [View.read_apply]
  show V c main_v48 _ = V c main_v48 _
  congr 1
  funext a
  apply Fin.ext
  match a with
  | ⟨0, _⟩ => show win4_0.index t (0 : Fin 2) * 1024 + 1 * p.val = P.val; omega
  | ⟨1, _⟩ => show win4_0.index t (1 : Fin 2) * 128 + 1 * k.val = k.val; omega

/-- Row `p` of input window 1's block at point `t` is row `1024 t + p` of its array. -/
theorem rows1 (c : Dev nD) (t : Fin cfg4.N) (p : Fin 1024) (k : Fin 128) (P : Fin 8192) (hP : P.val = 1024 * t.val + p.val) :
    (iblk4 V c 1 t : Vec Ideal S1024x128 .f32) (ix2 p k) = (V c main_v55 : S8192x128.Idx → Elt Ideal .f32) (ix2 P k) := by
  obtain ⟨e0, e1⟩ := (idx_rows t).2.1
  unfold iblk4
  rw [View.read_apply]
  show V c main_v55 _ = V c main_v55 _
  congr 1
  funext a
  apply Fin.ext
  match a with
  | ⟨0, _⟩ => show win4_1.index t (0 : Fin 2) * 1024 + 1 * p.val = P.val; omega
  | ⟨1, _⟩ => show win4_1.index t (1 : Fin 2) * 128 + 1 * k.val = k.val; omega

/-- Row `p` of input window 2's block at point `t` is row `1024 t + p` of its array. -/
theorem rows2 (c : Dev nD) (t : Fin cfg4.N) (p : Fin 1024) (k : Fin 128) (P : Fin 8192) (hP : P.val = 1024 * t.val + p.val) :
    (iblk4 V c 2 t : Vec Ideal S1024x128 .f32) (ix2 p k) = (V c main_arg6 : S8192x128.Idx → Elt Ideal .f32) (ix2 P k) := by
  obtain ⟨e0, e1⟩ := (idx_rows t).2.2.1
  unfold iblk4
  rw [View.read_apply]
  show V c main_arg6 _ = V c main_arg6 _
  congr 1
  funext a
  apply Fin.ext
  match a with
  | ⟨0, _⟩ => show win4_2.index t (0 : Fin 2) * 1024 + 1 * p.val = P.val; omega
  | ⟨1, _⟩ => show win4_2.index t (1 : Fin 2) * 128 + 1 * k.val = k.val; omega

/-- Row `p` of input window 3's block at point `t` is row `1024 t + p` of its array. -/
theorem rows3 (c : Dev nD) (t : Fin cfg4.N) (p : Fin 1024) (k : Fin 128) (P : Fin 8192) (hP : P.val = 1024 * t.val + p.val) :
    (iblk4 V c 3 t : Vec Ideal S1024x128 .f32) (ix2 p k) = (V c main_arg7 : S8192x128.Idx → Elt Ideal .f32) (ix2 P k) := by
  obtain ⟨e0, e1⟩ := (idx_rows t).2.2.2.1
  unfold iblk4
  rw [View.read_apply]
  show V c main_arg7 _ = V c main_arg7 _
  congr 1
  funext a
  apply Fin.ext
  match a with
  | ⟨0, _⟩ => show win4_3.index t (0 : Fin 2) * 1024 + 1 * p.val = P.val; omega
  | ⟨1, _⟩ => show win4_3.index t (1 : Fin 2) * 128 + 1 * k.val = k.val; omega

/-- Row `p` of input window 4's block at point `t` is row `1024 t + p` of its array. -/
theorem rows4 (c : Dev nD) (t : Fin cfg4.N) (p : Fin 1024) (k : Fin 128) (P : Fin 8192) (hP : P.val = 1024 * t.val + p.val) :
    (iblk4 V c 4 t : Vec Ideal S1024x128 .f32) (ix2 p k) = (V c main_arg9 : S8192x128.Idx → Elt Ideal .f32) (ix2 P k) := by
  obtain ⟨e0, e1⟩ := (idx_rows t).2.2.2.2.1
  unfold iblk4
  rw [View.read_apply]
  show V c main_arg9 _ = V c main_arg9 _
  congr 1
  funext a
  apply Fin.ext
  match a with
  | ⟨0, _⟩ => show win4_4.index t (0 : Fin 2) * 1024 + 1 * p.val = P.val; omega
  | ⟨1, _⟩ => show win4_4.index t (1 : Fin 2) * 128 + 1 * k.val = k.val; omega

/-- Input window 5's block at every point is its whole array. -/
theorem whole5 (c : Dev nD) (t : Fin cfg4.N) :
    (iblk4 V c 5 t : Vec Ideal S128x128 .f32) = (V c main_arg18 : S128x128.Idx → Elt Ideal .f32) := by
  funext y
  have e0 := (idx_whole t 0).1
  have e1 := (idx_whole t 1).1
  unfold iblk4
  rw [View.read_apply]
  show V c main_arg18 _ = V c main_arg18 _
  congr 1
  funext a
  apply Fin.ext
  match a with
  | ⟨0, _⟩ => show win4_5.index t (0 : Fin 2) * 128 + 1 * (y 0).val = (y 0).val; omega
  | ⟨1, _⟩ => show win4_5.index t (1 : Fin 2) * 128 + 1 * (y 1).val = (y 1).val; omega

/-- Input window 6's block at every point is its whole array. -/
theorem whole6 (c : Dev nD) (t : Fin cfg4.N) :
    (iblk4 V c 6 t : Vec Ideal S1x128 .f32) = (V c main_v56 : S1x128.Idx → Elt Ideal .f32) := by
  funext y
  have e0 := (idx_whole t 0).2.1
  have e1 := (idx_whole t 1).2.1
  unfold iblk4
  rw [View.read_apply]
  show V c main_v56 _ = V c main_v56 _
  congr 1
  funext a
  apply Fin.ext
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- Input window 7's block at every point is its whole array. -/
theorem whole7 (c : Dev nD) (t : Fin cfg4.N) :
    (iblk4 V c 7 t : Vec Ideal S128x128 .f32) = (V c main_arg20 : S128x128.Idx → Elt Ideal .f32) := by
  funext y
  have e0 := (idx_whole t 0).2.2.1
  have e1 := (idx_whole t 1).2.2.1
  unfold iblk4
  rw [View.read_apply]
  show V c main_arg20 _ = V c main_arg20 _
  congr 1
  funext a
  apply Fin.ext
  match a with
  | ⟨0, _⟩ => show win4_7.index t (0 : Fin 2) * 128 + 1 * (y 0).val = (y 0).val; omega
  | ⟨1, _⟩ => show win4_7.index t (1 : Fin 2) * 128 + 1 * (y 1).val = (y 1).val; omega

/-- Input window 8's block at every point is its whole array. -/
theorem whole8 (c : Dev nD) (t : Fin cfg4.N) :
    (iblk4 V c 8 t : Vec Ideal S1x128 .f32) = (V c main_v57 : S1x128.Idx → Elt Ideal .f32) := by
  funext y
  have e0 := (idx_whole t 0).2.2.2.1
  have e1 := (idx_whole t 1).2.2.2.1
  unfold iblk4
  rw [View.read_apply]
  show V c main_v57 _ = V c main_v57 _
  congr 1
  funext a
  apply Fin.ext
  match a with
  | ⟨0, _⟩ => show win4_8.index t (0 : Fin 2) * 1 + 1 * (y 0).val = (y 0).val; omega
  | ⟨1, _⟩ => show win4_8.index t (1 : Fin 2) * 128 + 1 * (y 1).val = (y 1).val; omega

/-- Input window 9's block at every point is its whole array. -/
theorem whole9 (c : Dev nD) (t : Fin cfg4.N) :
    (iblk4 V c 9 t : Vec Ideal S128x128 .f32) = (V c main_arg22 : S128x128.Idx → Elt Ideal .f32) := by
  funext y
  have e0 := (idx_whole t 0).2.2.2.2.1
  have e1 := (idx_whole t 1).2.2.2.2.1
  unfold iblk4
  rw [View.read_apply]
  show V c main_arg22 _ = V c main_arg22 _
  congr 1
  funext a
  apply Fin.ext
  match a with
  | ⟨0, _⟩ => show win4_9.index t (0 : Fin 2) * 128 + 1 * (y 0).val = (y 0).val; omega
  | ⟨1, _⟩ => show win4_9.index t (1 : Fin 2) * 128 + 1 * (y 1).val = (y 1).val; omega

/-- Input window 10's block at every point is its whole array. -/
theorem whole10 (c : Dev nD) (t : Fin cfg4.N) :
    (iblk4 V c 10 t : Vec Ideal S1x128 .f32) = (V c main_v58 : S1x128.Idx → Elt Ideal .f32) := by
  funext y
  have e0 := (idx_whole t 0).2.2.2.2.2.1
  have e1 := (idx_whole t 1).2.2.2.2.2.1
  unfold iblk4
  rw [View.read_apply]
  show V c main_v58 _ = V c main_v58 _
  congr 1
  funext a
  apply Fin.ext
  match a with
  | ⟨0, _⟩ => show win4_10.index t (0 : Fin 2) * 1 + 1 * (y 0).val = (y 0).val; omega
  | ⟨1, _⟩ => show win4_10.index t (1 : Fin 2) * 128 + 1 * (y 1).val = (y 1).val; omega

/-- Input window 11's block at every point is its whole array. -/
theorem whole11 (c : Dev nD) (t : Fin cfg4.N) :
    (iblk4 V c 11 t : Vec Ideal S128x128 .f32) = (V c main_arg24 : S128x128.Idx → Elt Ideal .f32) := by
  funext y
  have e0 := (idx_whole t 0).2.2.2.2.2.2.1
  have e1 := (idx_whole t 1).2.2.2.2.2.2.1
  unfold iblk4
  rw [View.read_apply]
  show V c main_arg24 _ = V c main_arg24 _
  congr 1
  funext a
  apply Fin.ext
  match a with
  | ⟨0, _⟩ => show win4_11.index t (0 : Fin 2) * 128 + 1 * (y 0).val = (y 0).val; omega
  | ⟨1, _⟩ => show win4_11.index t (1 : Fin 2) * 128 + 1 * (y 1).val = (y 1).val; omega

/-- Input window 12's block at every point is its whole array. -/
theorem whole12 (c : Dev nD) (t : Fin cfg4.N) :
    (iblk4 V c 12 t : Vec Ideal S1x128 .f32) = (V c main_v59 : S1x128.Idx → Elt Ideal .f32) := by
  funext y
  have e0 := (idx_whole t 0).2.2.2.2.2.2.2.1
  have e1 := (idx_whole t 1).2.2.2.2.2.2.2.1
  unfold iblk4
  rw [View.read_apply]
  show V c main_v59 _ = V c main_v59 _
  congr 1
  funext a
  apply Fin.ext
  match a with
  | ⟨0, _⟩ => show win4_12.index t (0 : Fin 2) * 1 + 1 * (y 0).val = (y 0).val; omega
  | ⟨1, _⟩ => show win4_12.index t (1 : Fin 2) * 128 + 1 * (y 1).val = (y 1).val; omega

/-- Input window 13's block at every point is its whole array. -/
theorem whole13 (c : Dev nD) (t : Fin cfg4.N) :
    (iblk4 V c 13 t : Vec Ideal S128x128 .f32) = (V c main_arg26 : S128x128.Idx → Elt Ideal .f32) := by
  funext y
  have e0 := (idx_whole t 0).2.2.2.2.2.2.2.2.1
  have e1 := (idx_whole t 1).2.2.2.2.2.2.2.2.1
  unfold iblk4
  rw [View.read_apply]
  show V c main_arg26 _ = V c main_arg26 _
  congr 1
  funext a
  apply Fin.ext
  match a with
  | ⟨0, _⟩ => show win4_13.index t (0 : Fin 2) * 128 + 1 * (y 0).val = (y 0).val; omega
  | ⟨1, _⟩ => show win4_13.index t (1 : Fin 2) * 128 + 1 * (y 1).val = (y 1).val; omega

/-- Input window 14's block at every point is its whole array. -/
theorem whole14 (c : Dev nD) (t : Fin cfg4.N) :
    (iblk4 V c 14 t : Vec Ideal S1x128 .f32) = (V c main_v60 : S1x128.Idx → Elt Ideal .f32) := by
  funext y
  have e0 := (idx_whole t 0).2.2.2.2.2.2.2.2.2.1
  have e1 := (idx_whole t 1).2.2.2.2.2.2.2.2.2.1
  unfold iblk4
  rw [View.read_apply]
  show V c main_v60 _ = V c main_v60 _
  congr 1
  funext a
  apply Fin.ext
  match a with
  | ⟨0, _⟩ => show win4_14.index t (0 : Fin 2) * 1 + 1 * (y 0).val = (y 0).val; omega
  | ⟨1, _⟩ => show win4_14.index t (1 : Fin 2) * 128 + 1 * (y 1).val = (y 1).val; omega

/-- Input window 15's block at every point is its whole array. -/
theorem whole15 (c : Dev nD) (t : Fin cfg4.N) :
    (iblk4 V c 15 t : Vec Ideal S128x384 .f32) = (V c main_arg28 : S128x384.Idx → Elt Ideal .f32) := by
  funext y
  have e0 := (idx_whole t 0).2.2.2.2.2.2.2.2.2.2.1
  have e1 := (idx_whole t 1).2.2.2.2.2.2.2.2.2.2.1
  unfold iblk4
  rw [View.read_apply]
  show V c main_arg28 _ = V c main_arg28 _
  congr 1
  funext a
  apply Fin.ext
  match a with
  | ⟨0, _⟩ => show win4_15.index t (0 : Fin 2) * 128 + 1 * (y 0).val = (y 0).val; omega
  | ⟨1, _⟩ => show win4_15.index t (1 : Fin 2) * 384 + 1 * (y 1).val = (y 1).val; omega

/-- Input window 16's block at every point is its whole array. -/
theorem whole16 (c : Dev nD) (t : Fin cfg4.N) :
    (iblk4 V c 16 t : Vec Ideal S1x128 .f32) = (V c main_v61 : S1x128.Idx → Elt Ideal .f32) := by
  funext y
  have e0 := (idx_whole t 0).2.2.2.2.2.2.2.2.2.2.2
  have e1 := (idx_whole t 1).2.2.2.2.2.2.2.2.2.2.2
  unfold iblk4
  rw [View.read_apply]
  show V c main_v61 _ = V c main_v61 _
  congr 1
  funext a
  apply Fin.ext
  match a with
  | ⟨0, _⟩ => show win4_16.index t (0 : Fin 2) * 1 + 1 * (y 0).val = (y 0).val; omega
  | ⟨1, _⟩ => show win4_16.index t (1 : Fin 2) * 128 + 1 * (y 1).val = (y 1).val; omega

/-- The output window's block at point `t` puts its entry `(p, q)` at `(1024 t + p, q)` of the array. -/
theorem emb17 (t : Fin cfg4.N) (p : Fin 1024) (q : Fin 128) (P : Fin 8192) (hP : P.val = 1024 * t.val + p.val) :
    ((cfg4.win 17).blk t).view.emb (ix2 p q) = (ix2 P q : S8192x128.Idx) := by
  obtain ⟨e0, e1⟩ := (idx_rows t).2.2.2.2.2
  funext a
  apply Fin.ext
  match a with
  | ⟨0, _⟩ => show win4_17.index t (0 : Fin 2) * 1024 + 1 * p.val = P.val; omega
  | ⟨1, _⟩ => show win4_17.index t (1 : Fin 2) * 128 + 1 * q.val = q.val; omega

/-- The body's stored value at point `t`, entry `(p, q)`, is the host's layer of the arrays the region found at
    `(1024 t + p, q)`. -/
theorem flushed_point (c : Dev nD) (t : Fin cfg4.N) (p : Fin 1024) (q : Fin 128) (P : Fin 8192)
    (hP : P.val = 1024 * t.val + p.val) :
    k4_pay10 (k4_pay1 (iblk4 V c 2 t)) (k4_pay2 (iblk4 V c 3 t)) (k4_pay3 (iblk4 V c 4 t)) (k4_pay4 (iblk4 V c 9 t))
        (k4_pay5 (iblk4 V c 11 t)) (k4_pay6 (iblk4 V c 13 t)) (k4_pay7 (iblk4 V c 0 t) (iblk4 V c 5 t) (iblk4 V c 6 t))
        (k4_pay8 (iblk4 V c 1 t) (iblk4 V c 7 t)) (k4_pay9 (iblk4 V c 8 t)) (iblk4 V c 10 t) (iblk4 V c 12 t)
        (iblk4 V c 14 t) (iblk4 V c 15 t) (iblk4 V c 16 t) (ix2 p q)
      = catSpec (F := Ideal) (V c main_v48) (V c main_v55) (V c main_arg6) (V c main_arg7) (V c main_arg9)
          (V c main_arg18) (V c main_v56) (V c main_arg20) (V c main_v57) (V c main_arg22) (V c main_v58)
          (V c main_arg24) (V c main_v59) (V c main_arg26) (V c main_v60) (V c main_arg28) (V c main_v61) (ix2 P q) :=
  body_point (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (iblk4 V c 10 t) (iblk4 V c 11 t) (iblk4 V c 12 t)
    (iblk4 V c 13 t) (iblk4 V c 14 t) (iblk4 V c 15 t) (iblk4 V c 16 t)
    (V c main_v48) (V c main_v55) (V c main_arg6) (V c main_arg7) (V c main_arg9)
          (V c main_arg18) (V c main_v56) (V c main_arg20) (V c main_v57) (V c main_arg22) (V c main_v58)
          (V c main_arg24) (V c main_v59) (V c main_arg26) (V c main_v60) (V c main_arg28) (V c main_v61)
    P p q
    (fun k => rows0 V c t p k P hP) (fun k => rows1 V c t p k P hP) (fun k => rows2 V c t p k P hP)
    (fun k => rows3 V c t p k P hP) (fun k => rows4 V c t p k P hP)
    (whole5 V c t) (whole6 V c t) (whole7 V c t) (whole8 V c t) (whole9 V c t) (whole10 V c t) (whole11 V c t)
    (whole12 V c t) (whole13 V c t) (whole14 V c t) (whole15 V c t) (whole16 V c t)

/-- The same at any index of the block, the array read where the output window's block puts the index. -/
theorem flushed_at (c : Dev nD) (t : Fin cfg4.N) (j : S1024x128.Idx) :
    k4_pay10 (k4_pay1 (iblk4 V c 2 t)) (k4_pay2 (iblk4 V c 3 t)) (k4_pay3 (iblk4 V c 4 t)) (k4_pay4 (iblk4 V c 9 t))
        (k4_pay5 (iblk4 V c 11 t)) (k4_pay6 (iblk4 V c 13 t)) (k4_pay7 (iblk4 V c 0 t) (iblk4 V c 5 t) (iblk4 V c 6 t))
        (k4_pay8 (iblk4 V c 1 t) (iblk4 V c 7 t)) (k4_pay9 (iblk4 V c 8 t)) (iblk4 V c 10 t) (iblk4 V c 12 t)
        (iblk4 V c 14 t) (iblk4 V c 15 t) (iblk4 V c 16 t) j
      = catSpec (F := Ideal) (V c main_v48) (V c main_v55) (V c main_arg6) (V c main_arg7) (V c main_arg9)
          (V c main_arg18) (V c main_v56) (V c main_arg20) (V c main_v57) (V c main_arg22) (V c main_v58)
          (V c main_arg24) (V c main_v59) (V c main_arg26) (V c main_v60) (V c main_arg28) (V c main_v61) (((cfg4.win 17).blk t).view.emb j) := by
  obtain ⟨p, q, rfl⟩ : ∃ (p : Fin 1024) (q : Fin 128), j = ix2 p q := ⟨j 0, j 1, eq_ix2 j⟩
  have hN : t.val < 8 := t.isLt.trans_eq (show cfg4.N = 8 from N_4)
  obtain ⟨P, hP⟩ : ∃ P : Fin 8192, P.val = 1024 * t.val + p.val :=
    ⟨⟨1024 * t.val + p.val, by have := p.isLt; omega⟩, rfl⟩
  exact (flushed_point V c t p q P hP).trans (congrArg (catSpec (F := Ideal) (V c main_v48) (V c main_v55) (V c main_arg6) (V c main_arg7) (V c main_arg9)
          (V c main_arg18) (V c main_v56) (V c main_arg20) (V c main_v57) (V c main_arg22) (V c main_v58)
          (V c main_arg24) (V c main_v59) (V c main_arg26) (V c main_v60) (V c main_arg28) (V c main_v61)) (emb17 t p q P hP).symm)

set_option maxHeartbeats 1000000 in
/-- What point `t` writes back is block `t` of the host's layer of the arrays the region found. -/
theorem flushed_eq (c : Dev nD) (t : Fin cfg4.N) :
    (dat4 (F := Ideal) V c).flushed 17 t
      = ((cfg4.win 17).blk t).view.read (Elt Ideal) (catSpec (F := Ideal) (V c main_v48) (V c main_v55) (V c main_arg6) (V c main_arg7) (V c main_arg9)
          (V c main_arg18) (V c main_v56) (V c main_arg20) (V c main_v57) (V c main_arg22) (V c main_v58)
          (V c main_arg24) (V c main_v59) (V c main_arg26) (V c main_v60) (V c main_arg28) (V c main_v61)) := by
  show (cfg4.win 17).cut (grid4.coords t) ((dat4 V c).after 17 t) = _
  rw [after4_17]
  unfold out4_17
  rw [View.canon_unit_zero hz]
  simp only [View.ld_unit_zero (S := S1024x128) hz, View.ld_unit_zero (S := S128x128) hz,
    View.ld_unit_zero (S := S1x128) hz, View.ld_unit_zero (S := S128x384) hz]
  exact funext (flushed_at V c t)

/-- An index of the output array is in point `t`'s block iff each coordinate is in the block's range on its axis. -/
theorem mem_blk (t : Fin cfg4.N) (i : S8192x128.Idx) :
    i ∈ ((cfg4.win 17).blk t).view.set ↔ ∀ a : Fin 2, win4_17.index t a * S1024x128.size a ≤ (i a).val
      ∧ (i a).val < win4_17.index t a * S1024x128.size a + S1024x128.size a := by
  show i ∈ ((View.whole main_v62).slice (win4_17.rect t)).set ↔ _
  rw [View.set_slice_whole, Rect.mem_set_unit]
  exact Iff.rfl

/-- Every row of the output array is in the block of the point its row over 1024 names. -/
theorem covered (i : S8192x128.Idx) :
    ∃ t : Fin cfg4.N, (cfg4.win 17).flush t = true ∧ i ∈ ((cfg4.win 17).blk t).view.set := by
  have hi0 : (i 0).val < 8192 := (i 0).isLt
  have hi1 : (i 1).val < 128 := (i 1).isLt
  obtain ⟨t, ht⟩ : ∃ t : Fin cfg4.N, t.val = (i 0).val / 1024 :=
    ⟨⟨(i 0).val / 1024, by rw [show cfg4.N = 8 from N_4]; omega⟩, rfl⟩
  obtain ⟨e0, e1⟩ := (idx_rows t).2.2.2.2.2
  refine ⟨t, flush4_17 t, ?_⟩
  rw [mem_blk]
  intro a
  match a with
  | ⟨0, _⟩ =>
    show win4_17.index t (0 : Fin 2) * 1024 ≤ (i 0).val ∧ (i 0).val < win4_17.index t (0 : Fin 2) * 1024 + 1024
    omega
  | ⟨1, _⟩ =>
    show win4_17.index t (1 : Fin 2) * 128 ≤ (i 1).val ∧ (i 1).val < win4_17.index t (1 : Fin 2) * 128 + 128
    omega

/-- After the region the output array holds the host's layer of the arrays the region found. -/
theorem region4 (c : Dev nD) :
    (dat4 (F := Ideal) V c).arrAt 17 cfg4.N
      = catSpec (F := Ideal) (V c main_v48) (V c main_v55) (V c main_arg6) (V c main_arg7) (V c main_arg9)
          (V c main_arg18) (V c main_v56) (V c main_arg20) (V c main_v57) (V c main_arg22) (V c main_v58)
          (V c main_arg24) (V c main_v59) (V c main_arg26) (V c main_v60) (V c main_arg28) (V c main_v61) :=
  (dat4 (F := Ideal) V c).arrAt_eq_of_cover 17 _ (fun t _ => flushed_eq V c t) (covered)

end Region

end Cert.Bridge.ConcatLayer

end
-- ==== Proof.KernelValue.lean ====
/-
  What the idealized kernel program returns, as the reference's result term of the launch contents.

  @main's buffers at each boundary are a fold through its sixteen segments.  Walking the fold once, forward:
  a stretch of host operations is read one operation at a time at the buffers it writes, and both programs apply
  the same operations there (the edge endpoints and their wrapped source column, the row gathers, the segment
  sums, the author rows and their positive parts, the two halves of the batch; a bias vector recast as a row is
  the vector put on the row's axis); a region's output array is the reference's own stage of the region's input
  arrays (the four region modules); a buffer that no segment in between touches is still what it was
  (Proof/KernelFold.lean), so every argument array read at any boundary is the launch memory.  At the last
  boundary the result buffer holds the reference's result term.
-/
import proofs.«179541_j7550552506805_2_alg».proof.Proof.Gen.KernelIdeal.Frame
import proofs.«179541_j7550552506805_2_alg».proof.Proof.Gen.ReferenceIdeal.Read
import proofs.«179541_j7550552506805_2_alg».proof.Proof.LibBiasRow
import proofs.«179541_j7550552506805_2_alg».proof.Proof.KernelFold
import proofs.«179541_j7550552506805_2_alg».proof.Proof.LinearRows
import proofs.«179541_j7550552506805_2_alg».proof.Proof.DecayEdges
import proofs.«179541_j7550552506805_2_alg».proof.Proof.PairHead
import proofs.«179541_j7550552506805_2_alg».proof.Proof.ConcatLayer
import proofs.«179541_j7550552506805_2_alg».proof.Proof.LibKeepdims
import Idealize.ShloMosaic.Lib.StableHlo.Run
import Idealize.ShloMosaic.Lib.Pipeline.Value
import Idealize.ShloMosaic.Lib.ValueIdx

set_option maxRecDepth 16384

noncomputable section

namespace Cert.Bridge.KernelValue

open Cert.KernelIdeal Cert.KernelIdeal.Gen Cert.Bridge.KernelFold
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg) (c : Dev nD)

/-- The launch contents of a buffer of core `c`. -/
abbrev at0 (r : Ref sig .tc) : Buf (Elt Ideal) ((c : Thread nD τ).loc r) := m ((c : Thread nD τ).loc r)

/-! ## Region 0: the first node layer -/

theorem w1_keep (r : Ref sig .tc) (hr : r ∉ written0) : W1 m ρ c (Proc.devRef .tc r) = at0 m c r :=
  keep0 _ r hr

/-- The bias as the region finds it: the vector recast as a row is the vector put on the row's axis. -/
theorem w1_v0 : W1 m ρ c (Proc.devRef .tc main_v0) = val_main_v2 (F := Ideal) (at0 m c main_arg15) := by
  show StableHlo.after hostOps0 (W0 m ρ c) (Proc.devRef .tc main_v0) = _
  after_results
  exact Cert.Lib.BiasRow.row_of_vec _ _ _

theorem w2_v1 : W2 m ρ c (Proc.devRef .tc main_v1)
    = val_main_v4 (F := Ideal) (at0 m c main_arg0) (at0 m c main_arg14) (at0 m c main_arg15) := by
  refine (W2_arr m ρ c 3).trans ((Cert.Bridge.LinearRows.region0 (V1 m ρ) c).trans ?_)
  dsimp only [V1]
  rw [w1_keep m ρ c main_arg0 (by decide), w1_keep m ρ c main_arg14 (by decide), w1_v0 m ρ c]
  rfl

/-! ## Region 1: the second node layer -/

theorem w2_keep (r : Ref sig .tc) (h0 : r ∉ written0) (hw0 : ∀ w, Pipeline.arrRef spec0 w ≠ r) :
    W2 m ρ c (Proc.devRef .tc r) = at0 m c r :=
  (W2_of_ne m ρ c r hw0).trans (w1_keep m ρ c r h0)

theorem w3_keep (r : Ref sig .tc) (h0 : r ∉ written0) (h1 : r ∉ written1) (hw0 : ∀ w, Pipeline.arrRef spec0 w ≠ r) :
    W3 m ρ c (Proc.devRef .tc r) = at0 m c r :=
  (keep1 _ r h1).trans (w2_keep m ρ c r h0 hw0)

theorem w3_v2 : W3 m ρ c (Proc.devRef .tc main_v2) = val_main_v7 (F := Ideal) (at0 m c main_arg17) := by
  show StableHlo.after hostOps1 (W2 m ρ c) (Proc.devRef .tc main_v2) = _
  after_results
  rw [w2_keep m ρ c main_arg17 (by decide) (by decide)]
  exact Cert.Lib.BiasRow.row_of_vec _ _ _

theorem w4_v3 : W4 m ρ c (Proc.devRef .tc main_v3)
    = val_main_v9 (F := Ideal) (at0 m c main_arg3) (at0 m c main_arg16) (at0 m c main_arg17) := by
  refine (W4_arr m ρ c 3).trans ((Cert.Bridge.LinearRows.region1 (V3 m ρ) c).trans ?_)
  dsimp only [V3]
  rw [w3_keep m ρ c main_arg3 (by decide) (by decide) (by decide), w3_keep m ρ c main_arg16 (by decide) (by decide) (by decide),
    w3_v2 m ρ c]
  rfl

theorem w4_keep (r : Ref sig .tc) (h0 : r ∉ written0) (h1 : r ∉ written1) (hw0 : ∀ w, Pipeline.arrRef spec0 w ≠ r)
    (hw1 : ∀ w, Pipeline.arrRef spec1 w ≠ r) : W4 m ρ c (Proc.devRef .tc r) = at0 m c r :=
  (W4_of_ne m ρ c r hw1).trans (w3_keep m ρ c r h0 h1 hw0)

theorem w4_v1 : W4 m ρ c (Proc.devRef .tc main_v1)
    = val_main_v4 (F := Ideal) (at0 m c main_arg0) (at0 m c main_arg14) (at0 m c main_arg15) :=
  (W4_of_ne m ρ c main_v1 (by decide)).trans ((keep1 _ main_v1 (by decide)).trans (w2_v1 m ρ c))

/-! ## The first graph's edges: endpoints, the gathered rows, the decayed messages -/

section
variable (W : Valuation τ sig (Elt Ideal))

/-- The destination endpoints (the segment ids of the later sum). -/
theorem s2_v5 : StableHlo.after hostOps2 W (Proc.devRef .tc main_v5) = val_main_v11 (F := Ideal) (W (Proc.devRef .tc main_arg2)) := by
  after_results; rfl

/-- The rows of the first node layer at the wrapped source endpoints. -/
theorem s2_v14 : StableHlo.after hostOps2 W (Proc.devRef .tc main_v14)
    = Host.gather Cert.ReferenceIdeal.gather_S100000x128_S800000x1_S800000x128_1_0_n_n_0_1_1128 (W (Proc.devRef .tc main_v1))
        (val_main_v30 (F := Ideal) (W (Proc.devRef .tc main_arg2))) := by
  after_results; rfl

/-- The intervals as a column. -/
theorem s2_v15 (e : Fin 800000) :
    (StableHlo.after hostOps2 W (Proc.devRef .tc main_v15) : (⟨2, ![800000, 1]⟩ : Shape).Idx → EReal) (ix2 e (0 : Fin 1))
      = (W (Proc.devRef .tc main_arg1) : (⟨1, ![800000]⟩ : Shape).Idx → EReal) (ix1 e) := by
  after_results
  exact ValueKeepdims.shapeCast_a_a1_apply _ _ e 0

/-- The decay parameters, a column, as a row. -/
theorem s2_v16 (k : Fin 128) :
    (StableHlo.after hostOps2 W (Proc.devRef .tc main_v16) : (⟨2, ![1, 128]⟩ : Shape).Idx → EReal) (ix2 (0 : Fin 1) k)
      = (W (Proc.devRef .tc main_arg30) : (⟨2, ![128, 1]⟩ : Shape).Idx → EReal) (ix2 k (0 : Fin 1)) := by
  after_results
  refine shapeCast_apply _ _ _ _ ?_
  show ((⟨2, ![128, 1]⟩ : Shape).rowMajor (ix2 k (0 : Fin 1))).val = ((⟨2, ![1, 128]⟩ : Shape).rowMajor (ix2 (0 : Fin 1) k)).val
  rw [Shape.rowMajor_val_two, Shape.rowMajor_val_two]
  show k.val * 1 + 0 = 0 * 128 + k.val
  omega
end

theorem w5_v14 : W5 m ρ c (Proc.devRef .tc main_v14)
    = val_main_v31 (F := Ideal) (at0 m c main_arg0) (at0 m c main_arg2) (at0 m c main_arg14) (at0 m c main_arg15) := by
  refine (s2_v14 (W4 m ρ c)).trans ?_
  rw [w4_v1 m ρ c, w4_keep m ρ c main_arg2 (by decide) (by decide) (by decide) (by decide)]
  rfl

theorem w6_v17 : W6 m ρ c (Proc.devRef .tc main_v17)
    = val_main_v33 (F := Ideal) (at0 m c main_arg0) (at0 m c main_arg1) (at0 m c main_arg2) (at0 m c main_arg14)
        (at0 m c main_arg15) (at0 m c main_arg30) := by
  refine (W6_arr m ρ c 3).trans ((Cert.Bridge.DecayEdges.region2 (V5 m ρ) c).trans ?_)
  dsimp only [V5]
  rw [w5_v14 m ρ c]
  refine (Cert.Bridge.DecayEdges.decay_ref0 _ _ _ _ _ _ _ _ (fun e => ?_) (fun k => ?_)).symm
  · refine (s2_v15 (W4 m ρ c) e).trans ?_
    rw [w4_keep m ρ c main_arg1 (by decide) (by decide) (by decide) (by decide)]
  · refine (s2_v16 (W4 m ρ c) k).trans ?_
    rw [w4_keep m ρ c main_arg30 (by decide) (by decide) (by decide) (by decide)]

/-! ## One segment back, for a buffer the segment does not touch -/

/-- A buffer that no host operation writes: an argument array, or the output of a region. -/
structure HostFree (r : Ref sig .tc) : Prop where
  h0 : r ∉ written0
  h1 : r ∉ written1
  h2 : r ∉ written2
  h3 : r ∉ written3
  h3_1 : r ∉ written3_1
  h3_2 : r ∉ written3_2
  h4 : r ∉ written4
  h4_1 : r ∉ written4_1
  h4_2 : r ∉ written4_2
  h5 : r ∉ written5

/-- Every buffer a stretch of host operations writes. -/
def writtenAll : List (Ref sig .tc) :=
  written0 ++ written1 ++ written2 ++ written3 ++ written3_1 ++ written3_2 ++ written4 ++ written4_1 ++ written4_2 ++ written5

theorem hostFree_of {r : Ref sig .tc} (hf : r ∉ writtenAll) : HostFree r := by
  simp only [writtenAll, List.mem_append, not_or] at hf
  obtain ⟨⟨⟨⟨⟨⟨⟨⟨⟨h0, h1⟩, h2⟩, h3⟩, h3_1⟩, h3_2⟩, h4⟩, h4_1⟩, h4_2⟩, h5⟩ := hf
  exact ⟨h0, h1, h2, h3, h3_1, h3_2, h4, h4_1, h4_2, h5⟩

/-- An argument array at the entry of the second graph's edge stretch. -/
theorem arg_w8 (r : Ref sig .tc) (hf : HostFree r) (hw0 : ∀ w, Pipeline.arrRef spec0 w ≠ r)
    (hw1 : ∀ w, Pipeline.arrRef spec1 w ≠ r) (hw2 : ∀ w, Pipeline.arrRef spec2 w ≠ r) :
    W8 m ρ c (Proc.devRef .tc r) = at0 m c r :=
  (keep3_1 _ r hf.h3_1).trans ((keep3 _ r hf.h3).trans ((W6_of_ne m ρ c r hw2).trans
    ((keep2 _ r hf.h2).trans (w4_keep m ρ c r hf.h0 hf.h1 hw0 hw1))))

/-- An argument array at the entry of the batch stretch. -/
theorem arg_w12 (r : Ref sig .tc) (hf : HostFree r) (hw0 : ∀ w, Pipeline.arrRef spec0 w ≠ r)
    (hw1 : ∀ w, Pipeline.arrRef spec1 w ≠ r) (hw2 : ∀ w, Pipeline.arrRef spec2 w ≠ r) (hw3 : ∀ w, Pipeline.arrRef spec3 w ≠ r) :
    W12 m ρ c (Proc.devRef .tc r) = at0 m c r :=
  (keep4_1 _ r hf.h4_1).trans ((keep4 _ r hf.h4).trans ((W10_of_ne m ρ c r hw3).trans
    ((keep3_2 _ r hf.h3_2).trans (arg_w8 m ρ c r hf hw0 hw1 hw2))))

/-- An argument array at the entry of region 4. -/
theorem arg_w13 (r : Ref sig .tc) (hf : HostFree r) (hw0 : ∀ w, Pipeline.arrRef spec0 w ≠ r)
    (hw1 : ∀ w, Pipeline.arrRef spec1 w ≠ r) (hw2 : ∀ w, Pipeline.arrRef spec2 w ≠ r) (hw3 : ∀ w, Pipeline.arrRef spec3 w ≠ r) :
    W13 m ρ c (Proc.devRef .tc r) = at0 m c r :=
  (keep4_2 _ r hf.h4_2).trans (arg_w12 m ρ c r hf hw0 hw1 hw2 hw3)

/-- An argument array at the entry of the head's stretch, and of region 5. -/
theorem arg_w14 (r : Ref sig .tc) (hf : HostFree r) (hw0 : ∀ w, Pipeline.arrRef spec0 w ≠ r)
    (hw1 : ∀ w, Pipeline.arrRef spec1 w ≠ r) (hw2 : ∀ w, Pipeline.arrRef spec2 w ≠ r) (hw3 : ∀ w, Pipeline.arrRef spec3 w ≠ r)
    (hw4 : ∀ w, Pipeline.arrRef spec4 w ≠ r) : W14 m ρ c (Proc.devRef .tc r) = at0 m c r :=
  (W14_of_ne m ρ c r hw4).trans (arg_w13 m ρ c r hf hw0 hw1 hw2 hw3)

theorem arg_w15 (r : Ref sig .tc) (hf : HostFree r) (hw0 : ∀ w, Pipeline.arrRef spec0 w ≠ r)
    (hw1 : ∀ w, Pipeline.arrRef spec1 w ≠ r) (hw2 : ∀ w, Pipeline.arrRef spec2 w ≠ r) (hw3 : ∀ w, Pipeline.arrRef spec3 w ≠ r)
    (hw4 : ∀ w, Pipeline.arrRef spec4 w ≠ r) : W15 m ρ c (Proc.devRef .tc r) = at0 m c r :=
  (keep5 _ r hf.h5).trans (arg_w14 m ρ c r hf hw0 hw1 hw2 hw3 hw4)

/-! ## The first graph's aggregation: the segment sum, the author rows, their positive parts -/

local notation "𝐚" => at0 m c

theorem w6_v5 : W6 m ρ c (Proc.devRef .tc main_v5) = val_main_v11 (F := Ideal) (𝐚 main_arg2) := by
  refine (W6_of_ne m ρ c main_v5 (by decide)).trans ((s2_v5 (W4 m ρ c)).trans ?_)
  rw [w4_keep m ρ c main_arg2 (by decide) (by decide) (by decide) (by decide)]

theorem w7_v21 : W7 m ρ c (Proc.devRef .tc main_v21)
    = val_main_v37 (F := Ideal) (𝐚 main_arg0) (𝐚 main_arg1) (𝐚 main_arg2) (𝐚 main_arg14) (𝐚 main_arg15) (𝐚 main_arg30) := by
  have h : ∀ W : Valuation τ sig (Elt Ideal), W (Proc.devRef .tc main_v5) = val_main_v11 (F := Ideal) (𝐚 main_arg2) →
      W (Proc.devRef .tc main_v17) = val_main_v33 (F := Ideal) (𝐚 main_arg0) (𝐚 main_arg1) (𝐚 main_arg2) (𝐚 main_arg14) (𝐚 main_arg15) (𝐚 main_arg30) →
      StableHlo.after hostOps3 W (Proc.devRef .tc main_v21)
        = val_main_v37 (F := Ideal) (𝐚 main_arg0) (𝐚 main_arg1) (𝐚 main_arg2) (𝐚 main_arg14) (𝐚 main_arg15) (𝐚 main_arg30) := by
    intro W h5 h17
    after_results
    rw [h5, h17]
    unfold val_main_v37 val_main_v36 val_main_v35 val_main_v34 val_main_cst
    congr 2
  exact h (W6 m ρ c) (w6_v5 m ρ c) (w6_v17 m ρ c)

theorem w8_v22 : W8 m ρ c (Proc.devRef .tc main_v22)
    = val_main_v38 (F := Ideal) (𝐚 main_arg0) (𝐚 main_arg1) (𝐚 main_arg2) (𝐚 main_arg14) (𝐚 main_arg15) (𝐚 main_arg30) := by
  have h : ∀ W : Valuation τ sig (Elt Ideal),
      W (Proc.devRef .tc main_v21) = val_main_v37 (F := Ideal) (𝐚 main_arg0) (𝐚 main_arg1) (𝐚 main_arg2) (𝐚 main_arg14) (𝐚 main_arg15) (𝐚 main_arg30) →
      StableHlo.after hostOps3_1 W (Proc.devRef .tc main_v22)
        = val_main_v38 (F := Ideal) (𝐚 main_arg0) (𝐚 main_arg1) (𝐚 main_arg2) (𝐚 main_arg14) (𝐚 main_arg15) (𝐚 main_arg30) := by
    intro W h21
    after_results
    simp only [cast_eq]
    rw [h21]
    unfold val_main_v38 val_main_call0_v0 val_main_call0_cst
    rfl
  exact h (W7 m ρ c) (w7_v21 m ρ c)

/-! ## The second graph: the same three steps -/

theorem w8_v3 : W8 m ρ c (Proc.devRef .tc main_v3)
    = val_main_v9 (F := Ideal) (𝐚 main_arg3) (𝐚 main_arg16) (𝐚 main_arg17) :=
  (keep3_1 _ main_v3 (by decide)).trans ((keep3 _ main_v3 (by decide)).trans ((W6_of_ne m ρ c main_v3 (by decide)).trans
    ((keep2 _ main_v3 (by decide)).trans (w4_v3 m ρ c))))

section
variable (W : Valuation τ sig (Elt Ideal))

theorem s32_v24 : StableHlo.after hostOps3_2 W (Proc.devRef .tc main_v24) = val_main_v40 (F := Ideal) (W (Proc.devRef .tc main_arg5)) := by
  after_results; rfl

theorem s32_v33 : StableHlo.after hostOps3_2 W (Proc.devRef .tc main_v33)
    = Host.gather Cert.ReferenceIdeal.gather_S100000x128_S800000x1_S800000x128_1_0_n_n_0_1_1128 (W (Proc.devRef .tc main_v3))
        (val_main_v59 (F := Ideal) (W (Proc.devRef .tc main_arg5))) := by
  after_results; rfl

theorem s32_v34 (e : Fin 800000) :
    (StableHlo.after hostOps3_2 W (Proc.devRef .tc main_v34) : (⟨2, ![800000, 1]⟩ : Shape).Idx → EReal) (ix2 e (0 : Fin 1))
      = (W (Proc.devRef .tc main_arg4) : (⟨1, ![800000]⟩ : Shape).Idx → EReal) (ix1 e) := by
  after_results
  exact ValueKeepdims.shapeCast_a_a1_apply _ _ e 0

theorem s32_v35 (k : Fin 128) :
    (StableHlo.after hostOps3_2 W (Proc.devRef .tc main_v35) : (⟨2, ![1, 128]⟩ : Shape).Idx → EReal) (ix2 (0 : Fin 1) k)
      = (W (Proc.devRef .tc main_arg31) : (⟨2, ![128, 1]⟩ : Shape).Idx → EReal) (ix2 k (0 : Fin 1)) := by
  after_results
  refine shapeCast_apply _ _ _ _ ?_
  show ((⟨2, ![128, 1]⟩ : Shape).rowMajor (ix2 k (0 : Fin 1))).val = ((⟨2, ![1, 128]⟩ : Shape).rowMajor (ix2 (0 : Fin 1) k)).val
  rw [Shape.rowMajor_val_two, Shape.rowMajor_val_two]
  show k.val * 1 + 0 = 0 * 128 + k.val
  omega
end

theorem w9_v33 : W9 m ρ c (Proc.devRef .tc main_v33)
    = val_main_v60 (F := Ideal) (𝐚 main_arg3) (𝐚 main_arg5) (𝐚 main_arg16) (𝐚 main_arg17) := by
  refine (s32_v33 (W8 m ρ c)).trans ?_
  rw [w8_v3 m ρ c, arg_w8 m ρ c main_arg5 (hostFree_of (by decide)) (by decide) (by decide) (by decide)]
  rfl

theorem w10_v36 : W10 m ρ c (Proc.devRef .tc main_v36)
    = val_main_v62 (F := Ideal) (𝐚 main_arg3) (𝐚 main_arg4) (𝐚 main_arg5) (𝐚 main_arg16) (𝐚 main_arg17) (𝐚 main_arg31) := by
  refine (W10_arr m ρ c 3).trans ((Cert.Bridge.DecayEdges.region3 (V9 m ρ) c).trans ?_)
  dsimp only [V9]
  rw [w9_v33 m ρ c]
  refine (Cert.Bridge.DecayEdges.decay_ref1 _ _ _ _ _ _ _ _ (fun e => ?_) (fun k => ?_)).symm
  · refine (s32_v34 (W8 m ρ c) e).trans ?_
    rw [arg_w8 m ρ c main_arg4 (hostFree_of (by decide)) (by decide) (by decide) (by decide)]
  · refine (s32_v35 (W8 m ρ c) k).trans ?_
    rw [arg_w8 m ρ c main_arg31 (hostFree_of (by decide)) (by decide) (by decide) (by decide)]

theorem w10_v24 : W10 m ρ c (Proc.devRef .tc main_v24) = val_main_v40 (F := Ideal) (𝐚 main_arg5) := by
  refine (W10_of_ne m ρ c main_v24 (by decide)).trans ((s32_v24 (W8 m ρ c)).trans ?_)
  rw [arg_w8 m ρ c main_arg5 (hostFree_of (by decide)) (by decide) (by decide) (by decide)]

theorem w11_v40 : W11 m ρ c (Proc.devRef .tc main_v40)
    = val_main_v66 (F := Ideal) (𝐚 main_arg3) (𝐚 main_arg4) (𝐚 main_arg5) (𝐚 main_arg16) (𝐚 main_arg17) (𝐚 main_arg31) := by
  have h : ∀ W : Valuation τ sig (Elt Ideal), W (Proc.devRef .tc main_v24) = val_main_v40 (F := Ideal) (𝐚 main_arg5) →
      W (Proc.devRef .tc main_v36) = val_main_v62 (F := Ideal) (𝐚 main_arg3) (𝐚 main_arg4) (𝐚 main_arg5) (𝐚 main_arg16) (𝐚 main_arg17) (𝐚 main_arg31) →
      StableHlo.after hostOps4 W (Proc.devRef .tc main_v40)
        = val_main_v66 (F := Ideal) (𝐚 main_arg3) (𝐚 main_arg4) (𝐚 main_arg5) (𝐚 main_arg16) (𝐚 main_arg17) (𝐚 main_arg31) := by
    intro W h24 h36
    after_results
    rw [h24, h36]
    unfold val_main_v66 val_main_v65 val_main_v64 val_main_v63 val_main_cst_7
    congr 2
  exact h (W10 m ρ c) (w10_v24 m ρ c) (w10_v36 m ρ c)

theorem w12_v41 : W12 m ρ c (Proc.devRef .tc main_v41)
    = val_main_v67 (F := Ideal) (𝐚 main_arg3) (𝐚 main_arg4) (𝐚 main_arg5) (𝐚 main_arg16) (𝐚 main_arg17) (𝐚 main_arg31) := by
  have h : ∀ W : Valuation τ sig (Elt Ideal),
      W (Proc.devRef .tc main_v40) = val_main_v66 (F := Ideal) (𝐚 main_arg3) (𝐚 main_arg4) (𝐚 main_arg5) (𝐚 main_arg16) (𝐚 main_arg17) (𝐚 main_arg31) →
      StableHlo.after hostOps4_1 W (Proc.devRef .tc main_v41)
        = val_main_v67 (F := Ideal) (𝐚 main_arg3) (𝐚 main_arg4) (𝐚 main_arg5) (𝐚 main_arg16) (𝐚 main_arg17) (𝐚 main_arg31) := by
    intro W h40
    after_results
    simp only [cast_eq]
    rw [h40]
    unfold val_main_v67 val_main_call1_v0 val_main_call1_cst
    rfl
  exact h (W11 m ρ c) (w11_v40 m ρ c)

theorem w12_v22 : W12 m ρ c (Proc.devRef .tc main_v22)
    = val_main_v38 (F := Ideal) (𝐚 main_arg0) (𝐚 main_arg1) (𝐚 main_arg2) (𝐚 main_arg14) (𝐚 main_arg15) (𝐚 main_arg30) :=
  (keep4_1 _ main_v22 (by decide)).trans ((keep4 _ main_v22 (by decide)).trans ((W10_of_ne m ρ c main_v22 (by decide)).trans
    ((keep3_2 _ main_v22 (by decide)).trans (w8_v22 m ρ c))))

/-! ## The batch: the gathered author rows, the fused layer, the pairwise head -/

section
variable (W : Valuation τ sig (Elt Ideal))

/-- The first graph's author rows at the batch's wrapped indices. -/
theorem s42_v48 : StableHlo.after hostOps4_2 W (Proc.devRef .tc main_v48)
    = Host.gather Cert.ReferenceIdeal.gather_S50000x128_S8192x1_S8192x128_1_0_n_n_0_1_1128 (W (Proc.devRef .tc main_v22))
        (val_main_v73 (F := Ideal) (W (Proc.devRef .tc main_arg8))) := by
  after_results; rfl

/-- The second graph's. -/
theorem s42_v55 : StableHlo.after hostOps4_2 W (Proc.devRef .tc main_v55)
    = Host.gather Cert.ReferenceIdeal.gather_S50000x128_S8192x1_S8192x128_1_0_n_n_0_1_1128 (W (Proc.devRef .tc main_v41))
        (val_main_v85 (F := Ideal) (W (Proc.devRef .tc main_arg8))) := by
  after_results; rfl

/-- The six biases of the fused layer as rows: a vector recast as a row is the vector put on the row's axis. -/
theorem s42_v56 : StableHlo.after hostOps4_2 W (Proc.devRef .tc main_v56) = val_main_v77 (F := Ideal) (W (Proc.devRef .tc main_arg19)) := by
  after_results; exact Cert.Lib.BiasRow.row_of_vec _ _ _
theorem s42_v57 : StableHlo.after hostOps4_2 W (Proc.devRef .tc main_v57) = val_main_v89 (F := Ideal) (W (Proc.devRef .tc main_arg21)) := by
  after_results; exact Cert.Lib.BiasRow.row_of_vec _ _ _
theorem s42_v58 : StableHlo.after hostOps4_2 W (Proc.devRef .tc main_v58) = val_main_v94 (F := Ideal) (W (Proc.devRef .tc main_arg23)) := by
  after_results; exact Cert.Lib.BiasRow.row_of_vec _ _ _
theorem s42_v59 : StableHlo.after hostOps4_2 W (Proc.devRef .tc main_v59) = val_main_v100 (F := Ideal) (W (Proc.devRef .tc main_arg25)) := by
  after_results; exact Cert.Lib.BiasRow.row_of_vec _ _ _
theorem s42_v60 : StableHlo.after hostOps4_2 W (Proc.devRef .tc main_v60) = val_main_v106 (F := Ideal) (W (Proc.devRef .tc main_arg27)) := by
  after_results; exact Cert.Lib.BiasRow.row_of_vec _ _ _
theorem s42_v61 : StableHlo.after hostOps4_2 W (Proc.devRef .tc main_v61) = val_main_v112 (F := Ideal) (W (Proc.devRef .tc main_arg29)) := by
  after_results; exact Cert.Lib.BiasRow.row_of_vec _ _ _

/-- The head's two biases as rows. -/
theorem s5_v65 : StableHlo.after hostOps5 W (Proc.devRef .tc main_v65) = val_main_v122 (F := Ideal) (W (Proc.devRef .tc main_arg11)) := by
  after_results; exact Cert.Lib.BiasRow.row_of_vec _ _ _
theorem s5_v66 : StableHlo.after hostOps5 W (Proc.devRef .tc main_v66) = val_main_v128 (F := Ideal) (W (Proc.devRef .tc main_arg13)) := by
  after_results; exact Cert.Lib.BiasRow.row_of_vec _ _ _
end

/-- An argument array at the entry of the batch stretch (one that no earlier region has as a window). -/
theorem arg12 (r : Ref sig .tc) (hf : r ∉ writtenAll) (hw : (∀ w, Pipeline.arrRef spec0 w ≠ r) ∧ (∀ w, Pipeline.arrRef spec1 w ≠ r) ∧
    (∀ w, Pipeline.arrRef spec2 w ≠ r) ∧ (∀ w, Pipeline.arrRef spec3 w ≠ r)) : W12 m ρ c (Proc.devRef .tc r) = 𝐚 r :=
  arg_w12 m ρ c r (hostFree_of hf) hw.1 hw.2.1 hw.2.2.1 hw.2.2.2

theorem arg13 (r : Ref sig .tc) (hf : r ∉ writtenAll) (hw : (∀ w, Pipeline.arrRef spec0 w ≠ r) ∧ (∀ w, Pipeline.arrRef spec1 w ≠ r) ∧
    (∀ w, Pipeline.arrRef spec2 w ≠ r) ∧ (∀ w, Pipeline.arrRef spec3 w ≠ r)) : W13 m ρ c (Proc.devRef .tc r) = 𝐚 r :=
  arg_w13 m ρ c r (hostFree_of hf) hw.1 hw.2.1 hw.2.2.1 hw.2.2.2

theorem w13_v48 : W13 m ρ c (Proc.devRef .tc main_v48)
    = val_main_v74 (F := Ideal) (𝐚 main_arg0) (𝐚 main_arg1) (𝐚 main_arg2) (𝐚 main_arg8) (𝐚 main_arg14) (𝐚 main_arg15) (𝐚 main_arg30) := by
  refine (s42_v48 (W12 m ρ c)).trans ?_
  rw [w12_v22 m ρ c, arg12 m ρ c main_arg8 (by decide) (by decide)]
  rfl

theorem w13_v55 : W13 m ρ c (Proc.devRef .tc main_v55)
    = val_main_v86 (F := Ideal) (𝐚 main_arg3) (𝐚 main_arg4) (𝐚 main_arg5) (𝐚 main_arg8) (𝐚 main_arg16) (𝐚 main_arg17) (𝐚 main_arg31) := by
  refine (s42_v55 (W12 m ρ c)).trans ?_
  rw [w12_v41 m ρ c, arg12 m ρ c main_arg8 (by decide) (by decide)]
  rfl

theorem w13_v56 : W13 m ρ c (Proc.devRef .tc main_v56) = val_main_v77 (F := Ideal) (𝐚 main_arg19) := by
  refine (s42_v56 (W12 m ρ c)).trans ?_; rw [arg12 m ρ c main_arg19 (by decide) (by decide)]
theorem w13_v57 : W13 m ρ c (Proc.devRef .tc main_v57) = val_main_v89 (F := Ideal) (𝐚 main_arg21) := by
  refine (s42_v57 (W12 m ρ c)).trans ?_; rw [arg12 m ρ c main_arg21 (by decide) (by decide)]
theorem w13_v58 : W13 m ρ c (Proc.devRef .tc main_v58) = val_main_v94 (F := Ideal) (𝐚 main_arg23) := by
  refine (s42_v58 (W12 m ρ c)).trans ?_; rw [arg12 m ρ c main_arg23 (by decide) (by decide)]
theorem w13_v59 : W13 m ρ c (Proc.devRef .tc main_v59) = val_main_v100 (F := Ideal) (𝐚 main_arg25) := by
  refine (s42_v59 (W12 m ρ c)).trans ?_; rw [arg12 m ρ c main_arg25 (by decide) (by decide)]
theorem w13_v60 : W13 m ρ c (Proc.devRef .tc main_v60) = val_main_v106 (F := Ideal) (𝐚 main_arg27) := by
  refine (s42_v60 (W12 m ρ c)).trans ?_; rw [arg12 m ρ c main_arg27 (by decide) (by decide)]
theorem w13_v61 : W13 m ρ c (Proc.devRef .tc main_v61) = val_main_v112 (F := Ideal) (𝐚 main_arg29) := by
  refine (s42_v61 (W12 m ρ c)).trans ?_; rw [arg12 m ρ c main_arg29 (by decide) (by decide)]

/-- The reference's fused layer, its two halves, and its result, at the launch contents. -/
abbrev r115 : (⟨Cert.ReferenceIdeal.S8192x128, .f32⟩ : BufTy).Contents (Elt Ideal) :=
  val_main_v115 (F := Ideal) (𝐚 main_arg0) (𝐚 main_arg1) (𝐚 main_arg2) (𝐚 main_arg3) (𝐚 main_arg4) (𝐚 main_arg5) (𝐚 main_arg6) (𝐚 main_arg7) (𝐚 main_arg8) (𝐚 main_arg9)
    (𝐚 main_arg14) (𝐚 main_arg15) (𝐚 main_arg16) (𝐚 main_arg17) (𝐚 main_arg18) (𝐚 main_arg19) (𝐚 main_arg20) (𝐚 main_arg21) (𝐚 main_arg22) (𝐚 main_arg23)
    (𝐚 main_arg24) (𝐚 main_arg25) (𝐚 main_arg26) (𝐚 main_arg27) (𝐚 main_arg28) (𝐚 main_arg29) (𝐚 main_arg30) (𝐚 main_arg31)
abbrev r116 : (⟨Cert.ReferenceIdeal.S4096x128, .f32⟩ : BufTy).Contents (Elt Ideal) :=
  val_main_v116 (F := Ideal) (𝐚 main_arg0) (𝐚 main_arg1) (𝐚 main_arg2) (𝐚 main_arg3) (𝐚 main_arg4) (𝐚 main_arg5) (𝐚 main_arg6) (𝐚 main_arg7) (𝐚 main_arg8) (𝐚 main_arg9)
    (𝐚 main_arg14) (𝐚 main_arg15) (𝐚 main_arg16) (𝐚 main_arg17) (𝐚 main_arg18) (𝐚 main_arg19) (𝐚 main_arg20) (𝐚 main_arg21) (𝐚 main_arg22) (𝐚 main_arg23)
    (𝐚 main_arg24) (𝐚 main_arg25) (𝐚 main_arg26) (𝐚 main_arg27) (𝐚 main_arg28) (𝐚 main_arg29) (𝐚 main_arg30) (𝐚 main_arg31)
abbrev r117 : (⟨Cert.ReferenceIdeal.S4096x128, .f32⟩ : BufTy).Contents (Elt Ideal) :=
  val_main_v117 (F := Ideal) (𝐚 main_arg0) (𝐚 main_arg1) (𝐚 main_arg2) (𝐚 main_arg3) (𝐚 main_arg4) (𝐚 main_arg5) (𝐚 main_arg6) (𝐚 main_arg7) (𝐚 main_arg8) (𝐚 main_arg9)
    (𝐚 main_arg14) (𝐚 main_arg15) (𝐚 main_arg16) (𝐚 main_arg17) (𝐚 main_arg18) (𝐚 main_arg19) (𝐚 main_arg20) (𝐚 main_arg21) (𝐚 main_arg22) (𝐚 main_arg23)
    (𝐚 main_arg24) (𝐚 main_arg25) (𝐚 main_arg26) (𝐚 main_arg27) (𝐚 main_arg28) (𝐚 main_arg29) (𝐚 main_arg30) (𝐚 main_arg31)
abbrev r130 : (⟨Cert.ReferenceIdeal.S4096x2, .f32⟩ : BufTy).Contents (Elt Ideal) :=
  val_main_v130 (F := Ideal) (𝐚 main_arg0) (𝐚 main_arg1) (𝐚 main_arg2) (𝐚 main_arg3) (𝐚 main_arg4) (𝐚 main_arg5) (𝐚 main_arg6) (𝐚 main_arg7) (𝐚 main_arg8) (𝐚 main_arg9)
    (𝐚 main_arg10) (𝐚 main_arg11) (𝐚 main_arg12) (𝐚 main_arg13) (𝐚 main_arg14) (𝐚 main_arg15) (𝐚 main_arg16) (𝐚 main_arg17) (𝐚 main_arg18) (𝐚 main_arg19)
    (𝐚 main_arg20) (𝐚 main_arg21) (𝐚 main_arg22) (𝐚 main_arg23) (𝐚 main_arg24) (𝐚 main_arg25) (𝐚 main_arg26) (𝐚 main_arg27) (𝐚 main_arg28) (𝐚 main_arg29)
    (𝐚 main_arg30) (𝐚 main_arg31)

/-! The nine argument arrays region 4 reads directly, at its entry. -/
theorem w13_a6 : W13 m ρ c (Proc.devRef .tc main_arg6) = 𝐚 main_arg6 := arg13 m ρ c main_arg6 (by decide) (by decide)
theorem w13_a7 : W13 m ρ c (Proc.devRef .tc main_arg7) = 𝐚 main_arg7 := arg13 m ρ c main_arg7 (by decide) (by decide)
theorem w13_a9 : W13 m ρ c (Proc.devRef .tc main_arg9) = 𝐚 main_arg9 := arg13 m ρ c main_arg9 (by decide) (by decide)
theorem w13_a18 : W13 m ρ c (Proc.devRef .tc main_arg18) = 𝐚 main_arg18 := arg13 m ρ c main_arg18 (by decide) (by decide)
theorem w13_a20 : W13 m ρ c (Proc.devRef .tc main_arg20) = 𝐚 main_arg20 := arg13 m ρ c main_arg20 (by decide) (by decide)
theorem w13_a22 : W13 m ρ c (Proc.devRef .tc main_arg22) = 𝐚 main_arg22 := arg13 m ρ c main_arg22 (by decide) (by decide)
theorem w13_a24 : W13 m ρ c (Proc.devRef .tc main_arg24) = 𝐚 main_arg24 := arg13 m ρ c main_arg24 (by decide) (by decide)
theorem w13_a26 : W13 m ρ c (Proc.devRef .tc main_arg26) = 𝐚 main_arg26 := arg13 m ρ c main_arg26 (by decide) (by decide)
theorem w13_a28 : W13 m ρ c (Proc.devRef .tc main_arg28) = 𝐚 main_arg28 := arg13 m ρ c main_arg28 (by decide) (by decide)

set_option maxHeartbeats 1000000 in
theorem w14_v62 : W14 m ρ c (Proc.devRef .tc main_v62) = r115 m c := by
  refine (W14_arr m ρ c 17).trans ((Cert.Bridge.ConcatLayer.region4 (V13 m ρ) c).trans ?_)
  dsimp only [V13]
  simp only [w13_v48 m ρ c, w13_v55 m ρ c, w13_v56 m ρ c, w13_v57 m ρ c, w13_v58 m ρ c, w13_v59 m ρ c, w13_v60 m ρ c, w13_v61 m ρ c,
    w13_a6 m ρ c, w13_a7 m ρ c, w13_a9 m ρ c, w13_a18 m ρ c, w13_a20 m ρ c, w13_a22 m ρ c, w13_a24 m ρ c, w13_a26 m ρ c,
    w13_a28 m ρ c]
  exact (Cert.Bridge.ConcatLayer.catSpec_ref (F := Ideal) _ _ _ _ _ _ _ _ _ _ _ _ _ _ _ _ _ _ _ _ _ _ _ _ _ _ _ _).symm

/-- An argument array at the entry of the head's stretch, and of region 5. -/
theorem arg14 (r : Ref sig .tc) (hf : r ∉ writtenAll) (hw : (∀ w, Pipeline.arrRef spec0 w ≠ r) ∧ (∀ w, Pipeline.arrRef spec1 w ≠ r) ∧
    (∀ w, Pipeline.arrRef spec2 w ≠ r) ∧ (∀ w, Pipeline.arrRef spec3 w ≠ r) ∧ (∀ w, Pipeline.arrRef spec4 w ≠ r)) :
    W14 m ρ c (Proc.devRef .tc r) = 𝐚 r :=
  arg_w14 m ρ c r (hostFree_of hf) hw.1 hw.2.1 hw.2.2.1 hw.2.2.2.1 hw.2.2.2.2

theorem arg15 (r : Ref sig .tc) (hf : r ∉ writtenAll) (hw : (∀ w, Pipeline.arrRef spec0 w ≠ r) ∧ (∀ w, Pipeline.arrRef spec1 w ≠ r) ∧
    (∀ w, Pipeline.arrRef spec2 w ≠ r) ∧ (∀ w, Pipeline.arrRef spec3 w ≠ r) ∧ (∀ w, Pipeline.arrRef spec4 w ≠ r)) :
    W15 m ρ c (Proc.devRef .tc r) = 𝐚 r :=
  arg_w15 m ρ c r (hostFree_of hf) hw.1 hw.2.1 hw.2.2.1 hw.2.2.2.1 hw.2.2.2.2

theorem w15_v63 : W15 m ρ c (Proc.devRef .tc main_v63) = r116 m c := by
  have h : ∀ W : Valuation τ sig (Elt Ideal), W (Proc.devRef .tc main_v62) = r115 m c →
      StableHlo.after hostOps5 W (Proc.devRef .tc main_v63) = r116 m c := by
    intro W h62
    after_results
    rw [h62]
    rfl
  exact h (W14 m ρ c) (w14_v62 m ρ c)

theorem w15_v64 : W15 m ρ c (Proc.devRef .tc main_v64) = r117 m c := by
  have h : ∀ W : Valuation τ sig (Elt Ideal), W (Proc.devRef .tc main_v62) = r115 m c →
      StableHlo.after hostOps5 W (Proc.devRef .tc main_v64) = r117 m c := by
    intro W h62
    after_results
    rw [h62]
    rfl
  exact h (W14 m ρ c) (w14_v62 m ρ c)

theorem w15_v65 : W15 m ρ c (Proc.devRef .tc main_v65) = val_main_v122 (F := Ideal) (𝐚 main_arg11) := by
  refine (s5_v65 (W14 m ρ c)).trans ?_; rw [arg14 m ρ c main_arg11 (by decide) (by decide)]
theorem w15_v66 : W15 m ρ c (Proc.devRef .tc main_v66) = val_main_v128 (F := Ideal) (𝐚 main_arg13) := by
  refine (s5_v66 (W14 m ρ c)).trans ?_; rw [arg14 m ρ c main_arg13 (by decide) (by decide)]

theorem w15_a10 : W15 m ρ c (Proc.devRef .tc main_arg10) = 𝐚 main_arg10 := arg15 m ρ c main_arg10 (by decide) (by decide)
theorem w15_a12 : W15 m ρ c (Proc.devRef .tc main_arg12) = 𝐚 main_arg12 := arg15 m ρ c main_arg12 (by decide) (by decide)

/-- THE RESULT: what the idealized kernel program returns is the reference's result term of the launch contents. -/
theorem result_eq : W16 m ρ c (Proc.devRef .tc main_v67) = r130 m c := by
  refine (W16_arr m ρ c 6).trans ((Cert.Bridge.PairHead.region5 (V15 m ρ) c).trans ?_)
  dsimp only [V15]
  rw [w15_v63 m ρ c, w15_v64 m ρ c, w15_v65 m ρ c, w15_v66 m ρ c, w15_a10 m ρ c, w15_a12 m ρ c]
  exact (Cert.Bridge.PairHead.pairSpec_ref (F := Ideal) _ _ _ _ _ _ _ _ _ _ _ _ _ _ _ _ _ _ _ _ _ _ _ _ _ _ _ _ _ _ _ _).symm

end Cert.Bridge.KernelValue
end
-- ==== Proof.lean ====
/-
  The proof of `Cert.Claim`: five claims about one Pallas pipeline — two dense node layers, two exponential-decay
  edge stages around host gathers and segment sums, a fused batch layer and a pairwise head — against its plain
  jnp reference, both read on the extended reals.

  The three frames: the two kernel programs run (terminate, nothing faulting, the arguments unchanged) by their
  frame certificates over six pallas_call regions; the reference is host operations only, and its run with the
  result dropped is its frame.  The ideal pass rewrote nothing, so `preserves` has nothing to say.

  `algebraic`: the kernel program's run leaves in its result buffer the fold of its sixteen segments at that
  buffer (Proof/KernelRun.lean), and that fold IS the reference's result term of the launch contents
  (Proof/KernelValue.lean): region by region the array the pipeline's write-backs leave is the reference's own
  stage of the region's input arrays — a row block of a product against the whole array's product
  (Proof/LinearRows.lean, Proof/ConcatLayer.lean, Proof/PairHead.lean), a row gather commuting with the product
  against a column (Proof/DecayEdges.lean), a sum over 384 terms cut into three sums over 128
  (Proof/ConcatLayer.lean) — and between the regions both programs apply the same host operations to equal
  arrays.  No step needs an input to be finite.  The reference's run ends at the same term of its own launch
  contents, which agree with the kernel's on the arguments.
-/
import proofs.«179541_j7550552506805_2_alg».proof.Defs
import proofs.«179541_j7550552506805_2_alg».proof.Proof.Gen.Kernel
import proofs.«179541_j7550552506805_2_alg».proof.Proof.Gen.Kernel.Frame
import proofs.«179541_j7550552506805_2_alg».proof.Proof.Gen.KernelIdeal
import proofs.«179541_j7550552506805_2_alg».proof.Proof.Gen.KernelIdeal.Frame
import proofs.«179541_j7550552506805_2_alg».proof.Proof.Gen.ReferenceIdeal
import proofs.«179541_j7550552506805_2_alg».proof.Proof.Gen.Pre_finite_inputs
import proofs.«179541_j7550552506805_2_alg».proof.Proof.Gen.ReferenceIdeal.Run
import proofs.«179541_j7550552506805_2_alg».proof.Proof.Gen.ReferenceIdeal.Read
import proofs.«179541_j7550552506805_2_alg».proof.Proof.KernelRun
import proofs.«179541_j7550552506805_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the kernel's launch contents in their result buffers:
    the kernel by `KernelValue.result_eq`, the reference by its own run read at arguments that agree. -/
theorem algebraic : Cert.algebraic_KernelIdeal_ReferenceIdeal := by
  intro m ρ m' ρ' _ hagree
  refine ⟨fun c => Cert.Bridge.KernelValue.r130 m c, ?_, ?_⟩
  · exact (θ_run Cert.KernelIdeal.defs _ _).mono
      (fun r h c => ⟨(h c).1.trans (Cert.Bridge.KernelValue.result_eq m ρ c), (h c).2⟩)
      (Cert.Bridge.KernelRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v130_eq]
    obtain ⟨h0, h1, h2, h3, h4, h5, h6, h7, h8, h9, h10, h11, h12, h13, h14, h15, h16, h17, h18, h19, h20, h21, h22, h23, h24, h25, h26, h27, h28, h29, h30, h31⟩ := hagree c
    rw [h0, h1, h2, h3, h4, h5, h6, h7, h8, h9, h10, h11, h12, h13, h14, h15, h16, h17, h18, h19, h20, h21, h22, h23, h24, h25, h26, h27, h28, h29, h30, h31]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
